-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v25)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v25) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel

variable [Facts]

def fn {F : FTy → Type} [FloatOps F] (main_arg0 : FVec F S8192x128 .f32) (main_arg1 : FVec F S8192x128 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := Host.absf main_arg1
  let main_cst_0 : FVec F S_ .f32 := constant S_ .f32 0x7F800000#32
  let main_v5 : FVec F S8192x128 .f32 := broadcastInDim S8192x128 ![] bcast_S_S8192x128 main_cst_0
  let main_v6 : IVec S8192x128 1 := cmpf .olt main_v4 main_v5
  let main_c_1 : IVec S_ 1 := constantI S_ 1 1#1
  let main_v7 : IVec S_ 1 := (fun x v => Host.reduce IntOp.andi x v reducesTo_S8192x128_S_d0_1 h_S_) main_v6 main_c_1
  let main_v8 : IVec S_ 1 := andi main_v3 main_v7
  main_v8
-- ==== Kernel.lean ====
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S2x1x1 : Shape := ⟨3, ![2, 1, 1]⟩
abbrev S256x128 : Shape := ⟨2, ![256, 128]⟩
abbrev S1x1x1 : Shape := ⟨3, ![1, 1, 1]⟩
abbrev S256 : Shape := ⟨1, ![256]⟩
abbrev S256x1 : Shape := ⟨2, ![256, 1]⟩
abbrev S256x8192 : Shape := ⟨2, ![256, 8192]⟩
abbrev S1 : Shape := ⟨1, ![1]⟩
abbrev S1x1 : Shape := ⟨2, ![1, 1]⟩

abbrev nBuf : Space → Nat
  | .hbm => 41
  | .vmem => 17
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .bf16⟩
  | .hbm, ⟨3, _⟩ => ⟨S8192x128, .bf16⟩
  | .hbm, ⟨4, _⟩ => ⟨S8192x128, .f32⟩
  | .hbm, ⟨5, _⟩ => ⟨S8192x128, .f32⟩
  | .hbm, ⟨6, _⟩ => ⟨S8192x128, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S1x8192, .f32⟩
  | .hbm, ⟨14, _⟩ => ⟨S8192x128, .f32⟩
  | .hbm, ⟨15, _⟩ => ⟨S_, .f32⟩
  | .hbm, ⟨16, _⟩ => ⟨S8192, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S1x8192, .f32⟩
  | .hbm, ⟨22, _⟩ => ⟨S2x1x1, .f32⟩
  | .hbm, ⟨23, _⟩ => ⟨S2x1x1, .f32⟩
  | .hbm, ⟨24, _⟩ => ⟨S2x1x1, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .local _ .vmem, ⟨0, _⟩ => ⟨S256x128, .bf16⟩
  | .local _ .vmem, ⟨1, _⟩ => ⟨S256x128, .bf16⟩
  | .local _ .vmem, ⟨2, _⟩ => ⟨S256x128, .bf16⟩
  | .local _ .vmem, ⟨3, _⟩ => ⟨S256x128, .bf16⟩
  | .local _ .vmem, ⟨4, _⟩ => ⟨S8192x128, .bf16⟩
  | .local _ .vmem, ⟨5, _⟩ => ⟨S8192x128, .bf16⟩
  | .local _ .vmem, ⟨6, _⟩ => ⟨S1x8192, .f32⟩
  | .local _ .vmem, ⟨7, _⟩ => ⟨S1x8192, .f32⟩
  | .local _ .vmem, ⟨8, _⟩ => ⟨S1x1x1, .f32⟩
  | .local _ .vmem, ⟨9, _⟩ => ⟨S1x1x1, .f32⟩
  | .local _ .vmem, ⟨10, _⟩ => ⟨S1x1x1, .f32⟩
  | .local _ .vmem, ⟨11, _⟩ => ⟨S1x1x1, .f32⟩
  | .local _ .vmem, ⟨12, _⟩ => ⟨S1x1x1, .f32⟩
  | .local _ .vmem, ⟨13, _⟩ => ⟨S1x1x1, .f32⟩
  | .local _ .vmem, ⟨14, _⟩ => ⟨S1x1x1, .f32⟩
  | .local _ .vmem, ⟨15, _⟩ => ⟨S1x1x1, .f32⟩
  | .local _ .vmem, ⟨16, _⟩ => ⟨S1x1x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_cst : Ref sig .tc := ⟨.hbm, 7, rfl⟩
abbrev main_v5 : Ref sig .tc := ⟨.hbm, 8, rfl⟩
abbrev main_v6 : Ref sig .tc := ⟨.hbm, 9, rfl⟩
abbrev main_cst_0 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16_0 : Ref sig .tc := ⟨.hbm, 22, rfl⟩
abbrev main_v16_1 : Ref sig .tc := ⟨.hbm, 23, rfl⟩
abbrev main_v16_2 : Ref sig .tc := ⟨.hbm, 24, rfl⟩
abbrev main_cst_3 : Ref sig .tc := ⟨.hbm, 25, rfl⟩
abbrev main_v17 : Ref sig .tc := ⟨.hbm, 26, rfl⟩
abbrev main_cst_4 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_cst_6 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_cst_8 : Ref sig .tc := ⟨.hbm, 36, rfl⟩
abbrev main_v23 : Ref sig .tc := ⟨.hbm, 37, rfl⟩
abbrev main_cst_9 : Ref sig .tc := ⟨.hbm, 38, rfl⟩
abbrev main_v24 : Ref sig .tc := ⟨.hbm, 39, rfl⟩
abbrev main_v25 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![2, 16], ![false, false]⟩

def k0_cond2 (i : grid0.Coords) : BitVec 1 :=
  let arg1 : BitVec 32 := BitVec.ofNat 32 (i 1).val
  let c15_i32 : BitVec 32 := 15#32
  let v81 : BitVec 1 := Scalar.cmpi .eq arg1 c15_i32
  let v82 : BitVec 32 := Scalar.extui v81
  let c0_i32_45 : BitVec 32 := 0#32
  let v83 : BitVec 1 := Scalar.cmpi .ne v82 c0_i32_45
  v83

def cc0_transform_0 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S8192x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S8192x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x1x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

class Facts₀ : Prop where
  bitsLt_bf16_f32 : FTy.bits .bf16 < FTy.bits .f32
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  shapeCasts_S8192x1_S1x8192 : S8192x1.ShapeCasts S1x8192
  inb_S1x1x1_S1x1x1_0_0_0 : ∀ a, (![0, 0, 0] : Fin 3 → Nat) a + S1x1x1.size a ≤ S1x1x1.size a
  h_S1x1x1 : 0 < S1x1x1.numel
  shapeCasts_S1x1x1_S1x1x1 : S1x1x1.ShapeCasts S1x1x1
  inb_S256x128_S256x128_0_0 : ∀ a, (![0, 0] : Fin 2 → Nat) a + S256x128.size a ≤ S256x128.size a
  h_S256x128 : 0 < S256x128.numel
  shapeCasts_S256x128_S256x128 : S256x128.ShapeCasts S256x128
  inb_S8192x128_S8192x128_0_0 : ∀ a, (![0, 0] : Fin 2 → Nat) a + S8192x128.size a ≤ S8192x128.size a
  h_S8192x128 : 0 < S8192x128.numel
  shapeCasts_S8192x128_S8192x128 : S8192x128.ShapeCasts S8192x128
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  reduces_S256x128_S256 : S256x128.Reduces [1] S256
  shapeCasts_S256_S256x1 : S256.ShapeCasts S256x1
  broadcasts_S256x1_S256x8192 : S256x1.Broadcasts S256x8192
  broadcasts_S1x8192_S256x8192 : S1x8192.Broadcasts S256x8192
  reduces_S256x8192_S256 : S256x8192.Reduces [1] S256
  reduces_S256x1_S1 : S256x1.Reduces [0] S1
  shapeCasts_S1_S1x1 : S1.ShapeCasts S1x1
  shapeCasts_S1x1_S1x1x1 : S1x1.ShapeCasts S1x1x1
  reducesTo_S2x1x1_S_d0_1_2 : S2x1x1.ReducesTo [0, 1, 2] S_
  dot_S256x128_S8192x128_S256x8192_1_1_0_0_n_n_wf : DotDims.WF S256x128 S8192x128 S256x8192 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x128.size a ≤ S8192x128.size a
  hwx0_0 : ∀ i : grid0.Coords, EltTy.bits .bf16 = 32 ∨ (Rect.block (s := S8192x128) S256x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S8192x128.size a
  hwx0_1 : ∀ i : grid0.Coords, EltTy.bits .bf16 = 32 ∨ (Rect.block (s := S8192x128) S256x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S8192x128.size a ≤ S8192x128.size a
  hwx0_2 : ∀ i : grid0.Coords, EltTy.bits .bf16 = 32 ∨ (Rect.block (s := S8192x128) S8192x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8192x128.size a ≤ S8192x128.size a
  hwx0_3 : ∀ i : grid0.Coords, EltTy.bits .bf16 = 32 ∨ (Rect.block (s := S8192x128) S8192x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x8192.size a ≤ S1x8192.size a
  hwx0_4 : ∀ i : grid0.Coords, EltTy.bits .f32 = 32 ∨ (Rect.block (s := S1x8192) S1x8192.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x8192.size a ≤ S1x8192.size a
  hwx0_5 : ∀ i : grid0.Coords, EltTy.bits .f32 = 32 ∨ (Rect.block (s := S1x8192) S1x8192.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x1x1.size a ≤ S2x1x1.size a
  hwx0_6 : ∀ i : grid0.Coords, EltTy.bits .f32 = 32 ∨ (Rect.block (s := S2x1x1) S1x1x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x1.size a ≤ S2x1x1.size a
  hwx0_7 : ∀ i : grid0.Coords, EltTy.bits .f32 = 32 ∨ (Rect.block (s := S2x1x1) S1x1x1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x1.size a ≤ S2x1x1.size a
  hwx0_8 : ∀ i : grid0.Coords, EltTy.bits .f32 = 32 ∨ (Rect.block (s := S2x1x1) S1x1x1.size (cc0_transform_8 i) (hinb0_8 i)).WholeWords (EltTy.packing .f32)

variable [Facts₀]

def dot_S256x128_S8192x128_S256x8192_1_1_0_0_n_n : DotDims S256x128 S8192x128 S256x8192 where
  lhsContracting := [1]
  rhsContracting := [1]
  lhsNonContracting := [0]
  rhsNonContracting := [0]
  lhsBatch := []
  rhsBatch := []
  wf := dot_S256x128_S8192x128_S256x8192_1_1_0_0_n_n_wf

abbrev win0_0 : Pipeline.Window sig grid0 :=
  Pipeline.Window.ofSpec (Memref.whole main_v0) S256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S256x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S8192x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S8192x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1x8192.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x8192.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16_0) S1x1x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v16_1) S1x1x1.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v16_2) S1x1x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun i => !(k0_cond2 i == 1#1) | 7 => fun i => !(k0_cond2 i == 1#1) | 8 => fun i => !(k0_cond2 i == 1#1) | ⟨_ + 9, h⟩ => absurd h (Nat.not_lt.2 (Nat.le_add_left _ _))

class Facts : Prop extends Facts₀ where

variable [Facts]
-- ==== ReferenceIdeal.lean ====
abbrev S8192x128 : Shape := ⟨2, ![8192, 128]⟩
abbrev S_ : Shape := ⟨0, ![]⟩
abbrev S8192 : Shape := ⟨1, ![8192]⟩
abbrev S8192x1 : Shape := ⟨2, ![8192, 1]⟩
abbrev S1x8192 : Shape := ⟨2, ![1, 8192]⟩
abbrev S8192x8192 : Shape := ⟨2, ![8192, 8192]⟩
abbrev S128x8192 : Shape := ⟨2, ![128, 8192]⟩

abbrev nBuf : Space → Nat
  | .hbm => 84
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x128, .f32⟩
  | .hbm, ⟨2, _⟩ => ⟨S8192x128, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S8192x128, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S1x8192, .f32⟩
  | .hbm, ⟨11, _⟩ => ⟨S8192x8192, .f32⟩
  | .hbm, ⟨12, _⟩ => ⟨S8192x8192, .f32⟩
  | .hbm, ⟨13, _⟩ => ⟨S8192x8192, .f32⟩
  | .hbm, ⟨14, _⟩ => ⟨S128x8192, .f32⟩
  | .hbm, ⟨15, _⟩ => ⟨S8192x8192, .f32⟩
  | .hbm, ⟨16, _⟩ => ⟨S_, .f32⟩
  | .hbm, ⟨17, _⟩ => ⟨S8192x8192, .f32⟩
  | .hbm, ⟨18, _⟩ => ⟨S8192x8192, .f32⟩
  | .hbm, ⟨19, _⟩ => ⟨S8192x8192, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S8192x128, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S8192x128, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S1x8192, .f32⟩
  | .hbm, ⟨37, _⟩ => ⟨S8192x8192, .f32⟩
  | .hbm, ⟨38, _⟩ => ⟨S8192x8192, .f32⟩
  | .hbm, ⟨39, _⟩ => ⟨S8192x8192, .f32⟩
  | .hbm, ⟨40, _⟩ => ⟨S128x8192, .f32⟩
  | .hbm, ⟨41, _⟩ => ⟨S8192x8192, .f32⟩
  | .hbm, ⟨42, _⟩ => ⟨S_, .f32⟩
  | .hbm, ⟨43, _⟩ => ⟨S8192x8192, .f32⟩
  | .hbm, ⟨44, _⟩ => ⟨S8192x8192, .f32⟩
  | .hbm, ⟨45, _⟩ => ⟨S8192x8192, .f32⟩
  | .hbm, ⟨46, _⟩ => ⟨S_, .f32⟩
  | .hbm, ⟨47, _⟩ => ⟨S8192x8192, .f32⟩
  | .hbm, ⟨48, _⟩ => ⟨S8192x8192, .f32⟩
  | .hbm, ⟨49, _⟩ => ⟨S8192x8192, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S8192x128, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S8192x128, .f32⟩
  | .hbm, ⟨60, _⟩ => ⟨S_, .f32⟩
  | .hbm, ⟨61, _⟩ => ⟨S8192, .f32⟩
  | .hbm, ⟨62, _⟩ => ⟨S8192x1, .f32⟩
  | .hbm, ⟨63, _⟩ => ⟨S1x8192, .f32⟩
  | .hbm, ⟨64, _⟩ => ⟨S8192x8192, .f32⟩
  | .hbm, ⟨65, _⟩ => ⟨S8192x8192, .f32⟩
  | .hbm, ⟨66, _⟩ => ⟨S8192x8192, .f32⟩
  | .hbm, ⟨67, _⟩ => ⟨S128x8192, .f32⟩
  | .hbm, ⟨68, _⟩ => ⟨S8192x8192, .f32⟩
  | .hbm, ⟨69, _⟩ => ⟨S_, .f32⟩
  | .hbm, ⟨70, _⟩ => ⟨S8192x8192, .f32⟩
  | .hbm, ⟨71, _⟩ => ⟨S8192x8192, .f32⟩
  | .hbm, ⟨72, _⟩ => ⟨S8192x8192, .f32⟩
  | .hbm, ⟨73, _⟩ => ⟨S_, .f32⟩
  | .hbm, ⟨74, _⟩ => ⟨S8192x8192, .f32⟩
  | .hbm, ⟨75, _⟩ => ⟨S8192x8192, .f32⟩
  | .hbm, ⟨76, _⟩ => ⟨S8192x8192, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | .hbm, ⟨83, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_cst_2 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_cst_3 : Ref sig .tc := ⟨.hbm, 24, rfl⟩
abbrev main_v18 : Ref sig .tc := ⟨.hbm, 25, rfl⟩
abbrev main_cst_4 : Ref sig .tc := ⟨.hbm, 26, rfl⟩
abbrev main_v19 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_6 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_7 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_8 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_9 : Ref sig .tc := ⟨.hbm, 50, rfl⟩
abbrev main_v38 : Ref sig .tc := ⟨.hbm, 51, rfl⟩
abbrev main_cst_10 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_11 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_12 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_13 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_cst_14 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_15 : Ref sig .tc := ⟨.hbm, 77, rfl⟩
abbrev main_v59 : Ref sig .tc := ⟨.hbm, 78, rfl⟩
abbrev main_cst_16 : Ref sig .tc := ⟨.hbm, 79, rfl⟩
abbrev main_v60 : Ref sig .tc := ⟨.hbm, 80, rfl⟩
abbrev main_cst_17 : Ref sig .tc := ⟨.hbm, 81, rfl⟩
abbrev main_v61 : Ref sig .tc := ⟨.hbm, 82, rfl⟩
abbrev main_v62 : Ref sig .tc := ⟨.hbm, 83, rfl⟩

abbrev nD : Nat := 1
abbrev τ : Topo := Topo.v7x

variable {F : FTy → Type} [FloatOps F]

class Facts₀ : Prop where
  reducesTo_S8192x128_S8192_d1 : S8192x128.ReducesTo [1] S8192
  h_S_ : 0 < S_.numel
  bcast_S8192_S8192x1_0 : S8192.BroadcastsInDim S8192x1 (![0] : Fin 1 → Fin S8192x1.rank)
  transposes_S8192x1_S1x8192_1_0 : S8192x1.Transposes [1, 0] S1x8192
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x128_S128x8192_1_0 : S8192x128.Transposes [1, 0] S128x8192
  bcast_S_S8192x8192 : S_.BroadcastsInDim S8192x8192 (![] : Fin 0 → Fin S8192x8192.rank)
  reducesTo_S8192x8192_S_d0_1 : S8192x8192.ReducesTo [0, 1] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.KEntry.lean ====
/-
  What the kernel region is entered with, shared by the proof data of the region's body and by the launch.

  @main first runs twenty host operations (the two arguments rounded to bf16, the rounded arrays' row norms
  times -1 laid out as rows [1, 8192]); the region then stages, at each of its 2 x 16 grid points, a tile of 256
  rows of each rounded array (windows 0, 1), both rounded arrays whole (windows 2, 3: the SAME two arrays a second
  time), the two norm rows (windows 4, 5), and writes three [2, 1, 1] results back (windows 6, 7, 8).
  `V` is what the buffers hold when the region is entered; `iblk` a window's block there; `inShare` how an array
  handed to two input windows is divided between them (one half each), every other window holding its array whole.
-/
import proofs.«136887_j59356448031516_2_alg».proof.Proof.Gen.Kernel.Launch
import proofs.«136887_j59356448031516_2_alg».proof.Proof.Gen.Kernel.Skeleton
import proofs.«136887_j59356448031516_2_alg».proof.Proof.Gen.Kernel.Points
import Idealize.ShloMosaic.Lib.Pipeline.FrameBody
import Idealize.ShloMosaic.Lib.Pipeline.FrameSuffix
import Idealize.ShloMosaic.Lib.Tactic

noncomputable section

namespace Cert.Kernel.Mmd

open Idealize.ShloMosaic Idealize.ShloMosaic.TcCoe
open Idealize.SL Idealize.SL.RA Idealize.SL.Sem
open Cert.Kernel Cert.Kernel.Gen

variable {F : FTy → Type} [FloatOps F]
variable (m : (ℓ : Loc nD τ sig) → Buf (Elt F) ℓ)

/-- Core `c`'s TensorCore buffers when the region is entered: the launch memory after the host operations before it. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The share of its array each input window holds: the two windows on the first rounded array (0 and 2) one half
    each, likewise the two on the second (1 and 3); a window alone on its array the whole. (An output window always
    holds its array whole, whatever is said here.) -/
def inShare : Fin 9 → PosShare TreeShare
  | ⟨0, _⟩ => fullShare.left
  | ⟨1, _⟩ => fullShare.left
  | ⟨2, _⟩ => fullShare.right
  | ⟨3, _⟩ => fullShare.right
  | ⟨4, _⟩ => fullShare
  | ⟨5, _⟩ => fullShare
  | ⟨6, _⟩ => fullShare
  | ⟨7, _⟩ => fullShare
  | ⟨8, _⟩ => fullShare
  | ⟨_ + 9, h⟩ => absurd h (Nat.not_lt.2 (Nat.le_add_left _ _))

end Cert.Kernel.Mmd

end
-- ==== Proof.KLaunch.lean ====
/-
  The launch around the region, for ANY proof data of the region's body with the entry arrays of `Entry.lean` and the
  input shares `inShare`.

  @main is three stretches: twenty host operations, the region, sixteen host operations. Between stretches a core
  holds every unscoped buffer whole at a valuation. The region is entered by dealing those buffers to the windows:
  an array read by two input windows is cut into two half shares, one per window; every other array goes whole to its
  window; the buffers no window stages pass by. At the exit the halves, which still hold what they held (an input
  window never changes its array), are joined again, and the three result arrays are taken at what the write-backs
  left. So after the region the buffers hold the entry valuation overwritten at the three results, and the last
  stretch runs from there.
-/
import proofs.«136887_j59356448031516_2_alg».proof.Proof.KEntry
import Idealize.ShloMosaic.Lib.Pipeline.Regions

noncomputable section

namespace Cert.Kernel.Mmd

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No core owes another anything: no level is assigned, and no table is prefetched. -/
abbrev L : GSem nD τ sig → Finset Unit := fun _ => ∅
abbrev lv : GSem nD τ sig → Unit → ℕ := fun _ _ => 0
abbrev adm : (p : Fin 1) → (pcfgs (F := F) p).Adm := fun p => (cfgs p).toPCfg_adm

/-- What rides beside the buffers through every stretch: the generator register at some state, and the core owing
    nothing. -/
abbrev R (c : Dev nD) : sProp 𝕄 :=
  iprop((∃ r, prngReg c r) ∗ ∃ W, owes (c : Thread nD τ) (0 : CellTallies nD τ sig Unit) W)

/-- The launch memory as a valuation of core `c`'s buffers. -/
abbrev Vlaunch (c : Dev nD) : Valuation τ sig (Elt F) := fun b => m (c, b)

theorem hostOps0_fresh : ∀ op ∈ (hostOps0 : List (HloOp τ sig (Elt F))), op.fresh = ∅ := by
  intro _ h; (repeat (cases h with | head => rfl | tail _ h => ?_)); exact nomatch h

theorem hostOps1_fresh : ∀ op ∈ (hostOps1 : List (HloOp τ sig (Elt F))), op.fresh = ∅ := by
  intro _ h; (repeat (cases h with | head => rfl | tail _ h => ?_)); exact nomatch h

/-- The first stretch: the twenty host operations over the unscoped buffers. -/
def segBefore : Pipeline.HostSeg (Name := ℕ) (U := UR sig nD τ) (pcfgs (F := F)) defs₀ Variants.none L lv :=
  Pipeline.HostSeg.ofOps _ _ _ _ _ (Pipeline.ucRefs τ sig) hostOps0
    (fun op h => Pipeline.sub_ucRefs op ((List.forall_iff_forall_mem.mp hostOps0_sub) op h)) hostOps0_fresh (Vlaunch m) R

/-- The three result arrays' contents the region leaves, written over a valuation: each result buffer takes its
    contents, every other buffer keeps what it held. -/
abbrev overwritten (W : Valuation τ sig (Elt F)) (r0 : main_v16_0.ty.Contents (Elt F)) (r1 : main_v16_1.ty.Contents (Elt F))
    (r2 : main_v16_2.ty.Contents (Elt F)) : Valuation τ sig (Elt F) :=
  StableHlo.after [StableHlo.nullary main_v16_0 r0, StableHlo.nullary main_v16_1 r1, StableHlo.nullary main_v16_2 r2] W

/-- The last stretch, from the region's exit valuation `W`. -/
def segAfter (W : Dev nD → Valuation τ sig (Elt F)) : Pipeline.HostSeg (Name := ℕ) (U := UR sig nD τ) (pcfgs (F := F)) defs₀ Variants.none L lv :=
  Pipeline.HostSeg.ofOps _ _ _ _ _ (Pipeline.ucRefs τ sig) hostOps1
    (fun op h => Pipeline.sub_ucRefs op ((List.forall_iff_forall_mem.mp hostOps1_sub) op h)) hostOps1_fresh W R

/-! ## The region, for any proof data with these arrays and shares -/

variable (dats : (p : Fin 1) → (c : Dev nD) → Dat τ (Elt F) Unit ℕ (UR sig nD τ) ℕ (cfgs p) c)

/-- What core `c`'s buffers hold when the region is left: as at the entry, but for the three results. -/
abbrev Vexit (c : Dev nD) : Valuation τ sig (Elt F) :=
  overwritten (V0 m c) ((dats 0 c).arrAt 6 cfg0.N) ((dats 0 c).arrAt 7 cfg0.N) ((dats 0 c).arrAt 8 cfg0.N)

/-- Off the three results the exit valuation is the entry one. -/
theorem Vexit_of_ne (c : Dev nD) (b : Ref sig .tc) (h0 : b ≠ main_v16_0) (h1 : b ≠ main_v16_1) (h2 : b ≠ main_v16_2) :
    Vexit m dats c (Proc.devRef .tc b) = V m c b :=
  StableHlo.after_of_forall_not_mem (b := Proc.devRef .tc b) _ _ (by
    intro op hop
    simp only [List.mem_cons, List.mem_nil_iff, or_false] at hop
    rcases hop with rfl | rfl | rfl <;>
      simp only [StableHlo.nullary_writes, Finset.mem_singleton] <;>
      exact StableHlo.devRef_ne_of_ne ‹_›)

variable (hA : ∀ c w, (dats 0 c).A w = V m c (Pipeline.arrRef spec0 w))
  (hq : ∀ c w, (dats 0 c).q w = inShare w)

include hq in
/-- Every window holds its array at `inShare` (an output window the whole, which is what `inShare` says of it too). -/
theorem share_eq (c : Dev nD) (w : Fin 9) : (dats 0 c).share w = inShare w := by
  unfold Dat.share; rw [hq]
  fin_cases w <;> rfl

/-- One window's array in `Dat.arrays`, as a points-to of the buffer behind it at the window's share. -/
theorem arr_term (c : Dev nD) (w : Fin 9) (q : PosShare TreeShare) (X : Buf (Elt F) ((cfg0.win w).arr.view.loc (c.tc : Thread nD τ))) :
    ((cfg0.win w).arr.view.loc (c.tc : Thread nD τ) ↦[(cfg0.win w).arr.view.set]{q} X : sProp 𝕄)
      = (((c.tc : Thread nD τ).loc (Pipeline.arrRef spec0 w)) ↦{q} X) := by
  rw [(arr_whole0 w).set_eq_univ]

/-- The seven buffers behind the nine windows' arrays (windows 2 and 3 are on the buffers of windows 0 and 1). -/
theorem arrRefs_eq : Finset.univ.image (Pipeline.arrRef spec0)
    = [main_v0, main_v1, main_v9, main_v15, main_v16_0, main_v16_1, main_v16_2].toFinset := by
  decide
theorem arrRefs_nodup : [main_v0, main_v1, main_v9, main_v15, main_v16_0, main_v16_1, main_v16_2].Nodup := by decide

/-! One window's array in `Dat.arrays`, as a points-to of the named buffer behind it at the window's share. -/

include hq in
set_option maxHeartbeats 4000000 in
theorem arr_term0 (c : Dev nD) (n : ℕ) :
    ((cfg0.win 0).arr.view.loc (c.tc : Thread nD τ) ↦[(cfg0.win 0).arr.view.set]{(dats 0 c).share 0} (dats 0 c).arrAt 0 n : sProp 𝕄)
      = (((c.tc : Thread nD τ).loc main_v0) ↦{fullShare.left} (dats 0 c).arrAt 0 n) := by
  rw [(arr_whole0 0).set_eq_univ, share_eq dats hq c 0]; rfl

include hq in
set_option maxHeartbeats 4000000 in
theorem arr_term1 (c : Dev nD) (n : ℕ) :
    ((cfg0.win 1).arr.view.loc (c.tc : Thread nD τ) ↦[(cfg0.win 1).arr.view.set]{(dats 0 c).share 1} (dats 0 c).arrAt 1 n : sProp 𝕄)
      = (((c.tc : Thread nD τ).loc main_v1) ↦{fullShare.left} (dats 0 c).arrAt 1 n) := by
  rw [(arr_whole0 1).set_eq_univ, share_eq dats hq c 1]; rfl

include hq in
set_option maxHeartbeats 4000000 in
theorem arr_term2 (c : Dev nD) (n : ℕ) :
    ((cfg0.win 2).arr.view.loc (c.tc : Thread nD τ) ↦[(cfg0.win 2).arr.view.set]{(dats 0 c).share 2} (dats 0 c).arrAt 2 n : sProp 𝕄)
      = (((c.tc : Thread nD τ).loc main_v0) ↦{fullShare.right} (dats 0 c).arrAt 2 n) := by
  rw [(arr_whole0 2).set_eq_univ, share_eq dats hq c 2]; rfl

include hq in
set_option maxHeartbeats 4000000 in
theorem arr_term3 (c : Dev nD) (n : ℕ) :
    ((cfg0.win 3).arr.view.loc (c.tc : Thread nD τ) ↦[(cfg0.win 3).arr.view.set]{(dats 0 c).share 3} (dats 0 c).arrAt 3 n : sProp 𝕄)
      = (((c.tc : Thread nD τ).loc main_v1) ↦{fullShare.right} (dats 0 c).arrAt 3 n) := by
  rw [(arr_whole0 3).set_eq_univ, share_eq dats hq c 3]; rfl

include hq in
set_option maxHeartbeats 4000000 in
theorem arr_term4 (c : Dev nD) (n : ℕ) :
    ((cfg0.win 4).arr.view.loc (c.tc : Thread nD τ) ↦[(cfg0.win 4).arr.view.set]{(dats 0 c).share 4} (dats 0 c).arrAt 4 n : sProp 𝕄)
      = (((c.tc : Thread nD τ).loc main_v9) ↦{fullShare} (dats 0 c).arrAt 4 n) := by
  rw [(arr_whole0 4).set_eq_univ, share_eq dats hq c 4]; rfl

include hq in
set_option maxHeartbeats 4000000 in
theorem arr_term5 (c : Dev nD) (n : ℕ) :
    ((cfg0.win 5).arr.view.loc (c.tc : Thread nD τ) ↦[(cfg0.win 5).arr.view.set]{(dats 0 c).share 5} (dats 0 c).arrAt 5 n : sProp 𝕄)
      = (((c.tc : Thread nD τ).loc main_v15) ↦{fullShare} (dats 0 c).arrAt 5 n) := by
  rw [(arr_whole0 5).set_eq_univ, share_eq dats hq c 5]; rfl

include hq in
set_option maxHeartbeats 4000000 in
theorem arr_term6 (c : Dev nD) (n : ℕ) :
    ((cfg0.win 6).arr.view.loc (c.tc : Thread nD τ) ↦[(cfg0.win 6).arr.view.set]{(dats 0 c).share 6} (dats 0 c).arrAt 6 n : sProp 𝕄)
      = (((c.tc : Thread nD τ).loc main_v16_0) ↦{fullShare} (dats 0 c).arrAt 6 n) := by
  rw [(arr_whole0 6).set_eq_univ, share_eq dats hq c 6]; rfl

include hq in
set_option maxHeartbeats 4000000 in
theorem arr_term7 (c : Dev nD) (n : ℕ) :
    ((cfg0.win 7).arr.view.loc (c.tc : Thread nD τ) ↦[(cfg0.win 7).arr.view.set]{(dats 0 c).share 7} (dats 0 c).arrAt 7 n : sProp 𝕄)
      = (((c.tc : Thread nD τ).loc main_v16_1) ↦{fullShare} (dats 0 c).arrAt 7 n) := by
  rw [(arr_whole0 7).set_eq_univ, share_eq dats hq c 7]; rfl

include hq in
set_option maxHeartbeats 4000000 in
theorem arr_term8 (c : Dev nD) (n : ℕ) :
    ((cfg0.win 8).arr.view.loc (c.tc : Thread nD τ) ↦[(cfg0.win 8).arr.view.set]{(dats 0 c).share 8} (dats 0 c).arrAt 8 n : sProp 𝕄)
      = (((c.tc : Thread nD τ).loc main_v16_2) ↦{fullShare} (dats 0 c).arrAt 8 n) := by
  rw [(arr_whole0 8).set_eq_univ, share_eq dats hq c 8]; rfl

include hq in
set_option maxHeartbeats 8000000 in
/-- The nine windows' arrays after the write-backs of the first `n` points, window by window. -/
theorem arrays_chain (c : Dev nD) (n : ℕ) :
    ((dats 0 c).arrays ((dats 0 c).arrAt · n) : sProp 𝕄)
      = iprop((((c.tc : Thread nD τ).loc main_v0) ↦{fullShare.left} (dats 0 c).arrAt 0 n)
        ∗ (((c.tc : Thread nD τ).loc main_v1) ↦{fullShare.left} (dats 0 c).arrAt 1 n)
        ∗ (((c.tc : Thread nD τ).loc main_v0) ↦{fullShare.right} (dats 0 c).arrAt 2 n)
        ∗ (((c.tc : Thread nD τ).loc main_v1) ↦{fullShare.right} (dats 0 c).arrAt 3 n)
        ∗ (((c.tc : Thread nD τ).loc main_v9) ↦{fullShare} (dats 0 c).arrAt 4 n)
        ∗ (((c.tc : Thread nD τ).loc main_v15) ↦{fullShare} (dats 0 c).arrAt 5 n)
        ∗ (((c.tc : Thread nD τ).loc main_v16_0) ↦{fullShare} (dats 0 c).arrAt 6 n)
        ∗ (((c.tc : Thread nD τ).loc main_v16_1) ↦{fullShare} (dats 0 c).arrAt 7 n)
        ∗ (((c.tc : Thread nD τ).loc main_v16_2) ↦{fullShare} (dats 0 c).arrAt 8 n)) := by
  unfold Dat.arrays
  rw [bigSep_W0]
  exact (congrArg₂ BI.sep (arr_term0 dats hq c n) (congrArg₂ BI.sep (arr_term1 dats hq c n) (congrArg₂ BI.sep (arr_term2 dats hq c n) (congrArg₂ BI.sep (arr_term3 dats hq c n) (congrArg₂ BI.sep (arr_term4 dats hq c n) (congrArg₂ BI.sep (arr_term5 dats hq c n) (congrArg₂ BI.sep (arr_term6 dats hq c n) (congrArg₂ BI.sep (arr_term7 dats hq c n) (arr_term8 dats hq c n)))))))))

/-! What the windows' arrays hold at the entry, and the inputs' at the exit: the entry valuation at the named buffer. -/

include hA in
set_option maxHeartbeats 4000000 in
theorem arrAt0_zero (c : Dev nD) : (dats 0 c).arrAt 0 0 = V m c main_v0 := hA c 0

include hA in
set_option maxHeartbeats 4000000 in
theorem arrAt1_zero (c : Dev nD) : (dats 0 c).arrAt 1 0 = V m c main_v1 := hA c 1

include hA in
set_option maxHeartbeats 4000000 in
theorem arrAt2_zero (c : Dev nD) : (dats 0 c).arrAt 2 0 = V m c main_v0 := hA c 2

include hA in
set_option maxHeartbeats 4000000 in
theorem arrAt3_zero (c : Dev nD) : (dats 0 c).arrAt 3 0 = V m c main_v1 := hA c 3

include hA in
set_option maxHeartbeats 4000000 in
theorem arrAt4_zero (c : Dev nD) : (dats 0 c).arrAt 4 0 = V m c main_v9 := hA c 4

include hA in
set_option maxHeartbeats 4000000 in
theorem arrAt5_zero (c : Dev nD) : (dats 0 c).arrAt 5 0 = V m c main_v15 := hA c 5

include hA in
set_option maxHeartbeats 4000000 in
theorem arrAt6_zero (c : Dev nD) : (dats 0 c).arrAt 6 0 = V m c main_v16_0 := hA c 6

include hA in
set_option maxHeartbeats 4000000 in
theorem arrAt7_zero (c : Dev nD) : (dats 0 c).arrAt 7 0 = V m c main_v16_1 := hA c 7

include hA in
set_option maxHeartbeats 4000000 in
theorem arrAt8_zero (c : Dev nD) : (dats 0 c).arrAt 8 0 = V m c main_v16_2 := hA c 8

include hA in
set_option maxHeartbeats 4000000 in
theorem arrAt0_end (c : Dev nD) : (dats 0 c).arrAt 0 cfg0.N = V m c main_v0 :=
  ((dats 0 c).arrAt_in 0 (by decide) _).trans (hA c 0)

include hA in
set_option maxHeartbeats 4000000 in
theorem arrAt1_end (c : Dev nD) : (dats 0 c).arrAt 1 cfg0.N = V m c main_v1 :=
  ((dats 0 c).arrAt_in 1 (by decide) _).trans (hA c 1)

include hA in
set_option maxHeartbeats 4000000 in
theorem arrAt2_end (c : Dev nD) : (dats 0 c).arrAt 2 cfg0.N = V m c main_v0 :=
  ((dats 0 c).arrAt_in 2 (by decide) _).trans (hA c 2)

include hA in
set_option maxHeartbeats 4000000 in
theorem arrAt3_end (c : Dev nD) : (dats 0 c).arrAt 3 cfg0.N = V m c main_v1 :=
  ((dats 0 c).arrAt_in 3 (by decide) _).trans (hA c 3)

include hA in
set_option maxHeartbeats 4000000 in
theorem arrAt4_end (c : Dev nD) : (dats 0 c).arrAt 4 cfg0.N = V m c main_v9 :=
  ((dats 0 c).arrAt_in 4 (by decide) _).trans (hA c 4)

include hA in
set_option maxHeartbeats 4000000 in
theorem arrAt5_end (c : Dev nD) : (dats 0 c).arrAt 5 cfg0.N = V m c main_v15 :=
  ((dats 0 c).arrAt_in 5 (by decide) _).trans (hA c 5)

/-- The seven buffers behind the windows' arrays, whole at contents `W`, one by one. -/
theorem arrBufs_chain (c : Dev nD) (W : (b : Ref sig .tc) → Buf (Elt F) ((c.tc : Thread nD τ).loc b)) :
    (Pipeline.arrBufs spec0 c W : sProp 𝕄)
      = iprop((((c.tc : Thread nD τ).loc main_v0) ↦{fullShare} W main_v0) ∗ (((c.tc : Thread nD τ).loc main_v1) ↦{fullShare} W main_v1)
        ∗ (((c.tc : Thread nD τ).loc main_v9) ↦{fullShare} W main_v9) ∗ (((c.tc : Thread nD τ).loc main_v15) ↦{fullShare} W main_v15)
        ∗ (((c.tc : Thread nD τ).loc main_v16_0) ↦{fullShare} W main_v16_0) ∗ (((c.tc : Thread nD τ).loc main_v16_1) ↦{fullShare} W main_v16_1)
        ∗ (((c.tc : Thread nD τ).loc main_v16_2) ↦{fullShare} W main_v16_2)) := by
  unfold Pipeline.arrBufs
  rw [bigSep_eq_bigSepL_of_eq _ arrRefs_eq arrRefs_nodup]
  rfl

include hA hq in
set_option maxHeartbeats 8000000 in
/-- ENTRY. The seven buffers whole at the entry valuation deal the nine windows their arrays: the first rounded array
    cut in two halves for windows 0 and 2, the second for windows 1 and 3, the rest whole. -/
theorem entry_arrays (c : Dev nD) :
    (Pipeline.arrBufs spec0 c (V m c) : sProp 𝕄) ⊢ (dats 0 c).arrays ((dats 0 c).arrAt · 0) := by
  rw [arrays_chain dats hq c 0, arrBufs_chain]
  rw [arrAt0_zero m dats hA, arrAt1_zero m dats hA, arrAt2_zero m dats hA, arrAt3_zero m dats hA, arrAt4_zero m dats hA,
    arrAt5_zero m dats hA, arrAt6_zero m dats hA, arrAt7_zero m dats hA, arrAt8_zero m dats hA]
  iintro ⟨H0, H1, H4, H5, H6, H7, H8⟩
  ihave H0' := (pointsTo_share (PosShare.mem_left_op_right fullShare)).1 $$ H0
  ihave H1' := (pointsTo_share (PosShare.mem_left_op_right fullShare)).1 $$ H1
  icases H0' with ⟨H0l, H0r⟩
  icases H1' with ⟨H1l, H1r⟩
  isplitl [H0l]; · iexact H0l
  isplitl [H1l]; · iexact H1l
  isplitl [H0r]; · iexact H0r
  isplitl [H1r]; · iexact H1r
  isplitl [H4]; · iexact H4
  isplitl [H5]; · iexact H5
  isplitl [H6]; · iexact H6
  isplitl [H7]; · iexact H7
  iexact H8

/-- What the exit valuation holds at each of the seven buffers. -/
theorem Vexit_v0 (c : Dev nD) : Vexit m dats c (Proc.devRef .tc main_v0) = V m c main_v0 :=
  Vexit_of_ne m dats c _ (by decide) (by decide) (by decide)
theorem Vexit_v1 (c : Dev nD) : Vexit m dats c (Proc.devRef .tc main_v1) = V m c main_v1 :=
  Vexit_of_ne m dats c _ (by decide) (by decide) (by decide)
theorem Vexit_v9 (c : Dev nD) : Vexit m dats c (Proc.devRef .tc main_v9) = V m c main_v9 :=
  Vexit_of_ne m dats c _ (by decide) (by decide) (by decide)
theorem Vexit_v15 (c : Dev nD) : Vexit m dats c (Proc.devRef .tc main_v15) = V m c main_v15 :=
  Vexit_of_ne m dats c _ (by decide) (by decide) (by decide)
set_option maxHeartbeats 4000000 in
theorem Vexit_6 (c : Dev nD) : Vexit m dats c (Proc.devRef .tc main_v16_0) = (dats 0 c).arrAt 6 cfg0.N := by
  dsimp only [Vexit, overwritten]; after_results
set_option maxHeartbeats 4000000 in
theorem Vexit_7 (c : Dev nD) : Vexit m dats c (Proc.devRef .tc main_v16_1) = (dats 0 c).arrAt 7 cfg0.N := by
  dsimp only [Vexit, overwritten]; after_results
set_option maxHeartbeats 4000000 in
theorem Vexit_8 (c : Dev nD) : Vexit m dats c (Proc.devRef .tc main_v16_2) = (dats 0 c).arrAt 8 cfg0.N := by
  dsimp only [Vexit, overwritten]; after_results

include hA hq in
set_option maxHeartbeats 8000000 in
/-- EXIT. The nine windows' arrays after the last point give the seven buffers back whole at the exit valuation: the
    two halves of each shared array, both still at the entry contents, are joined; the results are at what the
    write-backs left. -/
theorem exit_arrays (c : Dev nD) :
    (dats 0 c).arrays ((dats 0 c).arrAt · cfg0.N)
      ⊢ (Pipeline.arrBufs spec0 c (fun b => Vexit m dats c (Proc.devRef .tc b)) : sProp 𝕄) := by
  rw [arrays_chain dats hq c cfg0.N, arrBufs_chain]
  rw [Vexit_v0, Vexit_v1, Vexit_v9, Vexit_v15, Vexit_6, Vexit_7, Vexit_8,
    arrAt0_end m dats hA, arrAt1_end m dats hA, arrAt2_end m dats hA, arrAt3_end m dats hA, arrAt4_end m dats hA, arrAt5_end m dats hA]
  iintro ⟨H0l, H1l, H0r, H1r, H4, H5, H6, H7, H8⟩
  ihave H0 := (pointsTo_share (PosShare.mem_left_op_right fullShare)).2 $$ [H0l H0r]
  · isplitl [H0l] <;> iassumption
  ihave H1 := (pointsTo_share (PosShare.mem_left_op_right fullShare)).2 $$ [H1l H1r]
  · isplitl [H1l] <;> iassumption
  isplitl [H0]; · iexact H0
  isplitl [H1]; · iexact H1
  isplitl [H4]; · iexact H4
  isplitl [H5]; · iexact H5
  isplitl [H6]; · iexact H6
  isplitl [H7]; · iexact H7
  iexact H8

variable (hbody : ∀ c, Pipeline.BodyObligationLoose (dats 0 c) (defs₀ (F := F)) Variants.none () Set.univ)
  (howed : ∀ c t, (dats 0 c).owed t = 0) (hrec : ∀ c t, (dats 0 c).recorded t = Set.univ)
  (hin : ∀ c, Pipeline.ΦA spec0 c ⊢ (dats 0 c).Φ 0)
  (hout : ∀ c, (dats 0 c).Φ (Fin.last cfg0.N) ⊢ Pipeline.ΦA spec0 c)

theorem arrRef_6 : Pipeline.arrRef spec0 6 = main_v16_0 := by decide
theorem arrRef_7 : Pipeline.arrRef spec0 7 = main_v16_1 := by decide
theorem arrRef_8 : Pipeline.arrRef spec0 8 = main_v16_2 := by decide

/-- The buffers no window stages hold at the exit what they held at the entry: the exit valuation differs from the
    entry one at the three results only, which are windows' arrays. -/
theorem exit_rest (c : Dev nD) :
    (Pipeline.unscopedRest spec0 c (fun b => Vexit m dats c (Proc.devRef .tc b)) : sProp 𝕄) = Pipeline.unscopedRest spec0 c (V m c) := by
  unfold Pipeline.unscopedRest
  refine bigSep_congr fun b hb => ?_
  have hb' : ∀ w, Pipeline.arrRef spec0 w ≠ b := fun w e =>
    (Finset.mem_sdiff.mp hb).2 (Finset.mem_image.mpr ⟨w, Finset.mem_univ _, e⟩)
  have e : Vexit m dats c (Proc.devRef .tc b) = V m c b :=
    Vexit_of_ne m dats c b (fun e => hb' 6 (arrRef_6.trans e.symm)) (fun e => hb' 7 (arrRef_7.trans e.symm))
      (fun e => hb' 8 (arrRef_8.trans e.symm))
  dsimp only
  rw [e]

-- an entailment of the launch library, stated over `cfgs p` at the pinned configuration, unifies with the goal only
-- when unification may unfold plain definitions in a metavariable's type
set_option backward.isDefEq.respectTransparency.types false in
/-- THE REGION as a segment of @main: entered from the buffers as the first stretch left them, left with the buffers
    at the exit valuation; the generator register enters the body's invariant and comes back; the buffers no window
    stages pass by. -/
def reg : Pipeline.RegionSeg (pcfgs (F := F)) adm dats () defs₀ Variants.none L lv 0 where
  win := winFacts₀0
  block_pos := block_pos0
  stage_whole := stage_whole0
  K := PEmpty
  osem := fun k => k.elim
  ho := Pipeline.OwnSemFacts.none spec0
  hbody := hbody
  hwaits := Pipeline.hwaits_of_owed_zero _ _ _ _ L lv 0 howed
  pre c := iprop(StableHlo.held (c : Thread nD τ) (Pipeline.ucRefs τ sig) (StableHlo.after hostOps0 (Vlaunch m c)) ∗ R c)
  post c := iprop(StableHlo.held (c : Thread nD τ) (Pipeline.ucRefs τ sig) (Vexit m dats c) ∗ R c)
  X c := iprop(∃ r, prngReg c r)
  Y c := iprop(∃ r, prngReg c r)
  Z c := Pipeline.unscopedRest spec0 c (V m c)
  hentry c := by
    rw [show StableHlo.held (c : Thread nD τ) (Pipeline.ucRefs τ sig) (StableHlo.after hostOps0 (Vlaunch m c))
        = unscopedBufs c (V m c) from (Pipeline.unscopedBufs_held c _).symm,
      Pipeline.unscopedBufs_split₀ cfgs 0 winFacts₀0.arr_unscoped c (V m c)]
    iintro ⟨⟨⟨Hab, Hrest⟩, Hp, HO⟩, -, -⟩
    ihave Ha := (entry_arrays m dats hA hq c) $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed]
      icases HO with ⟨%W, HO⟩; iexists W; isplitr; · ipureintro; exact fun _ _ => Or.inl (by rw [hrec]; trivial)
      iexact HO
    isplitl [Hp]; · iexact Hp
    iexact Hrest
  hin c := by
    exact (show iprop((∃ r, prngReg c r) ∗ Pipeline.prefHeld (pcfgs (F := F) 0).pre c (fun _ => fullShare) (adm (F := F) 0).1 ∗ Pipeline.scopedRest spec0 c)
        ⊢ (Pipeline.ΦA spec0 c : sProp 𝕄) from by
      unfold Pipeline.ΦA
      iintro ⟨Hp, -, Hr⟩
      isplitl [Hr] <;> iassumption).trans (hin c)
  hout c := by
    refine (hout c).trans ?_
    rw [Pipeline.ownSems0_none]; unfold Pipeline.ΦA
    iintro ⟨Hr, Hp⟩
    isplitl [Hp]; · iexact Hp
    isplitr; · iempintro
    iexact Hr
  hexit c := by
    rw [show StableHlo.held (c : Thread nD τ) (Pipeline.ucRefs τ sig) (Vexit m dats c)
        = unscopedBufs c (fun b => Vexit m dats c (Proc.devRef .tc b)) from (Pipeline.unscopedBufs_held c _).symm,
      Pipeline.unscopedBufs_split₀ cfgs 0 winFacts₀0.arr_unscoped c _, exit_rest]
    iintro ⟨Ha, HO, HY, HZ⟩
    ihave Hab := (exit_arrays m dats hA hq c) $$ Ha
    imodintro
    isplitl [Hab HZ]
    · isplitl [Hab] <;> iassumption
    isplitl [HY]; · iexact HY
    unfold Pipeline.Dat.owesAt Pipeline.owesWithin
    rw [howed]
    icases HO with ⟨%W, -, HO⟩; iexists W; iexact HO

/-- What core `c`'s unscoped buffers hold when @main returns: the exit valuation after the last stretch. -/
abbrev Vend (c : Dev nD) : Valuation τ sig (Elt F) := StableHlo.after hostOps1 (Vexit m dats c)

include hA hq hbody howed hrec hin hout in
-- the launch theorem's implicit arguments are found by unifying its conclusion with this one, which takes unfolding
-- plain definitions in a metavariable's type
set_option backward.isDefEq.respectTransparency.types false in
/-- THE RUN. At the compiled mesh, from any memory with zero counters: every weakly fair execution of @main on the
    TensorCores terminates, nothing faulting, and in every final state each unscoped buffer holds what the three
    stretches compute for it: the host operations before the region, the region's write-backs at the three results,
    the host operations after it. -/
theorem run_of : θ_run defs (onTc (τ := τ) (main (F := F))) (s₀ m ρ) (fun r => ∀ c : Dev nD,
      ∀ b ∈ (Finset.univ.filter fun b : Ref sig .tc => ¬ b.isScoped), r.2.mem ((c.tc : Thread nD τ).loc b) = Vend m dats c (Proc.devRef .tc b)) :=
  Pipeline.θ_run_regions_kit (pcfgs (F := F)) adm dats () cellOf_inj emb₁ defs₀ Variants.none L lv m ρ main
    [.host (segBefore m), .region (reg m dats hA hq hbody howed hrec hin hout), .host (segAfter (Vexit m dats))]
    (fun c Q => by rw [main_segs adm dats () Variants.none L lv (segBefore m) (segAfter (Vexit m dats)) (reg m dats hA hq hbody howed hrec hin hout) rfl rfl c])
    (by simp only [Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Vlaunch m c) ∗ R c))
    (Tₙ := fun c => iprop(StableHlo.held (c : Thread nD τ) (Pipeline.ucRefs τ sig) (Vend m dats c) ∗ ∃ r, prngReg c r))
    (hch := ⟨fun _ => .rfl, fun _ => .rfl, fun _ => .rfl, fun c => by
      show iprop(StableHlo.held (c : Thread nD τ) (Pipeline.ucRefs τ sig) (Vend m dats c) ∗ R c) ⊢ _
      iintro ⟨Hh, Hp, HO⟩
      isplitr [HO]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (Vlaunch m c)
        from Pipeline.unscopedBufs_held c (Vlaunch m c)]
      iintro ⟨⟨Hh, -, HO, -, Hp, -⟩, -⟩
      imodintro
      isplitl [Hh]; · iexact Hh
      isplitl [Hp]; · iexists _; iexact Hp
      iexists ∅; iexact HO)
    (QY := fun c s => ∀ b ∈ (Finset.univ.filter fun b : Ref sig .tc => ¬ b.isScoped), s.mem ((c.tc : Thread nD τ).loc b) = Vend m dats c (Proc.devRef .tc b))
    (hfin := fun c s' => by
      rw [show StableHlo.held (c : Thread nD τ) (Pipeline.ucRefs τ sig) (Vend m dats c)
        = unscopedBufs c (fun b => Vend m dats c (Proc.devRef .tc b)) from (Pipeline.unscopedBufs_held c _).symm]
      unfold unscopedBufs
      iintro ⟨⟨Hh, -⟩, HSI⟩
      ihave Hr := (pointsTo_read_all (Finset.univ.filter fun b : Ref sig .tc => ¬ b.isScoped) (fun b => (c.tc : Thread nD τ).loc b)
        (fun b => Vend m dats c (Proc.devRef .tc b)) s') $$ [Hh HSI]
      · isplitl [Hh] <;> iassumption
      icases Hr with ⟨%h, HSI⟩
      imodintro
      isplitr; · ipureintro; exact h
      iexact HSI)
    (hQ := fun _ h => h)

end Cert.Kernel.Mmd

end
-- ==== Proof.KBodyShared.lean ====
/-
  What the runs of the region's body and its proof data share.

  The grid is 2 x 16: point t has coordinates (t / 16, t % 16), and the second coordinate walks a row of sixteen
  tiles. The body keeps three running sums, one per pair of arrays, in three one-element accumulators that live
  between points: at the first point of a row (second coordinate 0) it zeroes them, at every point it adds the
  tile's sum of exponentials to each, and at the last point of a row (second coordinate 15) it copies them into
  the three one-element outputs. So a point is in one of three cases: first of its row, inside it, last of it.
  Here: the two conditions and their closed forms over the grid; that the three outputs are idle and not written
  back away from a row's last point and live at it, the six inputs live everywhere; the staging memrefs and the
  accumulators by name; the region's invariant spelt over the three accumulators; and that each input's staging
  buffer holds its block at every point.
-/
import proofs.«136887_j59356448031516_2_alg».proof.Proof.KEntry
import Idealize.ShloMosaic.Lib.Ring

set_option maxRecDepth 16384

noncomputable section

namespace Cert.Kernel.Mmd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-! ## The two conditions -/

/-- The point is the first of its row: the body's own test that the second coordinate is 0, bit for bit. -/
abbrev AtRowStart (i : grid0.Coords) : Prop := (Scalar.cmpi .ne (Scalar.extui (Scalar.cmpi .eq (BitVec.ofNat 32 (i 1).val) 0#32)) 0#32) = 1#1
/-- It holds exactly at the points that are 0 modulo 16. -/
theorem atRowStart_iff : ∀ t : Fin cfg0.N, AtRowStart (grid0.coords t) ↔ t.val % 16 = 0 :=
  (by decide +kernel : ∀ t : Fin grid0.N, AtRowStart (grid0.coords t) ↔ t.val % 16 = 0)

/-- The point is the last of its row: the body's test that the second coordinate is 15. -/
abbrev AtRowEnd (i : grid0.Coords) : Prop := k0_cond2 i = 1#1
/-- It holds exactly at the points that are 15 modulo 16. -/
theorem atRowEnd_iff : ∀ t : Fin cfg0.N, AtRowEnd (grid0.coords t) ↔ t.val % 16 = 15 :=
  (by decide +kernel : ∀ t : Fin grid0.N, AtRowEnd (grid0.coords t) ↔ t.val % 16 = 15)

/-! ## Where the windows are live -/

/-- Input window 0 is live at every point. -/
theorem live0 : ∀ t : Fin cfg0.N, cfg0.idle 0 (grid0.coords t) = false := by decide +kernel
/-- Input window 1 is live at every point. -/
theorem live1 : ∀ t : Fin cfg0.N, cfg0.idle 1 (grid0.coords t) = false := by decide +kernel
/-- Input window 2 is live at every point. -/
theorem live2 : ∀ t : Fin cfg0.N, cfg0.idle 2 (grid0.coords t) = false := by decide +kernel
/-- Input window 3 is live at every point. -/
theorem live3 : ∀ t : Fin cfg0.N, cfg0.idle 3 (grid0.coords t) = false := by decide +kernel
/-- Input window 4 is live at every point. -/
theorem live4 : ∀ t : Fin cfg0.N, cfg0.idle 4 (grid0.coords t) = false := by decide +kernel
/-- Input window 5 is live at every point. -/
theorem live5 : ∀ t : Fin cfg0.N, cfg0.idle 5 (grid0.coords t) = false := by decide +kernel

/-- Away from a row's last point nothing is stored into output 6: the window is idle there, -/
theorem idle6_of_not_rowEnd : ∀ t : Fin cfg0.N, ¬AtRowEnd (grid0.coords t) → cfg0.idle 6 (grid0.coords t) = true := by decide +kernel
/-- and its block is not written back there. -/
theorem noFlush6_of_not_rowEnd : ∀ t : Fin cfg0.N, ¬AtRowEnd (grid0.coords t) → (cfg0.win 6).flush t = false := by decide +kernel
/-- At a row's last point output 6 is stored into: the window is live. -/
theorem live6_of_rowEnd : ∀ t : Fin cfg0.N, AtRowEnd (grid0.coords t) → cfg0.idle 6 (grid0.coords t) = false := by decide +kernel

/-- Away from a row's last point nothing is stored into output 7: the window is idle there, -/
theorem idle7_of_not_rowEnd : ∀ t : Fin cfg0.N, ¬AtRowEnd (grid0.coords t) → cfg0.idle 7 (grid0.coords t) = true := by decide +kernel
/-- and its block is not written back there. -/
theorem noFlush7_of_not_rowEnd : ∀ t : Fin cfg0.N, ¬AtRowEnd (grid0.coords t) → (cfg0.win 7).flush t = false := by decide +kernel
/-- At a row's last point output 7 is stored into: the window is live. -/
theorem live7_of_rowEnd : ∀ t : Fin cfg0.N, AtRowEnd (grid0.coords t) → cfg0.idle 7 (grid0.coords t) = false := by decide +kernel

/-- Away from a row's last point nothing is stored into output 8: the window is idle there, -/
theorem idle8_of_not_rowEnd : ∀ t : Fin cfg0.N, ¬AtRowEnd (grid0.coords t) → cfg0.idle 8 (grid0.coords t) = true := by decide +kernel
/-- and its block is not written back there. -/
theorem noFlush8_of_not_rowEnd : ∀ t : Fin cfg0.N, ¬AtRowEnd (grid0.coords t) → (cfg0.win 8).flush t = false := by decide +kernel
/-- At a row's last point output 8 is stored into: the window is live. -/
theorem live8_of_rowEnd : ∀ t : Fin cfg0.N, AtRowEnd (grid0.coords t) → cfg0.idle 8 (grid0.coords t) = false := by decide +kernel

/-! ## The memrefs the body is called with -/

abbrev stg0 (t : Fin cfg0.N) : Memref sig .tc .vmem S256x128 .bf16 := win0_0.stage (cfg0.slots t 0)
abbrev stgWhole0 (t : Fin cfg0.N) : (stg0 t).IsWhole := hstage0_0 ((cfg0.slots t 0).cast nbuf0_0)
abbrev stg1 (t : Fin cfg0.N) : Memref sig .tc .vmem S256x128 .bf16 := win0_1.stage (cfg0.slots t 1)
abbrev stgWhole1 (t : Fin cfg0.N) : (stg1 t).IsWhole := hstage0_1 ((cfg0.slots t 1).cast nbuf0_1)
abbrev stg2 (t : Fin cfg0.N) : Memref sig .tc .vmem S8192x128 .bf16 := win0_2.stage (cfg0.slots t 2)
abbrev stgWhole2 (t : Fin cfg0.N) : (stg2 t).IsWhole := hstage0_2 ((cfg0.slots t 2).cast nbuf0_2)
abbrev stg3 (t : Fin cfg0.N) : Memref sig .tc .vmem S8192x128 .bf16 := win0_3.stage (cfg0.slots t 3)
abbrev stgWhole3 (t : Fin cfg0.N) : (stg3 t).IsWhole := hstage0_3 ((cfg0.slots t 3).cast nbuf0_3)
abbrev stg4 (t : Fin cfg0.N) : Memref sig .tc .vmem S1x8192 .f32 := win0_4.stage (cfg0.slots t 4)
abbrev stgWhole4 (t : Fin cfg0.N) : (stg4 t).IsWhole := hstage0_4 ((cfg0.slots t 4).cast nbuf0_4)
abbrev stg5 (t : Fin cfg0.N) : Memref sig .tc .vmem S1x8192 .f32 := win0_5.stage (cfg0.slots t 5)
abbrev stgWhole5 (t : Fin cfg0.N) : (stg5 t).IsWhole := hstage0_5 ((cfg0.slots t 5).cast nbuf0_5)
abbrev stg6 (t : Fin cfg0.N) : Memref sig .tc .vmem S1x1x1 .f32 := win0_6.stage (cfg0.slots t 6)
abbrev stgWhole6 (t : Fin cfg0.N) : (stg6 t).IsWhole := hstage0_6 ((cfg0.slots t 6).cast nbuf0_6)
abbrev stg7 (t : Fin cfg0.N) : Memref sig .tc .vmem S1x1x1 .f32 := win0_7.stage (cfg0.slots t 7)
abbrev stgWhole7 (t : Fin cfg0.N) : (stg7 t).IsWhole := hstage0_7 ((cfg0.slots t 7).cast nbuf0_7)
abbrev stg8 (t : Fin cfg0.N) : Memref sig .tc .vmem S1x1x1 .f32 := win0_8.stage (cfg0.slots t 8)
abbrev stgWhole8 (t : Fin cfg0.N) : (stg8 t).IsWhole := hstage0_8 ((cfg0.slots t 8).cast nbuf0_8)

/-- The three accumulators: whole buffers of the kernel's own, passed beside the windows. -/
abbrev acc0 : Memref sig .tc .vmem S1x1x1 .f32 := Memref.whole cc0_scratch0
abbrev acc1 : Memref sig .tc .vmem S1x1x1 .f32 := Memref.whole cc0_scratch1
abbrev acc2 : Memref sig .tc .vmem S1x1x1 .f32 := Memref.whole cc0_scratch2
/-- One view of the one-element shape through which what a list of stores leaves is stated (any view reads a covering
    list of stores alike). -/
abbrev cellV : View sig .tc .vmem S1x1x1 .f32 := acc0.view

/-- The region's invariant as the launch states it, spelt over the three accumulators: each owned at some contents,
    and the generator register at some state. -/
theorem PhiA_eq (c : Dev nD) :
    (Pipeline.ΦA spec0 c : sProp 𝕄)
      = iprop(iprop((∃ d, owns (c : Thread nD τ) acc0 fullShare d) ∗ (∃ d, owns (c : Thread nD τ) acc1 fullShare d) ∗ (∃ d, owns (c : Thread nD τ) acc2 fullShare d)) ∗ (∃ r, prngReg c r)) := by
  unfold Pipeline.ΦA; rw [scopedRest0_eq]; simp only [acc0, acc1, acc2, owns_whole]; try rfl

/-! ## What the body finds in the inputs' staging buffers -/

/-- Input window 0's current staging buffer holds its block at every grid point, whether or not the block was
    fetched there (an unfetched block's index has not moved), for any proof data whose array is the region-entry
    contents and whose body leaves the block in place. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every grid point, whether or not the block was
    fetched there (an unfetched block's index has not moved), for any proof data whose array is the region-entry
    contents and whose body leaves the block in place. -/
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every grid point, whether or not the block was
    fetched there (an unfetched block's index has not moved), for any proof data whose array is the region-entry
    contents and whose body leaves the block in place. -/
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every grid point, whether or not the block was
    fetched there (an unfetched block's index has not moved), for any proof data whose array is the region-entry
    contents and whose body leaves the block in place. -/
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every grid point, whether or not the block was
    fetched there (an unfetched block's index has not moved), for any proof data whose array is the region-entry
    contents and whose body leaves the block in place. -/
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every grid point, whether or not the block was
    fetched there (an unfetched block's index has not moved), for any proof data whose array is the region-entry
    contents and whose body leaves the block in place. -/
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

end Cert.Kernel.Mmd

end
-- ==== Proof.KBodyFirst.lean ====
/-
  The region's body run symbolically at the first point of a row of the grid: the accumulators are zeroed, then accumulated into.
-/
import proofs.«136887_j59356448031516_2_alg».proof.Proof.KBodyShared

set_option maxRecDepth 16384

noncomputable section

namespace Cert.Kernel.Mmd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option maxHeartbeats 1000000 in
/-- The body at the FIRST point of a row. The body zeroes the three accumulators — it loads each before storing, but the zero store
    covers it, so nothing is asked of what they held —, then adds the tile's three sums to them; it stores nothing into
    the outputs, which are handed back as they were.
    Stated on any whole memrefs: the six inputs owned at contents `x0 … x5` come back as they were, and what the stores
    leave in the three accumulators is given as lists of written pieces (last store first) that the symbolic
    run of the body finds — they are the witnesses, fixed when the final buffers are handed to the continuation. -/
noncomputable def runFirst (c : Dev nD) (i : grid0.Coords) (arg2 : Memref sig .tc .vmem S256x128 .bf16) (harg2 : arg2.IsWhole) (arg3 : Memref sig .tc .vmem S256x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x8192 .f32) (harg6 : arg6.IsWhole) (arg7 : Memref sig .tc .vmem S1x8192 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (hc0 : AtRowStart i) (hc1 : ¬AtRowEnd i)
    (x0 : Vec F S256x128 .bf16) (x1 : Vec F S256x128 .bf16) (x2 : Vec F S8192x128 .bf16) (x3 : Vec F S8192x128 .bf16) (x4 : Vec F S1x8192 .f32) (x5 : Vec F S1x8192 .f32) :
    Σ' (LS0 : List (View.Piece (Elt F) S1x1x1 .f32)) (LS1 : List (View.Piece (Elt F) S1x1x1 .f32)), { LS2 : List (View.Piece (Elt F) S1x1x1 .f32) //
      ∀ (y6 y7 y8 : Vec F S1x1x1 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare y6
            ∗ owns (c : Thread nD τ) arg9 fullShare y7
            ∗ owns (c : Thread nD τ) arg10 fullShare y8
            ∗ (∃ d, owns (c : Thread nD τ) arg11 fullShare d)
            ∗ (∃ d, owns (c : Thread nD τ) arg12 fullShare d)
            ∗ (∃ d, owns (c : Thread nD τ) arg13 fullShare d)
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ owns (c : Thread nD τ) arg8 fullShare y6
                ∗ owns (c : Thread nD τ) arg9 fullShare y7
                ∗ owns (c : Thread nD τ) arg10 fullShare y8
                ∗ (∃ f, arg11.view.loc (c : Thread nD τ) ↦[arg11.view.set]{fullShare} arg11.view.writes (Elt F) f LS0)
                ∗ (∃ f, arg12.view.loc (c : Thread nD τ) ↦[arg12.view.set]{fullShare} arg12.view.writes (Elt F) f LS1)
                ∗ (∃ f, arg13.view.loc (c : Thread nD τ) ↦[arg13.view.set]{fullShare} arg13.view.writes (Elt F) f LS2)) -∗ K ⟨⟩))
          ⊢ wp frame (wpE (defs₀ (F := F)) Variants.none c none) E (cc0__mmd_kernel i arg2 harg2 arg3 harg3 arg4 harg4 arg5 harg5 arg6 harg6 arg7 harg7 arg8 harg8 arg9 harg9 arg10 harg10 arg11 harg11 arg12 harg12 arg13 harg13) K } := by
  refine ⟨?_, ?_, ?_, fun y6 y7 y8 E K => ?run⟩
  case run =>
    simp only [cc0__mmd_kernel_eq_skeleton]; unfold cc0__mmd_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, ⟨%ds1, %fs1, -, HS1⟩, ⟨%ds2, %fs2, -, HS2⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [HS0]; · iexists _; iexact HS0
    isplitl [HS1]; · iexists _; iexact HS1
    iexists _; iexact HS2

end Cert.Kernel.Mmd

end
-- ==== Proof.KBodyMid.lean ====
/-
  The region's body run symbolically at a point inside a row of the grid: the accumulators are read as the point before left them and accumulated into.
-/
import proofs.«136887_j59356448031516_2_alg».proof.Proof.KBodyFirst

set_option maxRecDepth 16384

noncomputable section

namespace Cert.Kernel.Mmd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option maxHeartbeats 1000000 in
/-- The body at a point INSIDE a row (neither first nor last). The body adds the tile's three sums to the accumulators as the point
    before left them; it stores nothing into the outputs, which are handed back as they were.
    Stated on any whole memrefs: the six inputs owned at contents `x0 … x5` come back as they were, and what the stores
    leave in the three accumulators is given as lists of written pieces (last store first) that the symbolic
    run of the body finds — they are the witnesses, fixed when the final buffers are handed to the continuation. -/
noncomputable def runMid (c : Dev nD) (i : grid0.Coords) (arg2 : Memref sig .tc .vmem S256x128 .bf16) (harg2 : arg2.IsWhole) (arg3 : Memref sig .tc .vmem S256x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x8192 .f32) (harg6 : arg6.IsWhole) (arg7 : Memref sig .tc .vmem S1x8192 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (hc0 : ¬AtRowStart i) (hc1 : ¬AtRowEnd i)
    (x0 : Vec F S256x128 .bf16) (x1 : Vec F S256x128 .bf16) (x2 : Vec F S8192x128 .bf16) (x3 : Vec F S8192x128 .bf16) (x4 : Vec F S1x8192 .f32) (x5 : Vec F S1x8192 .f32) (s0 : Vec F S1x1x1 .f32) (s1 : Vec F S1x1x1 .f32) (s2 : Vec F S1x1x1 .f32) :
    Σ' (LS0 : List (View.Piece (Elt F) S1x1x1 .f32)) (LS1 : List (View.Piece (Elt F) S1x1x1 .f32)), { LS2 : List (View.Piece (Elt F) S1x1x1 .f32) //
      ∀ (y6 y7 y8 : Vec F S1x1x1 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare y6
            ∗ owns (c : Thread nD τ) arg9 fullShare y7
            ∗ owns (c : Thread nD τ) arg10 fullShare y8
            ∗ owns (c : Thread nD τ) arg11 fullShare s0
            ∗ owns (c : Thread nD τ) arg12 fullShare s1
            ∗ owns (c : Thread nD τ) arg13 fullShare s2
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ owns (c : Thread nD τ) arg8 fullShare y6
                ∗ owns (c : Thread nD τ) arg9 fullShare y7
                ∗ owns (c : Thread nD τ) arg10 fullShare y8
                ∗ (∃ f, arg11.view.loc (c : Thread nD τ) ↦[arg11.view.set]{fullShare} arg11.view.writes (Elt F) f LS0)
                ∗ (∃ f, arg12.view.loc (c : Thread nD τ) ↦[arg12.view.set]{fullShare} arg12.view.writes (Elt F) f LS1)
                ∗ (∃ f, arg13.view.loc (c : Thread nD τ) ↦[arg13.view.set]{fullShare} arg13.view.writes (Elt F) f LS2)) -∗ K ⟨⟩))
          ⊢ wp frame (wpE (defs₀ (F := F)) Variants.none c none) E (cc0__mmd_kernel i arg2 harg2 arg3 harg3 arg4 harg4 arg5 harg5 arg6 harg6 arg7 harg7 arg8 harg8 arg9 harg9 arg10 harg10 arg11 harg11 arg12 harg12 arg13 harg13) K } := by
  refine ⟨?_, ?_, ?_, fun y6 y7 y8 E K => ?run⟩
  case run =>
    simp only [cc0__mmd_kernel_eq_skeleton]; unfold cc0__mmd_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, ⟨%fs2, %hfs2, HS2⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    obtain rfl := harg11.eq_unread hfs0
    obtain rfl := harg12.eq_unread hfs1
    obtain rfl := harg13.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [HS0]; · iexists _; iexact HS0
    isplitl [HS1]; · iexists _; iexact HS1
    iexists _; iexact HS2

end Cert.Kernel.Mmd

end
-- ==== Proof.KBodyLast.lean ====
/-
  The region's body run symbolically at the last point of a row of the grid: the accumulators are accumulated into and copied to the outputs.
-/
import proofs.«136887_j59356448031516_2_alg».proof.Proof.KBodyMid

set_option maxRecDepth 16384

noncomputable section

namespace Cert.Kernel.Mmd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

set_option maxHeartbeats 1000000 in
/-- The body at the LAST point of a row. The body adds the tile's three sums to the accumulators as the point before left them and
    then copies each accumulator into its output (loading the output before storing over it: nothing is asked of what
    it held).
    Stated on any whole memrefs: the six inputs owned at contents `x0 … x5` come back as they were, and what the stores
    leave in the three outputs and the three accumulators is given as lists of written pieces (last store first) that the symbolic
    run of the body finds — they are the witnesses, fixed when the final buffers are handed to the continuation. -/
noncomputable def runLast (c : Dev nD) (i : grid0.Coords) (arg2 : Memref sig .tc .vmem S256x128 .bf16) (harg2 : arg2.IsWhole) (arg3 : Memref sig .tc .vmem S256x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x8192 .f32) (harg6 : arg6.IsWhole) (arg7 : Memref sig .tc .vmem S1x8192 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (hc0 : ¬AtRowStart i) (hc1 : AtRowEnd i)
    (x0 : Vec F S256x128 .bf16) (x1 : Vec F S256x128 .bf16) (x2 : Vec F S8192x128 .bf16) (x3 : Vec F S8192x128 .bf16) (x4 : Vec F S1x8192 .f32) (x5 : Vec F S1x8192 .f32) (s0 : Vec F S1x1x1 .f32) (s1 : Vec F S1x1x1 .f32) (s2 : Vec F S1x1x1 .f32) :
    Σ' (L6 : List (View.Piece (Elt F) S1x1x1 .f32)) (L7 : List (View.Piece (Elt F) S1x1x1 .f32)) (L8 : List (View.Piece (Elt F) S1x1x1 .f32)) (LS0 : List (View.Piece (Elt F) S1x1x1 .f32)) (LS1 : List (View.Piece (Elt F) S1x1x1 .f32)), { LS2 : List (View.Piece (Elt F) S1x1x1 .f32) //
      ∀ (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ (∃ d, owns (c : Thread nD τ) arg8 fullShare d)
            ∗ (∃ d, owns (c : Thread nD τ) arg9 fullShare d)
            ∗ (∃ d, owns (c : Thread nD τ) arg10 fullShare d)
            ∗ owns (c : Thread nD τ) arg11 fullShare s0
            ∗ owns (c : Thread nD τ) arg12 fullShare s1
            ∗ owns (c : Thread nD τ) arg13 fullShare s2
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f L7)
                ∗ (∃ f, arg10.view.loc (c : Thread nD τ) ↦[arg10.view.set]{fullShare} arg10.view.writes (Elt F) f L8)
                ∗ (∃ f, arg11.view.loc (c : Thread nD τ) ↦[arg11.view.set]{fullShare} arg11.view.writes (Elt F) f LS0)
                ∗ (∃ f, arg12.view.loc (c : Thread nD τ) ↦[arg12.view.set]{fullShare} arg12.view.writes (Elt F) f LS1)
                ∗ (∃ f, arg13.view.loc (c : Thread nD τ) ↦[arg13.view.set]{fullShare} arg13.view.writes (Elt F) f LS2)) -∗ K ⟨⟩))
          ⊢ wp frame (wpE (defs₀ (F := F)) Variants.none c none) E (cc0__mmd_kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, fun E K => ?run⟩
  case run =>
    simp only [cc0__mmd_kernel_eq_skeleton]; unfold cc0__mmd_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, ⟨%fs2, %hfs2, HS2⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg11.eq_unread hfs0
    obtain rfl := harg12.eq_unread hfs1
    obtain rfl := harg13.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexists _; iexact H8
    isplitl [HS0]; · iexists _; iexact HS0
    isplitl [HS1]; · iexists _; iexact HS1
    iexists _; iexact HS2

end Cert.Kernel.Mmd

end
-- ==== Proof.KBodyData.lean ====
/-
  The proof data of the kernel region and its body obligation.

  Each of the three cases of a grid point (first of its row, inside it, last of it) leaves, in the three accumulators
  and — at a row's end — in the three outputs, what its stores wrote; the stores cover each one-element buffer, so what
  is left does not depend on what the buffer held. The running sums are the recursion of these over the grid's 32
  positions: zeroed and accumulated at positions 0 and 16, accumulated over the position before elsewhere, and copied
  out at positions 15 and 31. The region's invariant tracks the accumulators at the running sums; the proof data name
  the inputs' buffers at their blocks and the outputs' at the running sums; and at every point the body, run from the
  invariant and the buffers as the pipeline hands them, re-establishes the invariant at the next point.
-/
import proofs.«136887_j59356448031516_2_alg».proof.Proof.KBodyLast

set_option maxRecDepth 16384

noncomputable section

namespace Cert.Kernel.Mmd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ)

/-- What the three outputs' staging buffers and the three accumulators hold, in that order: six one-element blocks. -/
abbrev Cell6 (F : FTy → Type) : Type := Vec F S1x1x1 .f32 × Vec F S1x1x1 .f32 × Vec F S1x1x1 .f32 × Vec F S1x1x1 .f32 × Vec F S1x1x1 .f32 × Vec F S1x1x1 .f32

/-- What a list of stores into a one-element buffer leaves, read back (over arbitrary prior contents: a covering list
    leaves the same whatever they were). -/
abbrev readBack (L : List (View.Piece (Elt F) S1x1x1 .f32)) : Vec F S1x1x1 .f32 := cellV.read (Elt F) (cellV.writes (Elt F) cellV.junk L)

/-! ## The three cases at a point -/

/-- The body's run at a row's first point `t`: on the staging memrefs the pipeline passes there, the three accumulators, and the inputs'
    blocks at `t`. -/
noncomputable def firstAt (c : Dev nD) (t : Fin cfg0.N) (h0 : t.val % 16 = 0) (h1 : ¬t.val % 16 = 15) :=
  runFirst (F := F) c (grid0.coords t) (stg0 t) (stgWhole0 t) (stg1 t) (stgWhole1 t) (stg2 t) (stgWhole2 t) (stg3 t) (stgWhole3 t) (stg4 t) (stgWhole4 t) (stg5 t) (stgWhole5 t) (stg6 t) (stgWhole6 t) (stg7 t) (stgWhole7 t) (stg8 t) (stgWhole8 t) acc0 (Memref.isWhole_whole _) acc1 (Memref.isWhole_whole _) acc2 (Memref.isWhole_whole _)
    ((atRowStart_iff t).mpr h0) (fun h => h1 ((atRowEnd_iff t).mp h)) (iblk m c 0 t) (iblk m c 1 t) (iblk m c 2 t) (iblk m c 3 t) (iblk m c 4 t) (iblk m c 5 t)

/-- The stores the body makes into accumulator 0 at such a point cover its one element. -/
theorem coverFirstAcc0 (c : Dev nD) (t : Fin cfg0.N) (h0 : t.val % 16 = 0) (h1 : ¬t.val % 16 = 15) (y : S1x1x1.Idx) :
    ∃ pc ∈ (firstAt m c t h0 h1).1, y ∈ pc.1.set :=
  View.cover_of_tiledL (firstAt m c t h0 h1).1 S1x1x1.size (by sl_kernel_rfl) y
/-- The stores the body makes into accumulator 1 at such a point cover its one element. -/
theorem coverFirstAcc1 (c : Dev nD) (t : Fin cfg0.N) (h0 : t.val % 16 = 0) (h1 : ¬t.val % 16 = 15) (y : S1x1x1.Idx) :
    ∃ pc ∈ (firstAt m c t h0 h1).2.1, y ∈ pc.1.set :=
  View.cover_of_tiledL (firstAt m c t h0 h1).2.1 S1x1x1.size (by sl_kernel_rfl) y
/-- The stores the body makes into accumulator 2 at such a point cover its one element. -/
theorem coverFirstAcc2 (c : Dev nD) (t : Fin cfg0.N) (h0 : t.val % 16 = 0) (h1 : ¬t.val % 16 = 15) (y : S1x1x1.Idx) :
    ∃ pc ∈ (firstAt m c t h0 h1).2.2.1, y ∈ pc.1.set :=
  View.cover_of_tiledL (firstAt m c t h0 h1).2.2.1 S1x1x1.size (by sl_kernel_rfl) y

/-- What the body leaves at a row's first point `t`, as a 6-tuple: the three outputs' staging buffers, then the three accumulators — each its
    stores read back. The outputs are not stored into at such a point (idle, and not written back): their components are
    not consulted, and repeat the accumulators'. -/
noncomputable def firstLeaves (c : Dev nD) (t : Fin cfg0.N) (h0 : t.val % 16 = 0) (h1 : ¬t.val % 16 = 15) : Cell6 F :=
  (readBack (firstAt m c t h0 h1).1,
   readBack (firstAt m c t h0 h1).2.1,
   readBack (firstAt m c t h0 h1).2.2.1,
   readBack (firstAt m c t h0 h1).1,
   readBack (firstAt m c t h0 h1).2.1,
   readBack (firstAt m c t h0 h1).2.2.1)

/-- The body's run at a point inside a row `t`: on the staging memrefs the pipeline passes there, the three accumulators, and the inputs'
    blocks at `t`, the accumulators holding `s0 s1 s2`. -/
noncomputable def midAt (c : Dev nD) (t : Fin cfg0.N) (h0 : ¬t.val % 16 = 0) (h1 : ¬t.val % 16 = 15) (s0 s1 s2 : Vec F S1x1x1 .f32) :=
  runMid (F := F) c (grid0.coords t) (stg0 t) (stgWhole0 t) (stg1 t) (stgWhole1 t) (stg2 t) (stgWhole2 t) (stg3 t) (stgWhole3 t) (stg4 t) (stgWhole4 t) (stg5 t) (stgWhole5 t) (stg6 t) (stgWhole6 t) (stg7 t) (stgWhole7 t) (stg8 t) (stgWhole8 t) acc0 (Memref.isWhole_whole _) acc1 (Memref.isWhole_whole _) acc2 (Memref.isWhole_whole _)
    (fun h => h0 ((atRowStart_iff t).mp h)) (fun h => h1 ((atRowEnd_iff t).mp h)) (iblk m c 0 t) (iblk m c 1 t) (iblk m c 2 t) (iblk m c 3 t) (iblk m c 4 t) (iblk m c 5 t) s0 s1 s2

/-- The stores the body makes into accumulator 0 at such a point cover its one element. -/
theorem coverMidAcc0 (c : Dev nD) (t : Fin cfg0.N) (h0 : ¬t.val % 16 = 0) (h1 : ¬t.val % 16 = 15) (s0 s1 s2 : Vec F S1x1x1 .f32) (y : S1x1x1.Idx) :
    ∃ pc ∈ (midAt m c t h0 h1 s0 s1 s2).1, y ∈ pc.1.set :=
  View.cover_of_tiledL (midAt m c t h0 h1 s0 s1 s2).1 S1x1x1.size (by sl_kernel_rfl) y
/-- The stores the body makes into accumulator 1 at such a point cover its one element. -/
theorem coverMidAcc1 (c : Dev nD) (t : Fin cfg0.N) (h0 : ¬t.val % 16 = 0) (h1 : ¬t.val % 16 = 15) (s0 s1 s2 : Vec F S1x1x1 .f32) (y : S1x1x1.Idx) :
    ∃ pc ∈ (midAt m c t h0 h1 s0 s1 s2).2.1, y ∈ pc.1.set :=
  View.cover_of_tiledL (midAt m c t h0 h1 s0 s1 s2).2.1 S1x1x1.size (by sl_kernel_rfl) y
/-- The stores the body makes into accumulator 2 at such a point cover its one element. -/
theorem coverMidAcc2 (c : Dev nD) (t : Fin cfg0.N) (h0 : ¬t.val % 16 = 0) (h1 : ¬t.val % 16 = 15) (s0 s1 s2 : Vec F S1x1x1 .f32) (y : S1x1x1.Idx) :
    ∃ pc ∈ (midAt m c t h0 h1 s0 s1 s2).2.2.1, y ∈ pc.1.set :=
  View.cover_of_tiledL (midAt m c t h0 h1 s0 s1 s2).2.2.1 S1x1x1.size (by sl_kernel_rfl) y

/-- What the body leaves at a point inside a row `t`, as a 6-tuple: the three outputs' staging buffers, then the three accumulators — each its
    stores read back. The outputs are not stored into at such a point (idle, and not written back): their components are
    not consulted, and repeat the accumulators'. -/
noncomputable def midLeaves (c : Dev nD) (t : Fin cfg0.N) (h0 : ¬t.val % 16 = 0) (h1 : ¬t.val % 16 = 15) (s0 s1 s2 : Vec F S1x1x1 .f32) : Cell6 F :=
  (readBack (midAt m c t h0 h1 s0 s1 s2).1,
   readBack (midAt m c t h0 h1 s0 s1 s2).2.1,
   readBack (midAt m c t h0 h1 s0 s1 s2).2.2.1,
   readBack (midAt m c t h0 h1 s0 s1 s2).1,
   readBack (midAt m c t h0 h1 s0 s1 s2).2.1,
   readBack (midAt m c t h0 h1 s0 s1 s2).2.2.1)

/-- The body's run at a row's last point `t`: on the staging memrefs the pipeline passes there, the three accumulators, and the inputs'
    blocks at `t`, the accumulators holding `s0 s1 s2`. -/
noncomputable def lastAt (c : Dev nD) (t : Fin cfg0.N) (h0 : ¬t.val % 16 = 0) (h1 : t.val % 16 = 15) (s0 s1 s2 : Vec F S1x1x1 .f32) :=
  runLast (F := F) c (grid0.coords t) (stg0 t) (stgWhole0 t) (stg1 t) (stgWhole1 t) (stg2 t) (stgWhole2 t) (stg3 t) (stgWhole3 t) (stg4 t) (stgWhole4 t) (stg5 t) (stgWhole5 t) (stg6 t) (stgWhole6 t) (stg7 t) (stgWhole7 t) (stg8 t) (stgWhole8 t) acc0 (Memref.isWhole_whole _) acc1 (Memref.isWhole_whole _) acc2 (Memref.isWhole_whole _)
    (fun h => h0 ((atRowStart_iff t).mp h)) ((atRowEnd_iff t).mpr h1) (iblk m c 0 t) (iblk m c 1 t) (iblk m c 2 t) (iblk m c 3 t) (iblk m c 4 t) (iblk m c 5 t) s0 s1 s2

/-- The stores the body makes into accumulator 0 at such a point cover its one element. -/
theorem coverLastAcc0 (c : Dev nD) (t : Fin cfg0.N) (h0 : ¬t.val % 16 = 0) (h1 : t.val % 16 = 15) (s0 s1 s2 : Vec F S1x1x1 .f32) (y : S1x1x1.Idx) :
    ∃ pc ∈ (lastAt m c t h0 h1 s0 s1 s2).2.2.2.1, y ∈ pc.1.set :=
  View.cover_of_tiledL (lastAt m c t h0 h1 s0 s1 s2).2.2.2.1 S1x1x1.size (by sl_kernel_rfl) y
/-- The stores the body makes into accumulator 1 at such a point cover its one element. -/
theorem coverLastAcc1 (c : Dev nD) (t : Fin cfg0.N) (h0 : ¬t.val % 16 = 0) (h1 : t.val % 16 = 15) (s0 s1 s2 : Vec F S1x1x1 .f32) (y : S1x1x1.Idx) :
    ∃ pc ∈ (lastAt m c t h0 h1 s0 s1 s2).2.2.2.2.1, y ∈ pc.1.set :=
  View.cover_of_tiledL (lastAt m c t h0 h1 s0 s1 s2).2.2.2.2.1 S1x1x1.size (by sl_kernel_rfl) y
/-- The stores the body makes into accumulator 2 at such a point cover its one element. -/
theorem coverLastAcc2 (c : Dev nD) (t : Fin cfg0.N) (h0 : ¬t.val % 16 = 0) (h1 : t.val % 16 = 15) (s0 s1 s2 : Vec F S1x1x1 .f32) (y : S1x1x1.Idx) :
    ∃ pc ∈ (lastAt m c t h0 h1 s0 s1 s2).2.2.2.2.2.1, y ∈ pc.1.set :=
  View.cover_of_tiledL (lastAt m c t h0 h1 s0 s1 s2).2.2.2.2.2.1 S1x1x1.size (by sl_kernel_rfl) y
/-- The store the body makes into output 6 at a row's last point covers its one element. -/
theorem coverLastOut6 (c : Dev nD) (t : Fin cfg0.N) (h0 : ¬t.val % 16 = 0) (h1 : t.val % 16 = 15) (s0 s1 s2 : Vec F S1x1x1 .f32) (y : S1x1x1.Idx) :
    ∃ pc ∈ (lastAt m c t h0 h1 s0 s1 s2).1, y ∈ pc.1.set :=
  View.cover_of_tiledL (lastAt m c t h0 h1 s0 s1 s2).1 S1x1x1.size (by sl_kernel_rfl) y
/-- The store the body makes into output 7 at a row's last point covers its one element. -/
theorem coverLastOut7 (c : Dev nD) (t : Fin cfg0.N) (h0 : ¬t.val % 16 = 0) (h1 : t.val % 16 = 15) (s0 s1 s2 : Vec F S1x1x1 .f32) (y : S1x1x1.Idx) :
    ∃ pc ∈ (lastAt m c t h0 h1 s0 s1 s2).2.1, y ∈ pc.1.set :=
  View.cover_of_tiledL (lastAt m c t h0 h1 s0 s1 s2).2.1 S1x1x1.size (by sl_kernel_rfl) y
/-- The store the body makes into output 8 at a row's last point covers its one element. -/
theorem coverLastOut8 (c : Dev nD) (t : Fin cfg0.N) (h0 : ¬t.val % 16 = 0) (h1 : t.val % 16 = 15) (s0 s1 s2 : Vec F S1x1x1 .f32) (y : S1x1x1.Idx) :
    ∃ pc ∈ (lastAt m c t h0 h1 s0 s1 s2).2.2.1, y ∈ pc.1.set :=
  View.cover_of_tiledL (lastAt m c t h0 h1 s0 s1 s2).2.2.1 S1x1x1.size (by sl_kernel_rfl) y

/-- What the body leaves at a row's last point `t`, as a 6-tuple: the three outputs' staging buffers, then the three accumulators — each its
    stores read back.  -/
noncomputable def lastLeaves (c : Dev nD) (t : Fin cfg0.N) (h0 : ¬t.val % 16 = 0) (h1 : t.val % 16 = 15) (s0 s1 s2 : Vec F S1x1x1 .f32) : Cell6 F :=
  (readBack (lastAt m c t h0 h1 s0 s1 s2).1,
   readBack (lastAt m c t h0 h1 s0 s1 s2).2.1,
   readBack (lastAt m c t h0 h1 s0 s1 s2).2.2.1,
   readBack (lastAt m c t h0 h1 s0 s1 s2).2.2.2.1,
   readBack (lastAt m c t h0 h1 s0 s1 s2).2.2.2.2.1,
   readBack (lastAt m c t h0 h1 s0 s1 s2).2.2.2.2.2.1)

/-! ## The running sums -/

/-- THE RUNNING SUMS. What the three outputs' staging buffers and the three accumulators hold after the body at grid position
    `n` (a 6-tuple: outputs 6, 7, 8, then accumulators 0, 1, 2): at a row's first point what the body leaves starting from
    zeroed accumulators; at any other point what it leaves starting from the accumulators as position `n - 1` left them —
    at a row's last point the outputs are the accumulators' copies. No position is both first and last of its row. -/
noncomputable def sumsAt (c : Dev nD) : (n : ℕ) → n < cfg0.N → Cell6 F
  | 0, hn => firstLeaves m c ⟨0, hn⟩ (Nat.zero_mod _) (show ¬(0 : ℕ) % 16 = 15 by decide)
  | n + 1, hn =>
    if h0 : (n + 1) % 16 = 0 then
      if h1 : (n + 1) % 16 = 15 then
        False.elim (by omega)
      else
        firstLeaves m c ⟨n + 1, hn⟩ h0 h1
    else
      if h1 : (n + 1) % 16 = 15 then
        lastLeaves m c ⟨n + 1, hn⟩ h0 h1 (sumsAt c n (Nat.lt_of_succ_lt hn)).2.2.2.1 (sumsAt c n (Nat.lt_of_succ_lt hn)).2.2.2.2.1 (sumsAt c n (Nat.lt_of_succ_lt hn)).2.2.2.2.2
      else
        midLeaves m c ⟨n + 1, hn⟩ h0 h1 (sumsAt c n (Nat.lt_of_succ_lt hn)).2.2.2.1 (sumsAt c n (Nat.lt_of_succ_lt hn)).2.2.2.2.1 (sumsAt c n (Nat.lt_of_succ_lt hn)).2.2.2.2.2

/-- The running sums at a row's first point. -/
theorem sumsAt_first (c : Dev nD) (t : Fin cfg0.N) (h0 : t.val % 16 = 0) (h1 : ¬t.val % 16 = 15) :
    sumsAt m c t.val t.isLt = firstLeaves m c t h0 h1 := by
  obtain ⟨n, hn⟩ := t
  cases n with
  | zero => exact rfl
  | succ n => exact (dif_pos h0).trans ((dif_neg h1).trans rfl)

/-- The running sums at a point inside a row: the body's step over what the point before left in the accumulators. -/
theorem sumsAt_mid (c : Dev nD) (t : Fin cfg0.N) (h0 : ¬t.val % 16 = 0) (h1 : ¬t.val % 16 = 15) :
    sumsAt m c t.val t.isLt = midLeaves m c t h0 h1 (sumsAt m c (t.val - 1) (Nat.lt_of_le_of_lt (Nat.sub_le _ _) t.isLt)).2.2.2.1 (sumsAt m c (t.val - 1) (Nat.lt_of_le_of_lt (Nat.sub_le _ _) t.isLt)).2.2.2.2.1 (sumsAt m c (t.val - 1) (Nat.lt_of_le_of_lt (Nat.sub_le _ _) t.isLt)).2.2.2.2.2 := by
  obtain ⟨n, hn⟩ := t
  cases n with
  | zero => exact absurd (Nat.zero_mod _) h0
  | succ n => exact (dif_neg h0).trans ((dif_neg h1).trans rfl)

/-- The running sums at a row's last point: the body's step over what the point before left in the accumulators. -/
theorem sumsAt_last (c : Dev nD) (t : Fin cfg0.N) (h0 : ¬t.val % 16 = 0) (h1 : t.val % 16 = 15) :
    sumsAt m c t.val t.isLt = lastLeaves m c t h0 h1 (sumsAt m c (t.val - 1) (Nat.lt_of_le_of_lt (Nat.sub_le _ _) t.isLt)).2.2.2.1 (sumsAt m c (t.val - 1) (Nat.lt_of_le_of_lt (Nat.sub_le _ _) t.isLt)).2.2.2.2.1 (sumsAt m c (t.val - 1) (Nat.lt_of_le_of_lt (Nat.sub_le _ _) t.isLt)).2.2.2.2.2 := by
  obtain ⟨n, hn⟩ := t
  cases n with
  | zero => exact absurd (Nat.zero_mod _) h0
  | succ n => exact (dif_neg h0).trans ((dif_pos h1).trans rfl)

/-! ## The invariant -/

/-- The region's invariant before position `n`: before the first point the launch's own (every accumulator at anything);
    afterwards the three accumulators owned at what the point before left in them (the running sums' last three
    components), and the generator register at some state. -/
def PhiT (c : Dev nD) : (n : ℕ) → n ≤ cfg0.N → sProp 𝕄
  | 0, _ => Pipeline.ΦA spec0 c
  | n + 1, hn => iprop(iprop(owns (c : Thread nD τ) acc0 fullShare (sumsAt m c n hn).2.2.2.1 ∗ owns (c : Thread nD τ) acc1 fullShare (sumsAt m c n hn).2.2.2.2.1 ∗ owns (c : Thread nD τ) acc2 fullShare (sumsAt m c n hn).2.2.2.2.2) ∗ (∃ r, prngReg c r))

theorem PhiT_zero (c : Dev nD) (n : ℕ) (h : n ≤ cfg0.N) (hz : n = 0) : PhiT m c n h = Pipeline.ΦA spec0 c := by
  subst hz; rfl

/-- After point `n`: the accumulators at that point's sums. -/
theorem PhiT_succ (c : Dev nD) (n : ℕ) (hn : n < cfg0.N) :
    PhiT m c (n + 1) hn = iprop(iprop(owns (c : Thread nD τ) acc0 fullShare (sumsAt m c n hn).2.2.2.1 ∗ owns (c : Thread nD τ) acc1 fullShare (sumsAt m c n hn).2.2.2.2.1 ∗ owns (c : Thread nD τ) acc2 fullShare (sumsAt m c n hn).2.2.2.2.2) ∗ (∃ r, prngReg c r)) := rfl

/-- Before a point that is not the first: the accumulators at the sums of the point before. -/
theorem PhiT_pos (c : Dev nD) (n : ℕ) (h : n ≤ cfg0.N) (hz : n ≠ 0) :
    PhiT m c n h = iprop(iprop(owns (c : Thread nD τ) acc0 fullShare (sumsAt m c (n - 1) (by omega)).2.2.2.1 ∗ owns (c : Thread nD τ) acc1 fullShare (sumsAt m c (n - 1) (by omega)).2.2.2.2.1 ∗ owns (c : Thread nD τ) acc2 fullShare (sumsAt m c (n - 1) (by omega)).2.2.2.2.2) ∗ (∃ r, prngReg c r)) := by
  cases n with
  | zero => exact absurd rfl hz
  | succ n => rfl

/-! ## The proof data -/

/-- The proof data of the region on core `c`: the arrays as the region finds them; after the body at point `t` each input's
    staging buffer still at its block and the three outputs' at the running sums' first three components; the invariant
    above; each input array held at the share its window has of it; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (sumsAt m c t.val t.isLt).1
    | ⟨7, _⟩ => (sumsAt m c t.val t.isLt).2.1
    | ⟨8, _⟩ => (sumsAt m c t.val t.isLt).2.2.1
  Φ t := PhiT m c t.val (Nat.le_of_lt_succ t.isLt)
  q := inShare
  owed _ := 0

/-- The proof data's arrays are the region-entry contents (the definition projected, the entry contents never unfolded). -/
theorem A_eq (c : Dev nD) (w : Fin cfg0.W) : (dats m 0 c).A w = V m c (Pipeline.arrRef spec0 w) := by
  dsimp only [dats]

/-- The invariant at a point's start, restated at the point's position. -/
theorem PhiT_castSucc (c : Dev nD) (t : Fin cfg0.N) :
    (dats m 0 c).Φ t.castSucc = PhiT m c t.val (Nat.le_of_lt t.isLt) := by
  dsimp only [dats]; simp only [Fin.coe_castSucc]

/-- What the body leaves, window by window. -/
theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_out6 (c : Dev nD) (t : Fin cfg0.N) : (dats m 0 c).after 6 t = (sumsAt m c t.val t.isLt).1 := by dsimp only [dats]
theorem after_out7 (c : Dev nD) (t : Fin cfg0.N) : (dats m 0 c).after 7 t = (sumsAt m c t.val t.isLt).2.1 := by dsimp only [dats]
theorem after_out8 (c : Dev nD) (t : Fin cfg0.N) : (dats m 0 c).after 8 t = (sumsAt m c t.val t.isLt).2.2.1 := by dsimp only [dats]

/-- Each input's current staging buffer holds its block at every point, fetched there or not. -/
theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d
theorem before_in2 (c : Dev nD) (t : Fin cfg0.N) (d) : (dats m 0 c).before 2 t d = iblk m c 2 t :=
  before_in2_of m (dats m 0 c) (A_eq m c 2) (after_in2 m c) t d
theorem before_in3 (c : Dev nD) (t : Fin cfg0.N) (d) : (dats m 0 c).before 3 t d = iblk m c 3 t :=
  before_in3_of m (dats m 0 c) (A_eq m c 3) (after_in3 m c) t d
theorem before_in4 (c : Dev nD) (t : Fin cfg0.N) (d) : (dats m 0 c).before 4 t d = iblk m c 4 t :=
  before_in4_of m (dats m 0 c) (A_eq m c 4) (after_in4 m c) t d
theorem before_in5 (c : Dev nD) (t : Fin cfg0.N) (d) : (dats m 0 c).before 5 t d = iblk m c 5 t :=
  before_in5_of m (dats m 0 c) (A_eq m c 5) (after_in5 m c) t d

/-- What the body must leave in an input's buffer: the block it found. -/
theorem leaves_in0 (c : Dev nD) (t : Fin cfg0.N) :
    (dats m 0 c).leavesExact 0 t = owns (c : Thread nD τ) (stg0 t) fullShare (iblk m c 0 t) := by
  unfold Dat.leavesExact; rw [live0 t, after_in0]
theorem leaves_in1 (c : Dev nD) (t : Fin cfg0.N) :
    (dats m 0 c).leavesExact 1 t = owns (c : Thread nD τ) (stg1 t) fullShare (iblk m c 1 t) := by
  unfold Dat.leavesExact; rw [live1 t, after_in1]
theorem leaves_in2 (c : Dev nD) (t : Fin cfg0.N) :
    (dats m 0 c).leavesExact 2 t = owns (c : Thread nD τ) (stg2 t) fullShare (iblk m c 2 t) := by
  unfold Dat.leavesExact; rw [live2 t, after_in2]
theorem leaves_in3 (c : Dev nD) (t : Fin cfg0.N) :
    (dats m 0 c).leavesExact 3 t = owns (c : Thread nD τ) (stg3 t) fullShare (iblk m c 3 t) := by
  unfold Dat.leavesExact; rw [live3 t, after_in3]
theorem leaves_in4 (c : Dev nD) (t : Fin cfg0.N) :
    (dats m 0 c).leavesExact 4 t = owns (c : Thread nD τ) (stg4 t) fullShare (iblk m c 4 t) := by
  unfold Dat.leavesExact; rw [live4 t, after_in4]
theorem leaves_in5 (c : Dev nD) (t : Fin cfg0.N) :
    (dats m 0 c).leavesExact 5 t = owns (c : Thread nD τ) (stg5 t) fullShare (iblk m c 5 t) := by
  unfold Dat.leavesExact; rw [live5 t, after_in5]

/-- Away from a row's last point an output's buffer is handed back as found; at it, holding the running sums' component. -/
theorem leaves_out6_idle (c : Dev nD) (t : Fin cfg0.N) (h1 : ¬t.val % 16 = 15) :
    (dats m 0 c).leavesExact 6 t = iprop(∃ d, owns (c : Thread nD τ) (stg6 t) fullShare ((dats m 0 c).before 6 t d)) :=
  Dat.leavesExact_idle (dats m 0 c) 6 t (idle6_of_not_rowEnd t (fun h => h1 ((atRowEnd_iff t).mp h))) (noFlush6_of_not_rowEnd t (fun h => h1 ((atRowEnd_iff t).mp h)))
theorem leaves_out6_live (c : Dev nD) (t : Fin cfg0.N) (h1 : t.val % 16 = 15) :
    (dats m 0 c).leavesExact 6 t = owns (c : Thread nD τ) (stg6 t) fullShare (sumsAt m c t.val t.isLt).1 := by
  unfold Dat.leavesExact; rw [live6_of_rowEnd t ((atRowEnd_iff t).mpr h1), after_out6]
theorem leaves_out7_idle (c : Dev nD) (t : Fin cfg0.N) (h1 : ¬t.val % 16 = 15) :
    (dats m 0 c).leavesExact 7 t = iprop(∃ d, owns (c : Thread nD τ) (stg7 t) fullShare ((dats m 0 c).before 7 t d)) :=
  Dat.leavesExact_idle (dats m 0 c) 7 t (idle7_of_not_rowEnd t (fun h => h1 ((atRowEnd_iff t).mp h))) (noFlush7_of_not_rowEnd t (fun h => h1 ((atRowEnd_iff t).mp h)))
theorem leaves_out7_live (c : Dev nD) (t : Fin cfg0.N) (h1 : t.val % 16 = 15) :
    (dats m 0 c).leavesExact 7 t = owns (c : Thread nD τ) (stg7 t) fullShare (sumsAt m c t.val t.isLt).2.1 := by
  unfold Dat.leavesExact; rw [live7_of_rowEnd t ((atRowEnd_iff t).mpr h1), after_out7]
theorem leaves_out8_idle (c : Dev nD) (t : Fin cfg0.N) (h1 : ¬t.val % 16 = 15) :
    (dats m 0 c).leavesExact 8 t = iprop(∃ d, owns (c : Thread nD τ) (stg8 t) fullShare ((dats m 0 c).before 8 t d)) :=
  Dat.leavesExact_idle (dats m 0 c) 8 t (idle8_of_not_rowEnd t (fun h => h1 ((atRowEnd_iff t).mp h))) (noFlush8_of_not_rowEnd t (fun h => h1 ((atRowEnd_iff t).mp h)))
theorem leaves_out8_live (c : Dev nD) (t : Fin cfg0.N) (h1 : t.val % 16 = 15) :
    (dats m 0 c).leavesExact 8 t = owns (c : Thread nD τ) (stg8 t) fullShare (sumsAt m c t.val t.isLt).2.2.1 := by
  unfold Dat.leavesExact; rw [live8_of_rowEnd t ((atRowEnd_iff t).mpr h1), after_out8]

/-! ## The body obligation, at a generic point -/

/-- What the body is called with at point `t`: the invariant, what the core owes, and each window's current staging buffer
    at what it then holds. -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d)))

/-- What it returns: the invariant at the next point, the same debts, and each buffer at what the body leaves. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 4800000 in
/-- The body at any point. The inputs' buffers hold their blocks; the point's position modulo 16 says which of the three
    cases it is in, and that case's run applies: the invariant hands it the accumulators (at anything before the very
    first point, else at the sums of the point before — which a row's first point does not read, zeroing them), and takes
    them back at this point's sums, each read back from the stores that cover it; the outputs are handed back untouched
    away from a row's end and at the sums there; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5]
  rw [show (dats m 0 c).owesAt () t.succ = (dats m 0 c).owesAt () t.castSucc from rfl]
  rw [show (dats m 0 c).Φ t.succ = PhiT m c (t.val + 1) t.isLt from rfl, PhiT_succ]
  rw [leaves_in0, leaves_in1, leaves_in2, leaves_in3, leaves_in4, leaves_in5]
  have hN : t.val < 32 := lt_of_lt_of_eq t.isLt (show cfg0.N = 32 from N_0)
  by_cases h0 : t.val % 16 = 0
  · have h1 : ¬t.val % 16 = 15 := by omega
    rw [leaves_out6_idle m c t h1, leaves_out7_idle m c t h1, leaves_out8_idle m c t h1]
    rw [sumsAt_first m c t h0 h1]
    unfold firstLeaves; (try dsimp only)
    by_cases hz : t.val = 0
    · rw [PhiT_castSucc m c t, PhiT_zero m c _ _ hz, PhiA_eq]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((firstAt m c t h0 h1).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      isplitl [HS2]; · iexact HS2
      iintro ⟨H0, H1, H2, H3, H4, H5, H6, H7, H8, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (coverFirstAcc0 m c t h0 h1)
          isplitl [HS1]
          · unfold owns; iexists _; isplitr
            swap; · iexact HS1
            ipureintro; exact View.read_writes_of_cover _ _ _ _ _ (coverFirstAcc1 m c t h0 h1)
          unfold owns; iexists _; isplitr
          swap; · iexact HS2
          ipureintro; exact View.read_writes_of_cover _ _ _ _ _ (coverFirstAcc2 m c t h0 h1)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      iexists _; iexact H8
    · rw [PhiT_castSucc m c t, PhiT_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((firstAt m c t h0 h1).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexists _; iexact HS0
      isplitl [HS1]; · iexists _; iexact HS1
      isplitl [HS2]; · iexists _; iexact HS2
      iintro ⟨H0, H1, H2, H3, H4, H5, H6, H7, H8, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (coverFirstAcc0 m c t h0 h1)
          isplitl [HS1]
          · unfold owns; iexists _; isplitr
            swap; · iexact HS1
            ipureintro; exact View.read_writes_of_cover _ _ _ _ _ (coverFirstAcc1 m c t h0 h1)
          unfold owns; iexists _; isplitr
          swap; · iexact HS2
          ipureintro; exact View.read_writes_of_cover _ _ _ _ _ (coverFirstAcc2 m c t h0 h1)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      iexists _; iexact H8
  · have hz : t.val ≠ 0 := fun hz => h0 (by rw [hz])
    by_cases h1 : t.val % 16 = 15
    · rw [leaves_out6_live m c t h1, leaves_out7_live m c t h1, leaves_out8_live m c t h1]
      rw [sumsAt_last m c t h0 h1]
      unfold lastLeaves; (try dsimp only)
      rw [PhiT_castSucc m c t, PhiT_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((lastAt m c t h0 h1 _ _ _).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      isplitl [HS2]; · iexact HS2
      iintro ⟨H0, H1, H2, H3, H4, H5, ⟨%e6, H6⟩, ⟨%e7, H7⟩, ⟨%e8, H8⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (coverLastAcc0 m c t h0 h1 _ _ _)
          isplitl [HS1]
          · unfold owns; iexists _; isplitr
            swap; · iexact HS1
            ipureintro; exact View.read_writes_of_cover _ _ _ _ _ (coverLastAcc1 m c t h0 h1 _ _ _)
          unfold owns; iexists _; isplitr
          swap; · iexact HS2
          ipureintro; exact View.read_writes_of_cover _ _ _ _ _ (coverLastAcc2 m c t h0 h1 _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (coverLastOut6 m c t h0 h1 _ _ _)
      isplitl [H7]
      · unfold owns; iexists _; isplitr
        swap; · iexact H7
        ipureintro; exact View.read_writes_of_cover _ _ _ _ _ (coverLastOut7 m c t h0 h1 _ _ _)
      unfold owns; iexists _; isplitr
      swap; · iexact H8
      ipureintro; exact View.read_writes_of_cover _ _ _ _ _ (coverLastOut8 m c t h0 h1 _ _ _)
    · rw [leaves_out6_idle m c t h1, leaves_out7_idle m c t h1, leaves_out8_idle m c t h1]
      rw [sumsAt_mid m c t h0 h1]
      unfold midLeaves; (try dsimp only)
      rw [PhiT_castSucc m c t, PhiT_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((midAt m c t h0 h1 _ _ _).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      isplitl [HS2]; · iexact HS2
      iintro ⟨H0, H1, H2, H3, H4, H5, H6, H7, H8, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (coverMidAcc0 m c t h0 h1 _ _ _)
          isplitl [HS1]
          · unfold owns; iexists _; isplitr
            swap; · iexact HS1
            ipureintro; exact View.read_writes_of_cover _ _ _ _ _ (coverMidAcc1 m c t h0 h1 _ _ _)
          unfold owns; iexists _; isplitr
          swap; · iexact HS2
          ipureintro; exact View.read_writes_of_cover _ _ _ _ _ (coverMidAcc2 m c t h0 h1 _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      iexists _; iexact H8

/-- The body obligation of the region's proof data, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiT m c 0 (Nat.zero_le _) from rfl, PhiT_zero m c 0 _ rfl]
  try exact Idealize.SL.BI.Entails.refl _

/-- After any point the invariant gives the launch's back: what the accumulators hold is forgotten. -/
theorem Phi_out (c : Dev nD) (t : Fin (cfg0.N + 1)) (ht : t.val ≠ 0) : (dats m 0 c).Φ t ⊢ Pipeline.ΦA spec0 c := by
  rw [show (dats m 0 c).Φ t = PhiT m c t.val (Nat.le_of_lt_succ t.isLt) from rfl, PhiT_pos m c _ _ ht, PhiA_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

/-- In particular after the last point. -/
theorem hout (c : Dev nD) : (dats m 0 c).Φ (Fin.last cfg0.N) ⊢ Pipeline.ΦA spec0 c :=
  Phi_out m c _ (by rw [Fin.val_last]; have : cfg0.N = 32 := N_0; omega)

end Cert.Kernel.Mmd

end
-- ==== Proof.KFrame.lean ====
/-
  The run of @main at the region body's proof data, and the frame: the two argument arrays end as they began.

  No operation of @main writes an argument: the host stretches write only their own results, the region's write-backs
  only the three result arrays. So the value the run computes for an argument buffer is its launch contents.
-/
import proofs.«136887_j59356448031516_2_alg».proof.Proof.KLaunch
import proofs.«136887_j59356448031516_2_alg».proof.Proof.KBodyData

noncomputable section

namespace Cert.Kernel.Mmd

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]
variable (m : (ℓ : Loc nD τ sig) → Buf (Elt F) ℓ) (ρ : Dev nD → PrngReg)

/-- THE RUN at the body's proof data: every weakly fair execution of @main terminates, nothing faulting, each unscoped
    buffer ending at what the three stretches compute for it. -/
theorem run_main : θ_run defs (onTc (τ := τ) (main (F := F))) (s₀ m ρ) (fun r => ∀ c : Dev nD,
      ∀ b ∈ (Finset.univ.filter fun b : Ref sig .tc => ¬ b.isScoped), r.2.mem ((c.tc : Thread nD τ).loc b) = Vend m (dats m) c (Proc.devRef .tc b)) :=
  run_of m ρ (dats m) (A_eq m) (fun _ _ => rfl) (fun c => (body_obligation m c).loose) (fun _ _ => rfl) (fun _ _ => rfl) (hin m) (hout m)

variable (dats' : (p : Fin 1) → (c : Dev nD) → Dat τ (Elt F) Unit ℕ (UR sig nD τ) ℕ (cfgs p) c)

set_option maxHeartbeats 4000000 in
/-- The first argument's buffer ends at its launch contents. -/
theorem Vend_arg0 (c : Dev nD) : Vend m dats' c (Proc.devRef .tc main_arg0) = m ((c.tc : Thread nD τ).loc main_arg0) := by
  have h1 : Vend m dats' c (Proc.devRef .tc main_arg0) = Vexit m dats' c (Proc.devRef .tc main_arg0) := by
    dsimp only [Vend, hostOps1]; after_results
  have h2 : V m c main_arg0 = m ((c.tc : Thread nD τ).loc main_arg0) := by
    dsimp only [V, V0, hostOps0]; after_results
  rw [h1, Vexit_of_ne m dats' c main_arg0 (by decide) (by decide) (by decide), h2]

set_option maxHeartbeats 4000000 in
/-- The second argument's buffer ends at its launch contents. -/
theorem Vend_arg1 (c : Dev nD) : Vend m dats' c (Proc.devRef .tc main_arg1) = m ((c.tc : Thread nD τ).loc main_arg1) := by
  have h1 : Vend m dats' c (Proc.devRef .tc main_arg1) = Vexit m dats' c (Proc.devRef .tc main_arg1) := by
    dsimp only [Vend, hostOps1]; after_results
  have h2 : V m c main_arg1 = m ((c.tc : Thread nD τ).loc main_arg1) := by
    dsimp only [V, V0, hostOps0]; after_results
  rw [h1, Vexit_of_ne m dats' c main_arg1 (by decide) (by decide) (by decide), h2]

theorem arg0_unscoped : main_arg0 ∈ (Finset.univ.filter fun b : Ref sig .tc => ¬ b.isScoped) := by decide
theorem arg1_unscoped : main_arg1 ∈ (Finset.univ.filter fun b : Ref sig .tc => ¬ b.isScoped) := by decide
theorem v25_unscoped : main_v25 ∈ (Finset.univ.filter fun b : Ref sig .tc => ¬ b.isScoped) := by decide

/-- THE FRAME: @main runs to the end, nothing faulting, and both argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c main_arg0 arg0_unscoped).trans (Vend_arg0 m (dats m) c),
    (h c main_arg1 arg1_unscoped).trans (Vend_arg1 m (dats m) c)⟩) (run_main m ρ)

end Cert.Kernel.Mmd

end
-- ==== Proof.Entry.lean ====
/-
  What the kernel region is entered with, shared by the proof data of the region's body and by the launch.

  @main first runs twenty host operations (the two arguments rounded to bf16, the rounded arrays' row norms
  times -1 laid out as rows [1, 8192]); the region then stages, at each of its 2 x 16 grid points, a tile of 256
  rows of each rounded array (windows 0, 1), both rounded arrays whole (windows 2, 3: the SAME two arrays a second
  time), the two norm rows (windows 4, 5), and writes three [2, 1, 1] results back (windows 6, 7, 8).
  `V` is what the buffers hold when the region is entered; `iblk` a window's block there; `inShare` how an array
  handed to two input windows is divided between them (one half each), every other window holding its array whole.
-/
import proofs.«136887_j59356448031516_2_alg».proof.Proof.Gen.KernelIdeal.Launch
import proofs.«136887_j59356448031516_2_alg».proof.Proof.Gen.KernelIdeal.Skeleton
import proofs.«136887_j59356448031516_2_alg».proof.Proof.Gen.KernelIdeal.Points
import Idealize.ShloMosaic.Lib.Pipeline.FrameBody
import Idealize.ShloMosaic.Lib.Pipeline.FrameSuffix
import Idealize.ShloMosaic.Lib.Tactic

noncomputable section

namespace Cert.KernelIdeal.Mmd

open Idealize.ShloMosaic Idealize.ShloMosaic.TcCoe
open Idealize.SL Idealize.SL.RA Idealize.SL.Sem
open Cert.KernelIdeal Cert.KernelIdeal.Gen

variable {F : FTy → Type} [FloatOps F]
variable (m : (ℓ : Loc nD τ sig) → Buf (Elt F) ℓ)

/-- Core `c`'s TensorCore buffers when the region is entered: the launch memory after the host operations before it. -/
abbrev V0 (c : Dev nD) : Valuation τ sig (Elt F) := StableHlo.after hostOps0 (fun b => m (c, b))
/-- The same read at a TensorCore reference. -/
abbrev V (c : Dev nD) (b : Ref sig .tc) : Buf (Elt F) ((c : Thread nD τ).loc b) := V0 m c (Proc.devRef .tc b)

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The share of its array each input window holds: the two windows on the first rounded array (0 and 2) one half
    each, likewise the two on the second (1 and 3); a window alone on its array the whole. (An output window always
    holds its array whole, whatever is said here.) -/
def inShare : Fin 9 → PosShare TreeShare
  | ⟨0, _⟩ => fullShare.left
  | ⟨1, _⟩ => fullShare.left
  | ⟨2, _⟩ => fullShare.right
  | ⟨3, _⟩ => fullShare.right
  | ⟨4, _⟩ => fullShare
  | ⟨5, _⟩ => fullShare
  | ⟨6, _⟩ => fullShare
  | ⟨7, _⟩ => fullShare
  | ⟨8, _⟩ => fullShare
  | ⟨_ + 9, h⟩ => absurd h (Nat.not_lt.2 (Nat.le_add_left _ _))

end Cert.KernelIdeal.Mmd

end
-- ==== Proof.Launch.lean ====
/-
  The launch around the region, for ANY proof data of the region's body with the entry arrays of `Entry.lean` and the
  input shares `inShare`.

  @main is three stretches: twenty host operations, the region, sixteen host operations. Between stretches a core
  holds every unscoped buffer whole at a valuation. The region is entered by dealing those buffers to the windows:
  an array read by two input windows is cut into two half shares, one per window; every other array goes whole to its
  window; the buffers no window stages pass by. At the exit the halves, which still hold what they held (an input
  window never changes its array), are joined again, and the three result arrays are taken at what the write-backs
  left. So after the region the buffers hold the entry valuation overwritten at the three results, and the last
  stretch runs from there.
-/
import proofs.«136887_j59356448031516_2_alg».proof.Proof.Entry
import Idealize.ShloMosaic.Lib.Pipeline.Regions

noncomputable section

namespace Cert.KernelIdeal.Mmd

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- No core owes another anything: no level is assigned, and no table is prefetched. -/
abbrev L : GSem nD τ sig → Finset Unit := fun _ => ∅
abbrev lv : GSem nD τ sig → Unit → ℕ := fun _ _ => 0
abbrev adm : (p : Fin 1) → (pcfgs (F := F) p).Adm := fun p => (cfgs p).toPCfg_adm

/-- What rides beside the buffers through every stretch: the generator register at some state, and the core owing
    nothing. -/
abbrev R (c : Dev nD) : sProp 𝕄 :=
  iprop((∃ r, prngReg c r) ∗ ∃ W, owes (c : Thread nD τ) (0 : CellTallies nD τ sig Unit) W)

/-- The launch memory as a valuation of core `c`'s buffers. -/
abbrev Vlaunch (c : Dev nD) : Valuation τ sig (Elt F) := fun b => m (c, b)

theorem hostOps0_fresh : ∀ op ∈ (hostOps0 : List (HloOp τ sig (Elt F))), op.fresh = ∅ := by
  intro _ h; (repeat (cases h with | head => rfl | tail _ h => ?_)); exact nomatch h

theorem hostOps1_fresh : ∀ op ∈ (hostOps1 : List (HloOp τ sig (Elt F))), op.fresh = ∅ := by
  intro _ h; (repeat (cases h with | head => rfl | tail _ h => ?_)); exact nomatch h

/-- The first stretch: the twenty host operations over the unscoped buffers. -/
def segBefore : Pipeline.HostSeg (Name := ℕ) (U := UR sig nD τ) (pcfgs (F := F)) defs₀ Variants.none L lv :=
  Pipeline.HostSeg.ofOps _ _ _ _ _ (Pipeline.ucRefs τ sig) hostOps0
    (fun op h => Pipeline.sub_ucRefs op ((List.forall_iff_forall_mem.mp hostOps0_sub) op h)) hostOps0_fresh (Vlaunch m) R

/-- The three result arrays' contents the region leaves, written over a valuation: each result buffer takes its
    contents, every other buffer keeps what it held. -/
abbrev overwritten (W : Valuation τ sig (Elt F)) (r0 : main_v16_0.ty.Contents (Elt F)) (r1 : main_v16_1.ty.Contents (Elt F))
    (r2 : main_v16_2.ty.Contents (Elt F)) : Valuation τ sig (Elt F) :=
  StableHlo.after [StableHlo.nullary main_v16_0 r0, StableHlo.nullary main_v16_1 r1, StableHlo.nullary main_v16_2 r2] W

/-- The last stretch, from the region's exit valuation `W`. -/
def segAfter (W : Dev nD → Valuation τ sig (Elt F)) : Pipeline.HostSeg (Name := ℕ) (U := UR sig nD τ) (pcfgs (F := F)) defs₀ Variants.none L lv :=
  Pipeline.HostSeg.ofOps _ _ _ _ _ (Pipeline.ucRefs τ sig) hostOps1
    (fun op h => Pipeline.sub_ucRefs op ((List.forall_iff_forall_mem.mp hostOps1_sub) op h)) hostOps1_fresh W R

/-! ## The region, for any proof data with these arrays and shares -/

variable (dats : (p : Fin 1) → (c : Dev nD) → Dat τ (Elt F) Unit ℕ (UR sig nD τ) ℕ (cfgs p) c)

/-- What core `c`'s buffers hold when the region is left: as at the entry, but for the three results. -/
abbrev Vexit (c : Dev nD) : Valuation τ sig (Elt F) :=
  overwritten (V0 m c) ((dats 0 c).arrAt 6 cfg0.N) ((dats 0 c).arrAt 7 cfg0.N) ((dats 0 c).arrAt 8 cfg0.N)

/-- Off the three results the exit valuation is the entry one. -/
theorem Vexit_of_ne (c : Dev nD) (b : Ref sig .tc) (h0 : b ≠ main_v16_0) (h1 : b ≠ main_v16_1) (h2 : b ≠ main_v16_2) :
    Vexit m dats c (Proc.devRef .tc b) = V m c b :=
  StableHlo.after_of_forall_not_mem (b := Proc.devRef .tc b) _ _ (by
    intro op hop
    simp only [List.mem_cons, List.mem_nil_iff, or_false] at hop
    rcases hop with rfl | rfl | rfl <;>
      simp only [StableHlo.nullary_writes, Finset.mem_singleton] <;>
      exact StableHlo.devRef_ne_of_ne ‹_›)

variable (hA : ∀ c w, (dats 0 c).A w = V m c (Pipeline.arrRef spec0 w))
  (hq : ∀ c w, (dats 0 c).q w = inShare w)

include hq in
/-- Every window holds its array at `inShare` (an output window the whole, which is what `inShare` says of it too). -/
theorem share_eq (c : Dev nD) (w : Fin 9) : (dats 0 c).share w = inShare w := by
  unfold Dat.share; rw [hq]
  fin_cases w <;> rfl

/-- One window's array in `Dat.arrays`, as a points-to of the buffer behind it at the window's share. -/
theorem arr_term (c : Dev nD) (w : Fin 9) (q : PosShare TreeShare) (X : Buf (Elt F) ((cfg0.win w).arr.view.loc (c.tc : Thread nD τ))) :
    ((cfg0.win w).arr.view.loc (c.tc : Thread nD τ) ↦[(cfg0.win w).arr.view.set]{q} X : sProp 𝕄)
      = (((c.tc : Thread nD τ).loc (Pipeline.arrRef spec0 w)) ↦{q} X) := by
  rw [(arr_whole0 w).set_eq_univ]

/-- The seven buffers behind the nine windows' arrays (windows 2 and 3 are on the buffers of windows 0 and 1). -/
theorem arrRefs_eq : Finset.univ.image (Pipeline.arrRef spec0)
    = [main_v0, main_v1, main_v9, main_v15, main_v16_0, main_v16_1, main_v16_2].toFinset := by
  decide
theorem arrRefs_nodup : [main_v0, main_v1, main_v9, main_v15, main_v16_0, main_v16_1, main_v16_2].Nodup := by decide

/-! One window's array in `Dat.arrays`, as a points-to of the named buffer behind it at the window's share. -/

include hq in
set_option maxHeartbeats 4000000 in
theorem arr_term0 (c : Dev nD) (n : ℕ) :
    ((cfg0.win 0).arr.view.loc (c.tc : Thread nD τ) ↦[(cfg0.win 0).arr.view.set]{(dats 0 c).share 0} (dats 0 c).arrAt 0 n : sProp 𝕄)
      = (((c.tc : Thread nD τ).loc main_v0) ↦{fullShare.left} (dats 0 c).arrAt 0 n) := by
  rw [(arr_whole0 0).set_eq_univ, share_eq dats hq c 0]; rfl

include hq in
set_option maxHeartbeats 4000000 in
theorem arr_term1 (c : Dev nD) (n : ℕ) :
    ((cfg0.win 1).arr.view.loc (c.tc : Thread nD τ) ↦[(cfg0.win 1).arr.view.set]{(dats 0 c).share 1} (dats 0 c).arrAt 1 n : sProp 𝕄)
      = (((c.tc : Thread nD τ).loc main_v1) ↦{fullShare.left} (dats 0 c).arrAt 1 n) := by
  rw [(arr_whole0 1).set_eq_univ, share_eq dats hq c 1]; rfl

include hq in
set_option maxHeartbeats 4000000 in
theorem arr_term2 (c : Dev nD) (n : ℕ) :
    ((cfg0.win 2).arr.view.loc (c.tc : Thread nD τ) ↦[(cfg0.win 2).arr.view.set]{(dats 0 c).share 2} (dats 0 c).arrAt 2 n : sProp 𝕄)
      = (((c.tc : Thread nD τ).loc main_v0) ↦{fullShare.right} (dats 0 c).arrAt 2 n) := by
  rw [(arr_whole0 2).set_eq_univ, share_eq dats hq c 2]; rfl

include hq in
set_option maxHeartbeats 4000000 in
theorem arr_term3 (c : Dev nD) (n : ℕ) :
    ((cfg0.win 3).arr.view.loc (c.tc : Thread nD τ) ↦[(cfg0.win 3).arr.view.set]{(dats 0 c).share 3} (dats 0 c).arrAt 3 n : sProp 𝕄)
      = (((c.tc : Thread nD τ).loc main_v1) ↦{fullShare.right} (dats 0 c).arrAt 3 n) := by
  rw [(arr_whole0 3).set_eq_univ, share_eq dats hq c 3]; rfl

include hq in
set_option maxHeartbeats 4000000 in
theorem arr_term4 (c : Dev nD) (n : ℕ) :
    ((cfg0.win 4).arr.view.loc (c.tc : Thread nD τ) ↦[(cfg0.win 4).arr.view.set]{(dats 0 c).share 4} (dats 0 c).arrAt 4 n : sProp 𝕄)
      = (((c.tc : Thread nD τ).loc main_v9) ↦{fullShare} (dats 0 c).arrAt 4 n) := by
  rw [(arr_whole0 4).set_eq_univ, share_eq dats hq c 4]; rfl

include hq in
set_option maxHeartbeats 4000000 in
theorem arr_term5 (c : Dev nD) (n : ℕ) :
    ((cfg0.win 5).arr.view.loc (c.tc : Thread nD τ) ↦[(cfg0.win 5).arr.view.set]{(dats 0 c).share 5} (dats 0 c).arrAt 5 n : sProp 𝕄)
      = (((c.tc : Thread nD τ).loc main_v15) ↦{fullShare} (dats 0 c).arrAt 5 n) := by
  rw [(arr_whole0 5).set_eq_univ, share_eq dats hq c 5]; rfl

include hq in
set_option maxHeartbeats 4000000 in
theorem arr_term6 (c : Dev nD) (n : ℕ) :
    ((cfg0.win 6).arr.view.loc (c.tc : Thread nD τ) ↦[(cfg0.win 6).arr.view.set]{(dats 0 c).share 6} (dats 0 c).arrAt 6 n : sProp 𝕄)
      = (((c.tc : Thread nD τ).loc main_v16_0) ↦{fullShare} (dats 0 c).arrAt 6 n) := by
  rw [(arr_whole0 6).set_eq_univ, share_eq dats hq c 6]; rfl

include hq in
set_option maxHeartbeats 4000000 in
theorem arr_term7 (c : Dev nD) (n : ℕ) :
    ((cfg0.win 7).arr.view.loc (c.tc : Thread nD τ) ↦[(cfg0.win 7).arr.view.set]{(dats 0 c).share 7} (dats 0 c).arrAt 7 n : sProp 𝕄)
      = (((c.tc : Thread nD τ).loc main_v16_1) ↦{fullShare} (dats 0 c).arrAt 7 n) := by
  rw [(arr_whole0 7).set_eq_univ, share_eq dats hq c 7]; rfl

include hq in
set_option maxHeartbeats 4000000 in
theorem arr_term8 (c : Dev nD) (n : ℕ) :
    ((cfg0.win 8).arr.view.loc (c.tc : Thread nD τ) ↦[(cfg0.win 8).arr.view.set]{(dats 0 c).share 8} (dats 0 c).arrAt 8 n : sProp 𝕄)
      = (((c.tc : Thread nD τ).loc main_v16_2) ↦{fullShare} (dats 0 c).arrAt 8 n) := by
  rw [(arr_whole0 8).set_eq_univ, share_eq dats hq c 8]; rfl

include hq in
set_option maxHeartbeats 8000000 in
/-- The nine windows' arrays after the write-backs of the first `n` points, window by window. -/
theorem arrays_chain (c : Dev nD) (n : ℕ) :
    ((dats 0 c).arrays ((dats 0 c).arrAt · n) : sProp 𝕄)
      = iprop((((c.tc : Thread nD τ).loc main_v0) ↦{fullShare.left} (dats 0 c).arrAt 0 n)
        ∗ (((c.tc : Thread nD τ).loc main_v1) ↦{fullShare.left} (dats 0 c).arrAt 1 n)
        ∗ (((c.tc : Thread nD τ).loc main_v0) ↦{fullShare.right} (dats 0 c).arrAt 2 n)
        ∗ (((c.tc : Thread nD τ).loc main_v1) ↦{fullShare.right} (dats 0 c).arrAt 3 n)
        ∗ (((c.tc : Thread nD τ).loc main_v9) ↦{fullShare} (dats 0 c).arrAt 4 n)
        ∗ (((c.tc : Thread nD τ).loc main_v15) ↦{fullShare} (dats 0 c).arrAt 5 n)
        ∗ (((c.tc : Thread nD τ).loc main_v16_0) ↦{fullShare} (dats 0 c).arrAt 6 n)
        ∗ (((c.tc : Thread nD τ).loc main_v16_1) ↦{fullShare} (dats 0 c).arrAt 7 n)
        ∗ (((c.tc : Thread nD τ).loc main_v16_2) ↦{fullShare} (dats 0 c).arrAt 8 n)) := by
  unfold Dat.arrays
  rw [bigSep_W0]
  exact (congrArg₂ BI.sep (arr_term0 dats hq c n) (congrArg₂ BI.sep (arr_term1 dats hq c n) (congrArg₂ BI.sep (arr_term2 dats hq c n) (congrArg₂ BI.sep (arr_term3 dats hq c n) (congrArg₂ BI.sep (arr_term4 dats hq c n) (congrArg₂ BI.sep (arr_term5 dats hq c n) (congrArg₂ BI.sep (arr_term6 dats hq c n) (congrArg₂ BI.sep (arr_term7 dats hq c n) (arr_term8 dats hq c n)))))))))

/-! What the windows' arrays hold at the entry, and the inputs' at the exit: the entry valuation at the named buffer. -/

include hA in
set_option maxHeartbeats 4000000 in
theorem arrAt0_zero (c : Dev nD) : (dats 0 c).arrAt 0 0 = V m c main_v0 := hA c 0

include hA in
set_option maxHeartbeats 4000000 in
theorem arrAt1_zero (c : Dev nD) : (dats 0 c).arrAt 1 0 = V m c main_v1 := hA c 1

include hA in
set_option maxHeartbeats 4000000 in
theorem arrAt2_zero (c : Dev nD) : (dats 0 c).arrAt 2 0 = V m c main_v0 := hA c 2

include hA in
set_option maxHeartbeats 4000000 in
theorem arrAt3_zero (c : Dev nD) : (dats 0 c).arrAt 3 0 = V m c main_v1 := hA c 3

include hA in
set_option maxHeartbeats 4000000 in
theorem arrAt4_zero (c : Dev nD) : (dats 0 c).arrAt 4 0 = V m c main_v9 := hA c 4

include hA in
set_option maxHeartbeats 4000000 in
theorem arrAt5_zero (c : Dev nD) : (dats 0 c).arrAt 5 0 = V m c main_v15 := hA c 5

include hA in
set_option maxHeartbeats 4000000 in
theorem arrAt6_zero (c : Dev nD) : (dats 0 c).arrAt 6 0 = V m c main_v16_0 := hA c 6

include hA in
set_option maxHeartbeats 4000000 in
theorem arrAt7_zero (c : Dev nD) : (dats 0 c).arrAt 7 0 = V m c main_v16_1 := hA c 7

include hA in
set_option maxHeartbeats 4000000 in
theorem arrAt8_zero (c : Dev nD) : (dats 0 c).arrAt 8 0 = V m c main_v16_2 := hA c 8

include hA in
set_option maxHeartbeats 4000000 in
theorem arrAt0_end (c : Dev nD) : (dats 0 c).arrAt 0 cfg0.N = V m c main_v0 :=
  ((dats 0 c).arrAt_in 0 (by decide) _).trans (hA c 0)

include hA in
set_option maxHeartbeats 4000000 in
theorem arrAt1_end (c : Dev nD) : (dats 0 c).arrAt 1 cfg0.N = V m c main_v1 :=
  ((dats 0 c).arrAt_in 1 (by decide) _).trans (hA c 1)

include hA in
set_option maxHeartbeats 4000000 in
theorem arrAt2_end (c : Dev nD) : (dats 0 c).arrAt 2 cfg0.N = V m c main_v0 :=
  ((dats 0 c).arrAt_in 2 (by decide) _).trans (hA c 2)

include hA in
set_option maxHeartbeats 4000000 in
theorem arrAt3_end (c : Dev nD) : (dats 0 c).arrAt 3 cfg0.N = V m c main_v1 :=
  ((dats 0 c).arrAt_in 3 (by decide) _).trans (hA c 3)

include hA in
set_option maxHeartbeats 4000000 in
theorem arrAt4_end (c : Dev nD) : (dats 0 c).arrAt 4 cfg0.N = V m c main_v9 :=
  ((dats 0 c).arrAt_in 4 (by decide) _).trans (hA c 4)

include hA in
set_option maxHeartbeats 4000000 in
theorem arrAt5_end (c : Dev nD) : (dats 0 c).arrAt 5 cfg0.N = V m c main_v15 :=
  ((dats 0 c).arrAt_in 5 (by decide) _).trans (hA c 5)

/-- The seven buffers behind the windows' arrays, whole at contents `W`, one by one. -/
theorem arrBufs_chain (c : Dev nD) (W : (b : Ref sig .tc) → Buf (Elt F) ((c.tc : Thread nD τ).loc b)) :
    (Pipeline.arrBufs spec0 c W : sProp 𝕄)
      = iprop((((c.tc : Thread nD τ).loc main_v0) ↦{fullShare} W main_v0) ∗ (((c.tc : Thread nD τ).loc main_v1) ↦{fullShare} W main_v1)
        ∗ (((c.tc : Thread nD τ).loc main_v9) ↦{fullShare} W main_v9) ∗ (((c.tc : Thread nD τ).loc main_v15) ↦{fullShare} W main_v15)
        ∗ (((c.tc : Thread nD τ).loc main_v16_0) ↦{fullShare} W main_v16_0) ∗ (((c.tc : Thread nD τ).loc main_v16_1) ↦{fullShare} W main_v16_1)
        ∗ (((c.tc : Thread nD τ).loc main_v16_2) ↦{fullShare} W main_v16_2)) := by
  unfold Pipeline.arrBufs
  rw [bigSep_eq_bigSepL_of_eq _ arrRefs_eq arrRefs_nodup]
  rfl

include hA hq in
set_option maxHeartbeats 8000000 in
/-- ENTRY. The seven buffers whole at the entry valuation deal the nine windows their arrays: the first rounded array
    cut in two halves for windows 0 and 2, the second for windows 1 and 3, the rest whole. -/
theorem entry_arrays (c : Dev nD) :
    (Pipeline.arrBufs spec0 c (V m c) : sProp 𝕄) ⊢ (dats 0 c).arrays ((dats 0 c).arrAt · 0) := by
  rw [arrays_chain dats hq c 0, arrBufs_chain]
  rw [arrAt0_zero m dats hA, arrAt1_zero m dats hA, arrAt2_zero m dats hA, arrAt3_zero m dats hA, arrAt4_zero m dats hA,
    arrAt5_zero m dats hA, arrAt6_zero m dats hA, arrAt7_zero m dats hA, arrAt8_zero m dats hA]
  iintro ⟨H0, H1, H4, H5, H6, H7, H8⟩
  ihave H0' := (pointsTo_share (PosShare.mem_left_op_right fullShare)).1 $$ H0
  ihave H1' := (pointsTo_share (PosShare.mem_left_op_right fullShare)).1 $$ H1
  icases H0' with ⟨H0l, H0r⟩
  icases H1' with ⟨H1l, H1r⟩
  isplitl [H0l]; · iexact H0l
  isplitl [H1l]; · iexact H1l
  isplitl [H0r]; · iexact H0r
  isplitl [H1r]; · iexact H1r
  isplitl [H4]; · iexact H4
  isplitl [H5]; · iexact H5
  isplitl [H6]; · iexact H6
  isplitl [H7]; · iexact H7
  iexact H8

/-- What the exit valuation holds at each of the seven buffers. -/
theorem Vexit_v0 (c : Dev nD) : Vexit m dats c (Proc.devRef .tc main_v0) = V m c main_v0 :=
  Vexit_of_ne m dats c _ (by decide) (by decide) (by decide)
theorem Vexit_v1 (c : Dev nD) : Vexit m dats c (Proc.devRef .tc main_v1) = V m c main_v1 :=
  Vexit_of_ne m dats c _ (by decide) (by decide) (by decide)
theorem Vexit_v9 (c : Dev nD) : Vexit m dats c (Proc.devRef .tc main_v9) = V m c main_v9 :=
  Vexit_of_ne m dats c _ (by decide) (by decide) (by decide)
theorem Vexit_v15 (c : Dev nD) : Vexit m dats c (Proc.devRef .tc main_v15) = V m c main_v15 :=
  Vexit_of_ne m dats c _ (by decide) (by decide) (by decide)
set_option maxHeartbeats 4000000 in
theorem Vexit_6 (c : Dev nD) : Vexit m dats c (Proc.devRef .tc main_v16_0) = (dats 0 c).arrAt 6 cfg0.N := by
  dsimp only [Vexit, overwritten]; after_results
set_option maxHeartbeats 4000000 in
theorem Vexit_7 (c : Dev nD) : Vexit m dats c (Proc.devRef .tc main_v16_1) = (dats 0 c).arrAt 7 cfg0.N := by
  dsimp only [Vexit, overwritten]; after_results
set_option maxHeartbeats 4000000 in
theorem Vexit_8 (c : Dev nD) : Vexit m dats c (Proc.devRef .tc main_v16_2) = (dats 0 c).arrAt 8 cfg0.N := by
  dsimp only [Vexit, overwritten]; after_results

include hA hq in
set_option maxHeartbeats 8000000 in
/-- EXIT. The nine windows' arrays after the last point give the seven buffers back whole at the exit valuation: the
    two halves of each shared array, both still at the entry contents, are joined; the results are at what the
    write-backs left. -/
theorem exit_arrays (c : Dev nD) :
    (dats 0 c).arrays ((dats 0 c).arrAt · cfg0.N)
      ⊢ (Pipeline.arrBufs spec0 c (fun b => Vexit m dats c (Proc.devRef .tc b)) : sProp 𝕄) := by
  rw [arrays_chain dats hq c cfg0.N, arrBufs_chain]
  rw [Vexit_v0, Vexit_v1, Vexit_v9, Vexit_v15, Vexit_6, Vexit_7, Vexit_8,
    arrAt0_end m dats hA, arrAt1_end m dats hA, arrAt2_end m dats hA, arrAt3_end m dats hA, arrAt4_end m dats hA, arrAt5_end m dats hA]
  iintro ⟨H0l, H1l, H0r, H1r, H4, H5, H6, H7, H8⟩
  ihave H0 := (pointsTo_share (PosShare.mem_left_op_right fullShare)).2 $$ [H0l H0r]
  · isplitl [H0l] <;> iassumption
  ihave H1 := (pointsTo_share (PosShare.mem_left_op_right fullShare)).2 $$ [H1l H1r]
  · isplitl [H1l] <;> iassumption
  isplitl [H0]; · iexact H0
  isplitl [H1]; · iexact H1
  isplitl [H4]; · iexact H4
  isplitl [H5]; · iexact H5
  isplitl [H6]; · iexact H6
  isplitl [H7]; · iexact H7
  iexact H8

variable (hbody : ∀ c, Pipeline.BodyObligationLoose (dats 0 c) (defs₀ (F := F)) Variants.none () Set.univ)
  (howed : ∀ c t, (dats 0 c).owed t = 0) (hrec : ∀ c t, (dats 0 c).recorded t = Set.univ)
  (hin : ∀ c, Pipeline.ΦA spec0 c ⊢ (dats 0 c).Φ 0)
  (hout : ∀ c, (dats 0 c).Φ (Fin.last cfg0.N) ⊢ Pipeline.ΦA spec0 c)

theorem arrRef_6 : Pipeline.arrRef spec0 6 = main_v16_0 := by decide
theorem arrRef_7 : Pipeline.arrRef spec0 7 = main_v16_1 := by decide
theorem arrRef_8 : Pipeline.arrRef spec0 8 = main_v16_2 := by decide

/-- The buffers no window stages hold at the exit what they held at the entry: the exit valuation differs from the
    entry one at the three results only, which are windows' arrays. -/
theorem exit_rest (c : Dev nD) :
    (Pipeline.unscopedRest spec0 c (fun b => Vexit m dats c (Proc.devRef .tc b)) : sProp 𝕄) = Pipeline.unscopedRest spec0 c (V m c) := by
  unfold Pipeline.unscopedRest
  refine bigSep_congr fun b hb => ?_
  have hb' : ∀ w, Pipeline.arrRef spec0 w ≠ b := fun w e =>
    (Finset.mem_sdiff.mp hb).2 (Finset.mem_image.mpr ⟨w, Finset.mem_univ _, e⟩)
  have e : Vexit m dats c (Proc.devRef .tc b) = V m c b :=
    Vexit_of_ne m dats c b (fun e => hb' 6 (arrRef_6.trans e.symm)) (fun e => hb' 7 (arrRef_7.trans e.symm))
      (fun e => hb' 8 (arrRef_8.trans e.symm))
  dsimp only
  rw [e]

-- an entailment of the launch library, stated over `cfgs p` at the pinned configuration, unifies with the goal only
-- when unification may unfold plain definitions in a metavariable's type
set_option backward.isDefEq.respectTransparency.types false in
/-- THE REGION as a segment of @main: entered from the buffers as the first stretch left them, left with the buffers
    at the exit valuation; the generator register enters the body's invariant and comes back; the buffers no window
    stages pass by. -/
def reg : Pipeline.RegionSeg (pcfgs (F := F)) adm dats () defs₀ Variants.none L lv 0 where
  win := winFacts₀0
  block_pos := block_pos0
  stage_whole := stage_whole0
  K := PEmpty
  osem := fun k => k.elim
  ho := Pipeline.OwnSemFacts.none spec0
  hbody := hbody
  hwaits := Pipeline.hwaits_of_owed_zero _ _ _ _ L lv 0 howed
  pre c := iprop(StableHlo.held (c : Thread nD τ) (Pipeline.ucRefs τ sig) (StableHlo.after hostOps0 (Vlaunch m c)) ∗ R c)
  post c := iprop(StableHlo.held (c : Thread nD τ) (Pipeline.ucRefs τ sig) (Vexit m dats c) ∗ R c)
  X c := iprop(∃ r, prngReg c r)
  Y c := iprop(∃ r, prngReg c r)
  Z c := Pipeline.unscopedRest spec0 c (V m c)
  hentry c := by
    rw [show StableHlo.held (c : Thread nD τ) (Pipeline.ucRefs τ sig) (StableHlo.after hostOps0 (Vlaunch m c))
        = unscopedBufs c (V m c) from (Pipeline.unscopedBufs_held c _).symm,
      Pipeline.unscopedBufs_split₀ cfgs 0 winFacts₀0.arr_unscoped c (V m c)]
    iintro ⟨⟨⟨Hab, Hrest⟩, Hp, HO⟩, -, -⟩
    ihave Ha := (entry_arrays m dats hA hq c) $$ Hab
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed]
      icases HO with ⟨%W, HO⟩; iexists W; isplitr; · ipureintro; exact fun _ _ => Or.inl (by rw [hrec]; trivial)
      iexact HO
    isplitl [Hp]; · iexact Hp
    iexact Hrest
  hin c := by
    exact (show iprop((∃ r, prngReg c r) ∗ Pipeline.prefHeld (pcfgs (F := F) 0).pre c (fun _ => fullShare) (adm (F := F) 0).1 ∗ Pipeline.scopedRest spec0 c)
        ⊢ (Pipeline.ΦA spec0 c : sProp 𝕄) from by
      unfold Pipeline.ΦA
      iintro ⟨Hp, -, Hr⟩
      isplitl [Hr] <;> iassumption).trans (hin c)
  hout c := by
    refine (hout c).trans ?_
    rw [Pipeline.ownSems0_none]; unfold Pipeline.ΦA
    iintro ⟨Hr, Hp⟩
    isplitl [Hp]; · iexact Hp
    isplitr; · iempintro
    iexact Hr
  hexit c := by
    rw [show StableHlo.held (c : Thread nD τ) (Pipeline.ucRefs τ sig) (Vexit m dats c)
        = unscopedBufs c (fun b => Vexit m dats c (Proc.devRef .tc b)) from (Pipeline.unscopedBufs_held c _).symm,
      Pipeline.unscopedBufs_split₀ cfgs 0 winFacts₀0.arr_unscoped c _, exit_rest]
    iintro ⟨Ha, HO, HY, HZ⟩
    ihave Hab := (exit_arrays m dats hA hq c) $$ Ha
    imodintro
    isplitl [Hab HZ]
    · isplitl [Hab] <;> iassumption
    isplitl [HY]; · iexact HY
    unfold Pipeline.Dat.owesAt Pipeline.owesWithin
    rw [howed]
    icases HO with ⟨%W, -, HO⟩; iexists W; iexact HO

/-- What core `c`'s unscoped buffers hold when @main returns: the exit valuation after the last stretch. -/
abbrev Vend (c : Dev nD) : Valuation τ sig (Elt F) := StableHlo.after hostOps1 (Vexit m dats c)

include hA hq hbody howed hrec hin hout in
-- the launch theorem's implicit arguments are found by unifying its conclusion with this one, which takes unfolding
-- plain definitions in a metavariable's type
set_option backward.isDefEq.respectTransparency.types false in
/-- THE RUN. At the compiled mesh, from any memory with zero counters: every weakly fair execution of @main on the
    TensorCores terminates, nothing faulting, and in every final state each unscoped buffer holds what the three
    stretches compute for it: the host operations before the region, the region's write-backs at the three results,
    the host operations after it. -/
theorem run_of : θ_run defs (onTc (τ := τ) (main (F := F))) (s₀ m ρ) (fun r => ∀ c : Dev nD,
      ∀ b ∈ (Finset.univ.filter fun b : Ref sig .tc => ¬ b.isScoped), r.2.mem ((c.tc : Thread nD τ).loc b) = Vend m dats c (Proc.devRef .tc b)) :=
  Pipeline.θ_run_regions_kit (pcfgs (F := F)) adm dats () cellOf_inj emb₁ defs₀ Variants.none L lv m ρ main
    [.host (segBefore m), .region (reg m dats hA hq hbody howed hrec hin hout), .host (segAfter (Vexit m dats))]
    (fun c Q => by rw [main_segs adm dats () Variants.none L lv (segBefore m) (segAfter (Vexit m dats)) (reg m dats hA hq hbody howed hrec hin hout) rfl rfl c])
    (by simp only [Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Vlaunch m c) ∗ R c))
    (Tₙ := fun c => iprop(StableHlo.held (c : Thread nD τ) (Pipeline.ucRefs τ sig) (Vend m dats c) ∗ ∃ r, prngReg c r))
    (hch := ⟨fun _ => .rfl, fun _ => .rfl, fun _ => .rfl, fun c => by
      show iprop(StableHlo.held (c : Thread nD τ) (Pipeline.ucRefs τ sig) (Vend m dats c) ∗ R c) ⊢ _
      iintro ⟨Hh, Hp, HO⟩
      isplitr [HO]
      · isplitl [Hh] <;> iassumption
      iexact HO⟩)
    (hinit := by
      refine Pipeline.initEach L lv fun c => ?_
      rw [show unscopedBufs c (fun b => m ((c : Thread nD τ).loc b)) = StableHlo.held (c : Thread nD τ) (Pipeline.ucRefs τ sig) (Vlaunch m c)
        from Pipeline.unscopedBufs_held c (Vlaunch m c)]
      iintro ⟨⟨Hh, -, HO, -, Hp, -⟩, -⟩
      imodintro
      isplitl [Hh]; · iexact Hh
      isplitl [Hp]; · iexists _; iexact Hp
      iexists ∅; iexact HO)
    (QY := fun c s => ∀ b ∈ (Finset.univ.filter fun b : Ref sig .tc => ¬ b.isScoped), s.mem ((c.tc : Thread nD τ).loc b) = Vend m dats c (Proc.devRef .tc b))
    (hfin := fun c s' => by
      rw [show StableHlo.held (c : Thread nD τ) (Pipeline.ucRefs τ sig) (Vend m dats c)
        = unscopedBufs c (fun b => Vend m dats c (Proc.devRef .tc b)) from (Pipeline.unscopedBufs_held c _).symm]
      unfold unscopedBufs
      iintro ⟨⟨Hh, -⟩, HSI⟩
      ihave Hr := (pointsTo_read_all (Finset.univ.filter fun b : Ref sig .tc => ¬ b.isScoped) (fun b => (c.tc : Thread nD τ).loc b)
        (fun b => Vend m dats c (Proc.devRef .tc b)) s') $$ [Hh HSI]
      · isplitl [Hh] <;> iassumption
      icases Hr with ⟨%h, HSI⟩
      imodintro
      isplitr; · ipureintro; exact h
      iexact HSI)
    (hQ := fun _ h => h)

end Cert.KernelIdeal.Mmd

end
-- ==== Proof.BodyShared.lean ====
/-
  What the runs of the region's body and its proof data share.

  The grid is 2 x 16: point t has coordinates (t / 16, t % 16), and the second coordinate walks a row of sixteen
  tiles. The body keeps three running sums, one per pair of arrays, in three one-element accumulators that live
  between points: at the first point of a row (second coordinate 0) it zeroes them, at every point it adds the
  tile's sum of exponentials to each, and at the last point of a row (second coordinate 15) it copies them into
  the three one-element outputs. So a point is in one of three cases: first of its row, inside it, last of it.
  Here: the two conditions and their closed forms over the grid; that the three outputs are idle and not written
  back away from a row's last point and live at it, the six inputs live everywhere; the staging memrefs and the
  accumulators by name; the region's invariant spelt over the three accumulators; and that each input's staging
  buffer holds its block at every point.
-/
import proofs.«136887_j59356448031516_2_alg».proof.Proof.Entry
import Idealize.ShloMosaic.Lib.Ring

set_option maxRecDepth 16384

noncomputable section

namespace Cert.KernelIdeal.Mmd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## The two conditions -/

/-- The point is the first of its row: the body's own test that the second coordinate is 0, bit for bit. -/
abbrev AtRowStart (i : grid0.Coords) : Prop := (Scalar.cmpi .ne (Scalar.extui (Scalar.cmpi .eq (BitVec.ofNat 32 (i 1).val) 0#32)) 0#32) = 1#1
/-- It holds exactly at the points that are 0 modulo 16. -/
theorem atRowStart_iff : ∀ t : Fin cfg0.N, AtRowStart (grid0.coords t) ↔ t.val % 16 = 0 :=
  (by decide +kernel : ∀ t : Fin grid0.N, AtRowStart (grid0.coords t) ↔ t.val % 16 = 0)

/-- The point is the last of its row: the body's test that the second coordinate is 15. -/
abbrev AtRowEnd (i : grid0.Coords) : Prop := k0_cond2 i = 1#1
/-- It holds exactly at the points that are 15 modulo 16. -/
theorem atRowEnd_iff : ∀ t : Fin cfg0.N, AtRowEnd (grid0.coords t) ↔ t.val % 16 = 15 :=
  (by decide +kernel : ∀ t : Fin grid0.N, AtRowEnd (grid0.coords t) ↔ t.val % 16 = 15)

/-! ## Where the windows are live -/

/-- Input window 0 is live at every point. -/
theorem live0 : ∀ t : Fin cfg0.N, cfg0.idle 0 (grid0.coords t) = false := by decide +kernel
/-- Input window 1 is live at every point. -/
theorem live1 : ∀ t : Fin cfg0.N, cfg0.idle 1 (grid0.coords t) = false := by decide +kernel
/-- Input window 2 is live at every point. -/
theorem live2 : ∀ t : Fin cfg0.N, cfg0.idle 2 (grid0.coords t) = false := by decide +kernel
/-- Input window 3 is live at every point. -/
theorem live3 : ∀ t : Fin cfg0.N, cfg0.idle 3 (grid0.coords t) = false := by decide +kernel
/-- Input window 4 is live at every point. -/
theorem live4 : ∀ t : Fin cfg0.N, cfg0.idle 4 (grid0.coords t) = false := by decide +kernel
/-- Input window 5 is live at every point. -/
theorem live5 : ∀ t : Fin cfg0.N, cfg0.idle 5 (grid0.coords t) = false := by decide +kernel

/-- Away from a row's last point nothing is stored into output 6: the window is idle there, -/
theorem idle6_of_not_rowEnd : ∀ t : Fin cfg0.N, ¬AtRowEnd (grid0.coords t) → cfg0.idle 6 (grid0.coords t) = true := by decide +kernel
/-- and its block is not written back there. -/
theorem noFlush6_of_not_rowEnd : ∀ t : Fin cfg0.N, ¬AtRowEnd (grid0.coords t) → (cfg0.win 6).flush t = false := by decide +kernel
/-- At a row's last point output 6 is stored into: the window is live. -/
theorem live6_of_rowEnd : ∀ t : Fin cfg0.N, AtRowEnd (grid0.coords t) → cfg0.idle 6 (grid0.coords t) = false := by decide +kernel

/-- Away from a row's last point nothing is stored into output 7: the window is idle there, -/
theorem idle7_of_not_rowEnd : ∀ t : Fin cfg0.N, ¬AtRowEnd (grid0.coords t) → cfg0.idle 7 (grid0.coords t) = true := by decide +kernel
/-- and its block is not written back there. -/
theorem noFlush7_of_not_rowEnd : ∀ t : Fin cfg0.N, ¬AtRowEnd (grid0.coords t) → (cfg0.win 7).flush t = false := by decide +kernel
/-- At a row's last point output 7 is stored into: the window is live. -/
theorem live7_of_rowEnd : ∀ t : Fin cfg0.N, AtRowEnd (grid0.coords t) → cfg0.idle 7 (grid0.coords t) = false := by decide +kernel

/-- Away from a row's last point nothing is stored into output 8: the window is idle there, -/
theorem idle8_of_not_rowEnd : ∀ t : Fin cfg0.N, ¬AtRowEnd (grid0.coords t) → cfg0.idle 8 (grid0.coords t) = true := by decide +kernel
/-- and its block is not written back there. -/
theorem noFlush8_of_not_rowEnd : ∀ t : Fin cfg0.N, ¬AtRowEnd (grid0.coords t) → (cfg0.win 8).flush t = false := by decide +kernel
/-- At a row's last point output 8 is stored into: the window is live. -/
theorem live8_of_rowEnd : ∀ t : Fin cfg0.N, AtRowEnd (grid0.coords t) → cfg0.idle 8 (grid0.coords t) = false := by decide +kernel

/-! ## The memrefs the body is called with -/

abbrev stg0 (t : Fin cfg0.N) : Memref sig .tc .vmem S256x128 .bf16 := win0_0.stage (cfg0.slots t 0)
abbrev stgWhole0 (t : Fin cfg0.N) : (stg0 t).IsWhole := hstage0_0 ((cfg0.slots t 0).cast nbuf0_0)
abbrev stg1 (t : Fin cfg0.N) : Memref sig .tc .vmem S256x128 .bf16 := win0_1.stage (cfg0.slots t 1)
abbrev stgWhole1 (t : Fin cfg0.N) : (stg1 t).IsWhole := hstage0_1 ((cfg0.slots t 1).cast nbuf0_1)
abbrev stg2 (t : Fin cfg0.N) : Memref sig .tc .vmem S8192x128 .bf16 := win0_2.stage (cfg0.slots t 2)
abbrev stgWhole2 (t : Fin cfg0.N) : (stg2 t).IsWhole := hstage0_2 ((cfg0.slots t 2).cast nbuf0_2)
abbrev stg3 (t : Fin cfg0.N) : Memref sig .tc .vmem S8192x128 .bf16 := win0_3.stage (cfg0.slots t 3)
abbrev stgWhole3 (t : Fin cfg0.N) : (stg3 t).IsWhole := hstage0_3 ((cfg0.slots t 3).cast nbuf0_3)
abbrev stg4 (t : Fin cfg0.N) : Memref sig .tc .vmem S1x8192 .f32 := win0_4.stage (cfg0.slots t 4)
abbrev stgWhole4 (t : Fin cfg0.N) : (stg4 t).IsWhole := hstage0_4 ((cfg0.slots t 4).cast nbuf0_4)
abbrev stg5 (t : Fin cfg0.N) : Memref sig .tc .vmem S1x8192 .f32 := win0_5.stage (cfg0.slots t 5)
abbrev stgWhole5 (t : Fin cfg0.N) : (stg5 t).IsWhole := hstage0_5 ((cfg0.slots t 5).cast nbuf0_5)
abbrev stg6 (t : Fin cfg0.N) : Memref sig .tc .vmem S1x1x1 .f32 := win0_6.stage (cfg0.slots t 6)
abbrev stgWhole6 (t : Fin cfg0.N) : (stg6 t).IsWhole := hstage0_6 ((cfg0.slots t 6).cast nbuf0_6)
abbrev stg7 (t : Fin cfg0.N) : Memref sig .tc .vmem S1x1x1 .f32 := win0_7.stage (cfg0.slots t 7)
abbrev stgWhole7 (t : Fin cfg0.N) : (stg7 t).IsWhole := hstage0_7 ((cfg0.slots t 7).cast nbuf0_7)
abbrev stg8 (t : Fin cfg0.N) : Memref sig .tc .vmem S1x1x1 .f32 := win0_8.stage (cfg0.slots t 8)
abbrev stgWhole8 (t : Fin cfg0.N) : (stg8 t).IsWhole := hstage0_8 ((cfg0.slots t 8).cast nbuf0_8)

/-- The three accumulators: whole buffers of the kernel's own, passed beside the windows. -/
abbrev acc0 : Memref sig .tc .vmem S1x1x1 .f32 := Memref.whole cc0_scratch0
abbrev acc1 : Memref sig .tc .vmem S1x1x1 .f32 := Memref.whole cc0_scratch1
abbrev acc2 : Memref sig .tc .vmem S1x1x1 .f32 := Memref.whole cc0_scratch2
/-- One view of the one-element shape through which what a list of stores leaves is stated (any view reads a covering
    list of stores alike). -/
abbrev cellV : View sig .tc .vmem S1x1x1 .f32 := acc0.view

/-- The region's invariant as the launch states it, spelt over the three accumulators: each owned at some contents,
    and the generator register at some state. -/
theorem PhiA_eq (c : Dev nD) :
    (Pipeline.ΦA spec0 c : sProp 𝕄)
      = iprop(iprop((∃ d, owns (c : Thread nD τ) acc0 fullShare d) ∗ (∃ d, owns (c : Thread nD τ) acc1 fullShare d) ∗ (∃ d, owns (c : Thread nD τ) acc2 fullShare d)) ∗ (∃ r, prngReg c r)) := by
  unfold Pipeline.ΦA; rw [scopedRest0_eq]; simp only [acc0, acc1, acc2, owns_whole]; try rfl

/-! ## What the body finds in the inputs' staging buffers -/

/-- Input window 0's current staging buffer holds its block at every grid point, whether or not the block was
    fetched there (an unfetched block's index has not moved), for any proof data whose array is the region-entry
    contents and whose body leaves the block in place. -/
theorem before_in0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every grid point, whether or not the block was
    fetched there (an unfetched block's index has not moved), for any proof data whose array is the region-entry
    contents and whose body leaves the block in place. -/
theorem before_in1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every grid point, whether or not the block was
    fetched there (an unfetched block's index has not moved), for any proof data whose array is the region-entry
    contents and whose body leaves the block in place. -/
theorem before_in2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Input window 3's current staging buffer holds its block at every grid point, whether or not the block was
    fetched there (an unfetched block's index has not moved), for any proof data whose array is the region-entry
    contents and whose body leaves the block in place. -/
theorem before_in3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-- Input window 4's current staging buffer holds its block at every grid point, whether or not the block was
    fetched there (an unfetched block's index has not moved), for any proof data whose array is the region-entry
    contents and whose body leaves the block in place. -/
theorem before_in4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Input window 5's current staging buffer holds its block at every grid point, whether or not the block was
    fetched there (an unfetched block's index has not moved), for any proof data whose array is the region-entry
    contents and whose body leaves the block in place. -/
theorem before_in5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)

end Cert.KernelIdeal.Mmd

end
-- ==== Proof.BodyFirst.lean ====
/-
  The region's body run symbolically at the first point of a row of the grid: the accumulators are zeroed, then accumulated into.
-/
import proofs.«136887_j59356448031516_2_alg».proof.Proof.BodyShared

set_option maxRecDepth 16384

noncomputable section

namespace Cert.KernelIdeal.Mmd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option maxHeartbeats 1000000 in
/-- The body at the FIRST point of a row. The body zeroes the three accumulators — it loads each before storing, but the zero store
    covers it, so nothing is asked of what they held —, then adds the tile's three sums to them; it stores nothing into
    the outputs, which are handed back as they were.
    Stated on any whole memrefs: the six inputs owned at contents `x0 … x5` come back as they were, and what the stores
    leave in the three accumulators is given as lists of written pieces (last store first) that the symbolic
    run of the body finds — they are the witnesses, fixed when the final buffers are handed to the continuation. -/
noncomputable def runFirst (c : Dev nD) (i : grid0.Coords) (arg2 : Memref sig .tc .vmem S256x128 .bf16) (harg2 : arg2.IsWhole) (arg3 : Memref sig .tc .vmem S256x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x8192 .f32) (harg6 : arg6.IsWhole) (arg7 : Memref sig .tc .vmem S1x8192 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (hc0 : AtRowStart i) (hc1 : ¬AtRowEnd i)
    (x0 : Vec F S256x128 .bf16) (x1 : Vec F S256x128 .bf16) (x2 : Vec F S8192x128 .bf16) (x3 : Vec F S8192x128 .bf16) (x4 : Vec F S1x8192 .f32) (x5 : Vec F S1x8192 .f32) :
    Σ' (LS0 : List (View.Piece (Elt F) S1x1x1 .f32)) (LS1 : List (View.Piece (Elt F) S1x1x1 .f32)), { LS2 : List (View.Piece (Elt F) S1x1x1 .f32) //
      ∀ (y6 y7 y8 : Vec F S1x1x1 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare y6
            ∗ owns (c : Thread nD τ) arg9 fullShare y7
            ∗ owns (c : Thread nD τ) arg10 fullShare y8
            ∗ (∃ d, owns (c : Thread nD τ) arg11 fullShare d)
            ∗ (∃ d, owns (c : Thread nD τ) arg12 fullShare d)
            ∗ (∃ d, owns (c : Thread nD τ) arg13 fullShare d)
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ owns (c : Thread nD τ) arg8 fullShare y6
                ∗ owns (c : Thread nD τ) arg9 fullShare y7
                ∗ owns (c : Thread nD τ) arg10 fullShare y8
                ∗ (∃ f, arg11.view.loc (c : Thread nD τ) ↦[arg11.view.set]{fullShare} arg11.view.writes (Elt F) f LS0)
                ∗ (∃ f, arg12.view.loc (c : Thread nD τ) ↦[arg12.view.set]{fullShare} arg12.view.writes (Elt F) f LS1)
                ∗ (∃ f, arg13.view.loc (c : Thread nD τ) ↦[arg13.view.set]{fullShare} arg13.view.writes (Elt F) f LS2)) -∗ K ⟨⟩))
          ⊢ wp frame (wpE (defs₀ (F := F)) Variants.none c none) E (cc0__mmd_kernel i arg2 harg2 arg3 harg3 arg4 harg4 arg5 harg5 arg6 harg6 arg7 harg7 arg8 harg8 arg9 harg9 arg10 harg10 arg11 harg11 arg12 harg12 arg13 harg13) K } := by
  refine ⟨?_, ?_, ?_, fun y6 y7 y8 E K => ?run⟩
  case run =>
    simp only [cc0__mmd_kernel_eq_skeleton]; unfold cc0__mmd_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%ds0, %fs0, -, HS0⟩, ⟨%ds1, %fs1, -, HS1⟩, ⟨%ds2, %fs2, -, HS2⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [HS0]; · iexists _; iexact HS0
    isplitl [HS1]; · iexists _; iexact HS1
    iexists _; iexact HS2

end Cert.KernelIdeal.Mmd

end
-- ==== Proof.BodyMid.lean ====
/-
  The region's body run symbolically at a point inside a row of the grid: the accumulators are read as the point before left them and accumulated into.
-/
import proofs.«136887_j59356448031516_2_alg».proof.Proof.BodyFirst

set_option maxRecDepth 16384

noncomputable section

namespace Cert.KernelIdeal.Mmd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option maxHeartbeats 1000000 in
/-- The body at a point INSIDE a row (neither first nor last). The body adds the tile's three sums to the accumulators as the point
    before left them; it stores nothing into the outputs, which are handed back as they were.
    Stated on any whole memrefs: the six inputs owned at contents `x0 … x5` come back as they were, and what the stores
    leave in the three accumulators is given as lists of written pieces (last store first) that the symbolic
    run of the body finds — they are the witnesses, fixed when the final buffers are handed to the continuation. -/
noncomputable def runMid (c : Dev nD) (i : grid0.Coords) (arg2 : Memref sig .tc .vmem S256x128 .bf16) (harg2 : arg2.IsWhole) (arg3 : Memref sig .tc .vmem S256x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x8192 .f32) (harg6 : arg6.IsWhole) (arg7 : Memref sig .tc .vmem S1x8192 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (hc0 : ¬AtRowStart i) (hc1 : ¬AtRowEnd i)
    (x0 : Vec F S256x128 .bf16) (x1 : Vec F S256x128 .bf16) (x2 : Vec F S8192x128 .bf16) (x3 : Vec F S8192x128 .bf16) (x4 : Vec F S1x8192 .f32) (x5 : Vec F S1x8192 .f32) (s0 : Vec F S1x1x1 .f32) (s1 : Vec F S1x1x1 .f32) (s2 : Vec F S1x1x1 .f32) :
    Σ' (LS0 : List (View.Piece (Elt F) S1x1x1 .f32)) (LS1 : List (View.Piece (Elt F) S1x1x1 .f32)), { LS2 : List (View.Piece (Elt F) S1x1x1 .f32) //
      ∀ (y6 y7 y8 : Vec F S1x1x1 .f32) (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ owns (c : Thread nD τ) arg8 fullShare y6
            ∗ owns (c : Thread nD τ) arg9 fullShare y7
            ∗ owns (c : Thread nD τ) arg10 fullShare y8
            ∗ owns (c : Thread nD τ) arg11 fullShare s0
            ∗ owns (c : Thread nD τ) arg12 fullShare s1
            ∗ owns (c : Thread nD τ) arg13 fullShare s2
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ owns (c : Thread nD τ) arg8 fullShare y6
                ∗ owns (c : Thread nD τ) arg9 fullShare y7
                ∗ owns (c : Thread nD τ) arg10 fullShare y8
                ∗ (∃ f, arg11.view.loc (c : Thread nD τ) ↦[arg11.view.set]{fullShare} arg11.view.writes (Elt F) f LS0)
                ∗ (∃ f, arg12.view.loc (c : Thread nD τ) ↦[arg12.view.set]{fullShare} arg12.view.writes (Elt F) f LS1)
                ∗ (∃ f, arg13.view.loc (c : Thread nD τ) ↦[arg13.view.set]{fullShare} arg13.view.writes (Elt F) f LS2)) -∗ K ⟨⟩))
          ⊢ wp frame (wpE (defs₀ (F := F)) Variants.none c none) E (cc0__mmd_kernel i arg2 harg2 arg3 harg3 arg4 harg4 arg5 harg5 arg6 harg6 arg7 harg7 arg8 harg8 arg9 harg9 arg10 harg10 arg11 harg11 arg12 harg12 arg13 harg13) K } := by
  refine ⟨?_, ?_, ?_, fun y6 y7 y8 E K => ?run⟩
  case run =>
    simp only [cc0__mmd_kernel_eq_skeleton]; unfold cc0__mmd_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%fs0, %hfs0, HS0⟩, ⟨%fs1, %hfs1, HS1⟩, ⟨%fs2, %hfs2, HS2⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg8.eq_unread hf6
    obtain rfl := harg9.eq_unread hf7
    obtain rfl := harg10.eq_unread hf8
    obtain rfl := harg11.eq_unread hfs0
    obtain rfl := harg12.eq_unread hfs1
    obtain rfl := harg13.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [HS0]; · iexists _; iexact HS0
    isplitl [HS1]; · iexists _; iexact HS1
    iexists _; iexact HS2

end Cert.KernelIdeal.Mmd

end
-- ==== Proof.BodyLast.lean ====
/-
  The region's body run symbolically at the last point of a row of the grid: the accumulators are accumulated into and copied to the outputs.
-/
import proofs.«136887_j59356448031516_2_alg».proof.Proof.BodyMid

set_option maxRecDepth 16384

noncomputable section

namespace Cert.KernelIdeal.Mmd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

set_option maxHeartbeats 1000000 in
/-- The body at the LAST point of a row. The body adds the tile's three sums to the accumulators as the point before left them and
    then copies each accumulator into its output (loading the output before storing over it: nothing is asked of what
    it held).
    Stated on any whole memrefs: the six inputs owned at contents `x0 … x5` come back as they were, and what the stores
    leave in the three outputs and the three accumulators is given as lists of written pieces (last store first) that the symbolic
    run of the body finds — they are the witnesses, fixed when the final buffers are handed to the continuation. -/
noncomputable def runLast (c : Dev nD) (i : grid0.Coords) (arg2 : Memref sig .tc .vmem S256x128 .bf16) (harg2 : arg2.IsWhole) (arg3 : Memref sig .tc .vmem S256x128 .bf16) (harg3 : arg3.IsWhole) (arg4 : Memref sig .tc .vmem S8192x128 .bf16) (harg4 : arg4.IsWhole) (arg5 : Memref sig .tc .vmem S8192x128 .bf16) (harg5 : arg5.IsWhole) (arg6 : Memref sig .tc .vmem S1x8192 .f32) (harg6 : arg6.IsWhole) (arg7 : Memref sig .tc .vmem S1x8192 .f32) (harg7 : arg7.IsWhole) (arg8 : Memref sig .tc .vmem S1x1x1 .f32) (harg8 : arg8.IsWhole) (arg9 : Memref sig .tc .vmem S1x1x1 .f32) (harg9 : arg9.IsWhole) (arg10 : Memref sig .tc .vmem S1x1x1 .f32) (harg10 : arg10.IsWhole) (arg11 : Memref sig .tc .vmem S1x1x1 .f32) (harg11 : arg11.IsWhole) (arg12 : Memref sig .tc .vmem S1x1x1 .f32) (harg12 : arg12.IsWhole) (arg13 : Memref sig .tc .vmem S1x1x1 .f32) (harg13 : arg13.IsWhole) (hc0 : ¬AtRowStart i) (hc1 : AtRowEnd i)
    (x0 : Vec F S256x128 .bf16) (x1 : Vec F S256x128 .bf16) (x2 : Vec F S8192x128 .bf16) (x3 : Vec F S8192x128 .bf16) (x4 : Vec F S1x8192 .f32) (x5 : Vec F S1x8192 .f32) (s0 : Vec F S1x1x1 .f32) (s1 : Vec F S1x1x1 .f32) (s2 : Vec F S1x1x1 .f32) :
    Σ' (L6 : List (View.Piece (Elt F) S1x1x1 .f32)) (L7 : List (View.Piece (Elt F) S1x1x1 .f32)) (L8 : List (View.Piece (Elt F) S1x1x1 .f32)) (LS0 : List (View.Piece (Elt F) S1x1x1 .f32)) (LS1 : List (View.Piece (Elt F) S1x1x1 .f32)), { LS2 : List (View.Piece (Elt F) S1x1x1 .f32) //
      ∀ (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ (∃ d, owns (c : Thread nD τ) arg8 fullShare d)
            ∗ (∃ d, owns (c : Thread nD τ) arg9 fullShare d)
            ∗ (∃ d, owns (c : Thread nD τ) arg10 fullShare d)
            ∗ owns (c : Thread nD τ) arg11 fullShare s0
            ∗ owns (c : Thread nD τ) arg12 fullShare s1
            ∗ owns (c : Thread nD τ) arg13 fullShare s2
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ (∃ f, arg8.view.loc (c : Thread nD τ) ↦[arg8.view.set]{fullShare} arg8.view.writes (Elt F) f L6)
                ∗ (∃ f, arg9.view.loc (c : Thread nD τ) ↦[arg9.view.set]{fullShare} arg9.view.writes (Elt F) f L7)
                ∗ (∃ f, arg10.view.loc (c : Thread nD τ) ↦[arg10.view.set]{fullShare} arg10.view.writes (Elt F) f L8)
                ∗ (∃ f, arg11.view.loc (c : Thread nD τ) ↦[arg11.view.set]{fullShare} arg11.view.writes (Elt F) f LS0)
                ∗ (∃ f, arg12.view.loc (c : Thread nD τ) ↦[arg12.view.set]{fullShare} arg12.view.writes (Elt F) f LS1)
                ∗ (∃ f, arg13.view.loc (c : Thread nD τ) ↦[arg13.view.set]{fullShare} arg13.view.writes (Elt F) f LS2)) -∗ K ⟨⟩))
          ⊢ wp frame (wpE (defs₀ (F := F)) Variants.none c none) E (cc0__mmd_kernel i arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, fun E K => ?run⟩
  case run =>
    simp only [cc0__mmd_kernel_eq_skeleton]; unfold cc0__mmd_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%fs0, %hfs0, HS0⟩, ⟨%fs1, %hfs1, HS1⟩, ⟨%fs2, %hfs2, HS2⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    obtain rfl := harg11.eq_unread hfs0
    obtain rfl := harg12.eq_unread hfs1
    obtain rfl := harg13.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    isplitl [H8]; · iexists _; iexact H8
    isplitl [HS0]; · iexists _; iexact HS0
    isplitl [HS1]; · iexists _; iexact HS1
    iexists _; iexact HS2

end Cert.KernelIdeal.Mmd

end
-- ==== Proof.BodyData.lean ====
/-
  The proof data of the kernel region and its body obligation.

  Each of the three cases of a grid point (first of its row, inside it, last of it) leaves, in the three accumulators
  and — at a row's end — in the three outputs, what its stores wrote; the stores cover each one-element buffer, so what
  is left does not depend on what the buffer held. The running sums are the recursion of these over the grid's 32
  positions: zeroed and accumulated at positions 0 and 16, accumulated over the position before elsewhere, and copied
  out at positions 15 and 31. The region's invariant tracks the accumulators at the running sums; the proof data name
  the inputs' buffers at their blocks and the outputs' at the running sums; and at every point the body, run from the
  invariant and the buffers as the pipeline hands them, re-establishes the invariant at the next point.
-/
import proofs.«136887_j59356448031516_2_alg».proof.Proof.BodyLast

set_option maxRecDepth 16384

noncomputable section

namespace Cert.KernelIdeal.Mmd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- What the three outputs' staging buffers and the three accumulators hold, in that order: six one-element blocks. -/
abbrev Cell6 (F : FTy → Type) : Type := Vec F S1x1x1 .f32 × Vec F S1x1x1 .f32 × Vec F S1x1x1 .f32 × Vec F S1x1x1 .f32 × Vec F S1x1x1 .f32 × Vec F S1x1x1 .f32

/-- What a list of stores into a one-element buffer leaves, read back (over arbitrary prior contents: a covering list
    leaves the same whatever they were). -/
abbrev readBack (L : List (View.Piece (Elt F) S1x1x1 .f32)) : Vec F S1x1x1 .f32 := cellV.read (Elt F) (cellV.writes (Elt F) cellV.junk L)

/-! ## The three cases at a point -/

/-- The body's run at a row's first point `t`: on the staging memrefs the pipeline passes there, the three accumulators, and the inputs'
    blocks at `t`. -/
noncomputable def firstAt (c : Dev nD) (t : Fin cfg0.N) (h0 : t.val % 16 = 0) (h1 : ¬t.val % 16 = 15) :=
  runFirst (F := F) c (grid0.coords t) (stg0 t) (stgWhole0 t) (stg1 t) (stgWhole1 t) (stg2 t) (stgWhole2 t) (stg3 t) (stgWhole3 t) (stg4 t) (stgWhole4 t) (stg5 t) (stgWhole5 t) (stg6 t) (stgWhole6 t) (stg7 t) (stgWhole7 t) (stg8 t) (stgWhole8 t) acc0 (Memref.isWhole_whole _) acc1 (Memref.isWhole_whole _) acc2 (Memref.isWhole_whole _)
    ((atRowStart_iff t).mpr h0) (fun h => h1 ((atRowEnd_iff t).mp h)) (iblk m c 0 t) (iblk m c 1 t) (iblk m c 2 t) (iblk m c 3 t) (iblk m c 4 t) (iblk m c 5 t)

/-- The stores the body makes into accumulator 0 at such a point cover its one element. -/
theorem coverFirstAcc0 (c : Dev nD) (t : Fin cfg0.N) (h0 : t.val % 16 = 0) (h1 : ¬t.val % 16 = 15) (y : S1x1x1.Idx) :
    ∃ pc ∈ (firstAt m c t h0 h1).1, y ∈ pc.1.set :=
  View.cover_of_tiledL (firstAt m c t h0 h1).1 S1x1x1.size (by sl_kernel_rfl) y
/-- The stores the body makes into accumulator 1 at such a point cover its one element. -/
theorem coverFirstAcc1 (c : Dev nD) (t : Fin cfg0.N) (h0 : t.val % 16 = 0) (h1 : ¬t.val % 16 = 15) (y : S1x1x1.Idx) :
    ∃ pc ∈ (firstAt m c t h0 h1).2.1, y ∈ pc.1.set :=
  View.cover_of_tiledL (firstAt m c t h0 h1).2.1 S1x1x1.size (by sl_kernel_rfl) y
/-- The stores the body makes into accumulator 2 at such a point cover its one element. -/
theorem coverFirstAcc2 (c : Dev nD) (t : Fin cfg0.N) (h0 : t.val % 16 = 0) (h1 : ¬t.val % 16 = 15) (y : S1x1x1.Idx) :
    ∃ pc ∈ (firstAt m c t h0 h1).2.2.1, y ∈ pc.1.set :=
  View.cover_of_tiledL (firstAt m c t h0 h1).2.2.1 S1x1x1.size (by sl_kernel_rfl) y

/-- What the body leaves at a row's first point `t`, as a 6-tuple: the three outputs' staging buffers, then the three accumulators — each its
    stores read back. The outputs are not stored into at such a point (idle, and not written back): their components are
    not consulted, and repeat the accumulators'. -/
noncomputable def firstLeaves (c : Dev nD) (t : Fin cfg0.N) (h0 : t.val % 16 = 0) (h1 : ¬t.val % 16 = 15) : Cell6 F :=
  (readBack (firstAt m c t h0 h1).1,
   readBack (firstAt m c t h0 h1).2.1,
   readBack (firstAt m c t h0 h1).2.2.1,
   readBack (firstAt m c t h0 h1).1,
   readBack (firstAt m c t h0 h1).2.1,
   readBack (firstAt m c t h0 h1).2.2.1)

/-- The body's run at a point inside a row `t`: on the staging memrefs the pipeline passes there, the three accumulators, and the inputs'
    blocks at `t`, the accumulators holding `s0 s1 s2`. -/
noncomputable def midAt (c : Dev nD) (t : Fin cfg0.N) (h0 : ¬t.val % 16 = 0) (h1 : ¬t.val % 16 = 15) (s0 s1 s2 : Vec F S1x1x1 .f32) :=
  runMid (F := F) c (grid0.coords t) (stg0 t) (stgWhole0 t) (stg1 t) (stgWhole1 t) (stg2 t) (stgWhole2 t) (stg3 t) (stgWhole3 t) (stg4 t) (stgWhole4 t) (stg5 t) (stgWhole5 t) (stg6 t) (stgWhole6 t) (stg7 t) (stgWhole7 t) (stg8 t) (stgWhole8 t) acc0 (Memref.isWhole_whole _) acc1 (Memref.isWhole_whole _) acc2 (Memref.isWhole_whole _)
    (fun h => h0 ((atRowStart_iff t).mp h)) (fun h => h1 ((atRowEnd_iff t).mp h)) (iblk m c 0 t) (iblk m c 1 t) (iblk m c 2 t) (iblk m c 3 t) (iblk m c 4 t) (iblk m c 5 t) s0 s1 s2

/-- The stores the body makes into accumulator 0 at such a point cover its one element. -/
theorem coverMidAcc0 (c : Dev nD) (t : Fin cfg0.N) (h0 : ¬t.val % 16 = 0) (h1 : ¬t.val % 16 = 15) (s0 s1 s2 : Vec F S1x1x1 .f32) (y : S1x1x1.Idx) :
    ∃ pc ∈ (midAt m c t h0 h1 s0 s1 s2).1, y ∈ pc.1.set :=
  View.cover_of_tiledL (midAt m c t h0 h1 s0 s1 s2).1 S1x1x1.size (by sl_kernel_rfl) y
/-- The stores the body makes into accumulator 1 at such a point cover its one element. -/
theorem coverMidAcc1 (c : Dev nD) (t : Fin cfg0.N) (h0 : ¬t.val % 16 = 0) (h1 : ¬t.val % 16 = 15) (s0 s1 s2 : Vec F S1x1x1 .f32) (y : S1x1x1.Idx) :
    ∃ pc ∈ (midAt m c t h0 h1 s0 s1 s2).2.1, y ∈ pc.1.set :=
  View.cover_of_tiledL (midAt m c t h0 h1 s0 s1 s2).2.1 S1x1x1.size (by sl_kernel_rfl) y
/-- The stores the body makes into accumulator 2 at such a point cover its one element. -/
theorem coverMidAcc2 (c : Dev nD) (t : Fin cfg0.N) (h0 : ¬t.val % 16 = 0) (h1 : ¬t.val % 16 = 15) (s0 s1 s2 : Vec F S1x1x1 .f32) (y : S1x1x1.Idx) :
    ∃ pc ∈ (midAt m c t h0 h1 s0 s1 s2).2.2.1, y ∈ pc.1.set :=
  View.cover_of_tiledL (midAt m c t h0 h1 s0 s1 s2).2.2.1 S1x1x1.size (by sl_kernel_rfl) y

/-- What the body leaves at a point inside a row `t`, as a 6-tuple: the three outputs' staging buffers, then the three accumulators — each its
    stores read back. The outputs are not stored into at such a point (idle, and not written back): their components are
    not consulted, and repeat the accumulators'. -/
noncomputable def midLeaves (c : Dev nD) (t : Fin cfg0.N) (h0 : ¬t.val % 16 = 0) (h1 : ¬t.val % 16 = 15) (s0 s1 s2 : Vec F S1x1x1 .f32) : Cell6 F :=
  (readBack (midAt m c t h0 h1 s0 s1 s2).1,
   readBack (midAt m c t h0 h1 s0 s1 s2).2.1,
   readBack (midAt m c t h0 h1 s0 s1 s2).2.2.1,
   readBack (midAt m c t h0 h1 s0 s1 s2).1,
   readBack (midAt m c t h0 h1 s0 s1 s2).2.1,
   readBack (midAt m c t h0 h1 s0 s1 s2).2.2.1)

/-- The body's run at a row's last point `t`: on the staging memrefs the pipeline passes there, the three accumulators, and the inputs'
    blocks at `t`, the accumulators holding `s0 s1 s2`. -/
noncomputable def lastAt (c : Dev nD) (t : Fin cfg0.N) (h0 : ¬t.val % 16 = 0) (h1 : t.val % 16 = 15) (s0 s1 s2 : Vec F S1x1x1 .f32) :=
  runLast (F := F) c (grid0.coords t) (stg0 t) (stgWhole0 t) (stg1 t) (stgWhole1 t) (stg2 t) (stgWhole2 t) (stg3 t) (stgWhole3 t) (stg4 t) (stgWhole4 t) (stg5 t) (stgWhole5 t) (stg6 t) (stgWhole6 t) (stg7 t) (stgWhole7 t) (stg8 t) (stgWhole8 t) acc0 (Memref.isWhole_whole _) acc1 (Memref.isWhole_whole _) acc2 (Memref.isWhole_whole _)
    (fun h => h0 ((atRowStart_iff t).mp h)) ((atRowEnd_iff t).mpr h1) (iblk m c 0 t) (iblk m c 1 t) (iblk m c 2 t) (iblk m c 3 t) (iblk m c 4 t) (iblk m c 5 t) s0 s1 s2

/-- The stores the body makes into accumulator 0 at such a point cover its one element. -/
theorem coverLastAcc0 (c : Dev nD) (t : Fin cfg0.N) (h0 : ¬t.val % 16 = 0) (h1 : t.val % 16 = 15) (s0 s1 s2 : Vec F S1x1x1 .f32) (y : S1x1x1.Idx) :
    ∃ pc ∈ (lastAt m c t h0 h1 s0 s1 s2).2.2.2.1, y ∈ pc.1.set :=
  View.cover_of_tiledL (lastAt m c t h0 h1 s0 s1 s2).2.2.2.1 S1x1x1.size (by sl_kernel_rfl) y
/-- The stores the body makes into accumulator 1 at such a point cover its one element. -/
theorem coverLastAcc1 (c : Dev nD) (t : Fin cfg0.N) (h0 : ¬t.val % 16 = 0) (h1 : t.val % 16 = 15) (s0 s1 s2 : Vec F S1x1x1 .f32) (y : S1x1x1.Idx) :
    ∃ pc ∈ (lastAt m c t h0 h1 s0 s1 s2).2.2.2.2.1, y ∈ pc.1.set :=
  View.cover_of_tiledL (lastAt m c t h0 h1 s0 s1 s2).2.2.2.2.1 S1x1x1.size (by sl_kernel_rfl) y
/-- The stores the body makes into accumulator 2 at such a point cover its one element. -/
theorem coverLastAcc2 (c : Dev nD) (t : Fin cfg0.N) (h0 : ¬t.val % 16 = 0) (h1 : t.val % 16 = 15) (s0 s1 s2 : Vec F S1x1x1 .f32) (y : S1x1x1.Idx) :
    ∃ pc ∈ (lastAt m c t h0 h1 s0 s1 s2).2.2.2.2.2.1, y ∈ pc.1.set :=
  View.cover_of_tiledL (lastAt m c t h0 h1 s0 s1 s2).2.2.2.2.2.1 S1x1x1.size (by sl_kernel_rfl) y
/-- The store the body makes into output 6 at a row's last point covers its one element. -/
theorem coverLastOut6 (c : Dev nD) (t : Fin cfg0.N) (h0 : ¬t.val % 16 = 0) (h1 : t.val % 16 = 15) (s0 s1 s2 : Vec F S1x1x1 .f32) (y : S1x1x1.Idx) :
    ∃ pc ∈ (lastAt m c t h0 h1 s0 s1 s2).1, y ∈ pc.1.set :=
  View.cover_of_tiledL (lastAt m c t h0 h1 s0 s1 s2).1 S1x1x1.size (by sl_kernel_rfl) y
/-- The store the body makes into output 7 at a row's last point covers its one element. -/
theorem coverLastOut7 (c : Dev nD) (t : Fin cfg0.N) (h0 : ¬t.val % 16 = 0) (h1 : t.val % 16 = 15) (s0 s1 s2 : Vec F S1x1x1 .f32) (y : S1x1x1.Idx) :
    ∃ pc ∈ (lastAt m c t h0 h1 s0 s1 s2).2.1, y ∈ pc.1.set :=
  View.cover_of_tiledL (lastAt m c t h0 h1 s0 s1 s2).2.1 S1x1x1.size (by sl_kernel_rfl) y
/-- The store the body makes into output 8 at a row's last point covers its one element. -/
theorem coverLastOut8 (c : Dev nD) (t : Fin cfg0.N) (h0 : ¬t.val % 16 = 0) (h1 : t.val % 16 = 15) (s0 s1 s2 : Vec F S1x1x1 .f32) (y : S1x1x1.Idx) :
    ∃ pc ∈ (lastAt m c t h0 h1 s0 s1 s2).2.2.1, y ∈ pc.1.set :=
  View.cover_of_tiledL (lastAt m c t h0 h1 s0 s1 s2).2.2.1 S1x1x1.size (by sl_kernel_rfl) y

/-- What the body leaves at a row's last point `t`, as a 6-tuple: the three outputs' staging buffers, then the three accumulators — each its
    stores read back.  -/
noncomputable def lastLeaves (c : Dev nD) (t : Fin cfg0.N) (h0 : ¬t.val % 16 = 0) (h1 : t.val % 16 = 15) (s0 s1 s2 : Vec F S1x1x1 .f32) : Cell6 F :=
  (readBack (lastAt m c t h0 h1 s0 s1 s2).1,
   readBack (lastAt m c t h0 h1 s0 s1 s2).2.1,
   readBack (lastAt m c t h0 h1 s0 s1 s2).2.2.1,
   readBack (lastAt m c t h0 h1 s0 s1 s2).2.2.2.1,
   readBack (lastAt m c t h0 h1 s0 s1 s2).2.2.2.2.1,
   readBack (lastAt m c t h0 h1 s0 s1 s2).2.2.2.2.2.1)

/-! ## The running sums -/

/-- THE RUNNING SUMS. What the three outputs' staging buffers and the three accumulators hold after the body at grid position
    `n` (a 6-tuple: outputs 6, 7, 8, then accumulators 0, 1, 2): at a row's first point what the body leaves starting from
    zeroed accumulators; at any other point what it leaves starting from the accumulators as position `n - 1` left them —
    at a row's last point the outputs are the accumulators' copies. No position is both first and last of its row. -/
noncomputable def sumsAt (c : Dev nD) : (n : ℕ) → n < cfg0.N → Cell6 F
  | 0, hn => firstLeaves m c ⟨0, hn⟩ (Nat.zero_mod _) (show ¬(0 : ℕ) % 16 = 15 by decide)
  | n + 1, hn =>
    if h0 : (n + 1) % 16 = 0 then
      if h1 : (n + 1) % 16 = 15 then
        False.elim (by omega)
      else
        firstLeaves m c ⟨n + 1, hn⟩ h0 h1
    else
      if h1 : (n + 1) % 16 = 15 then
        lastLeaves m c ⟨n + 1, hn⟩ h0 h1 (sumsAt c n (Nat.lt_of_succ_lt hn)).2.2.2.1 (sumsAt c n (Nat.lt_of_succ_lt hn)).2.2.2.2.1 (sumsAt c n (Nat.lt_of_succ_lt hn)).2.2.2.2.2
      else
        midLeaves m c ⟨n + 1, hn⟩ h0 h1 (sumsAt c n (Nat.lt_of_succ_lt hn)).2.2.2.1 (sumsAt c n (Nat.lt_of_succ_lt hn)).2.2.2.2.1 (sumsAt c n (Nat.lt_of_succ_lt hn)).2.2.2.2.2

/-- The running sums at a row's first point. -/
theorem sumsAt_first (c : Dev nD) (t : Fin cfg0.N) (h0 : t.val % 16 = 0) (h1 : ¬t.val % 16 = 15) :
    sumsAt m c t.val t.isLt = firstLeaves m c t h0 h1 := by
  obtain ⟨n, hn⟩ := t
  cases n with
  | zero => exact rfl
  | succ n => exact (dif_pos h0).trans ((dif_neg h1).trans rfl)

/-- The running sums at a point inside a row: the body's step over what the point before left in the accumulators. -/
theorem sumsAt_mid (c : Dev nD) (t : Fin cfg0.N) (h0 : ¬t.val % 16 = 0) (h1 : ¬t.val % 16 = 15) :
    sumsAt m c t.val t.isLt = midLeaves m c t h0 h1 (sumsAt m c (t.val - 1) (Nat.lt_of_le_of_lt (Nat.sub_le _ _) t.isLt)).2.2.2.1 (sumsAt m c (t.val - 1) (Nat.lt_of_le_of_lt (Nat.sub_le _ _) t.isLt)).2.2.2.2.1 (sumsAt m c (t.val - 1) (Nat.lt_of_le_of_lt (Nat.sub_le _ _) t.isLt)).2.2.2.2.2 := by
  obtain ⟨n, hn⟩ := t
  cases n with
  | zero => exact absurd (Nat.zero_mod _) h0
  | succ n => exact (dif_neg h0).trans ((dif_neg h1).trans rfl)

/-- The running sums at a row's last point: the body's step over what the point before left in the accumulators. -/
theorem sumsAt_last (c : Dev nD) (t : Fin cfg0.N) (h0 : ¬t.val % 16 = 0) (h1 : t.val % 16 = 15) :
    sumsAt m c t.val t.isLt = lastLeaves m c t h0 h1 (sumsAt m c (t.val - 1) (Nat.lt_of_le_of_lt (Nat.sub_le _ _) t.isLt)).2.2.2.1 (sumsAt m c (t.val - 1) (Nat.lt_of_le_of_lt (Nat.sub_le _ _) t.isLt)).2.2.2.2.1 (sumsAt m c (t.val - 1) (Nat.lt_of_le_of_lt (Nat.sub_le _ _) t.isLt)).2.2.2.2.2 := by
  obtain ⟨n, hn⟩ := t
  cases n with
  | zero => exact absurd (Nat.zero_mod _) h0
  | succ n => exact (dif_neg h0).trans ((dif_pos h1).trans rfl)

/-! ## The invariant -/

/-- The region's invariant before position `n`: before the first point the launch's own (every accumulator at anything);
    afterwards the three accumulators owned at what the point before left in them (the running sums' last three
    components), and the generator register at some state. -/
def PhiT (c : Dev nD) : (n : ℕ) → n ≤ cfg0.N → sProp 𝕄
  | 0, _ => Pipeline.ΦA spec0 c
  | n + 1, hn => iprop(iprop(owns (c : Thread nD τ) acc0 fullShare (sumsAt m c n hn).2.2.2.1 ∗ owns (c : Thread nD τ) acc1 fullShare (sumsAt m c n hn).2.2.2.2.1 ∗ owns (c : Thread nD τ) acc2 fullShare (sumsAt m c n hn).2.2.2.2.2) ∗ (∃ r, prngReg c r))

theorem PhiT_zero (c : Dev nD) (n : ℕ) (h : n ≤ cfg0.N) (hz : n = 0) : PhiT m c n h = Pipeline.ΦA spec0 c := by
  subst hz; rfl

/-- After point `n`: the accumulators at that point's sums. -/
theorem PhiT_succ (c : Dev nD) (n : ℕ) (hn : n < cfg0.N) :
    PhiT m c (n + 1) hn = iprop(iprop(owns (c : Thread nD τ) acc0 fullShare (sumsAt m c n hn).2.2.2.1 ∗ owns (c : Thread nD τ) acc1 fullShare (sumsAt m c n hn).2.2.2.2.1 ∗ owns (c : Thread nD τ) acc2 fullShare (sumsAt m c n hn).2.2.2.2.2) ∗ (∃ r, prngReg c r)) := rfl

/-- Before a point that is not the first: the accumulators at the sums of the point before. -/
theorem PhiT_pos (c : Dev nD) (n : ℕ) (h : n ≤ cfg0.N) (hz : n ≠ 0) :
    PhiT m c n h = iprop(iprop(owns (c : Thread nD τ) acc0 fullShare (sumsAt m c (n - 1) (by omega)).2.2.2.1 ∗ owns (c : Thread nD τ) acc1 fullShare (sumsAt m c (n - 1) (by omega)).2.2.2.2.1 ∗ owns (c : Thread nD τ) acc2 fullShare (sumsAt m c (n - 1) (by omega)).2.2.2.2.2) ∗ (∃ r, prngReg c r)) := by
  cases n with
  | zero => exact absurd rfl hz
  | succ n => rfl

/-! ## The proof data -/

/-- The proof data of the region on core `c`: the arrays as the region finds them; after the body at point `t` each input's
    staging buffer still at its block and the three outputs' at the running sums' first three components; the invariant
    above; each input array held at the share its window has of it; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (sumsAt m c t.val t.isLt).1
    | ⟨7, _⟩ => (sumsAt m c t.val t.isLt).2.1
    | ⟨8, _⟩ => (sumsAt m c t.val t.isLt).2.2.1
  Φ t := PhiT m c t.val (Nat.le_of_lt_succ t.isLt)
  q := inShare
  owed _ := 0

/-- The proof data's arrays are the region-entry contents (the definition projected, the entry contents never unfolded). -/
theorem A_eq (c : Dev nD) (w : Fin cfg0.W) : (dats m 0 c).A w = V m c (Pipeline.arrRef spec0 w) := by
  dsimp only [dats]

/-- The invariant at a point's start, restated at the point's position. -/
theorem PhiT_castSucc (c : Dev nD) (t : Fin cfg0.N) :
    (dats m 0 c).Φ t.castSucc = PhiT m c t.val (Nat.le_of_lt t.isLt) := by
  dsimp only [dats]; simp only [Fin.coe_castSucc]

/-- What the body leaves, window by window. -/
theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_in4 (c : Dev nD) (t : Fin cfg0.N) : (dats m 0 c).after 4 t = iblk m c 4 t := by dsimp only [dats]
theorem after_in5 (c : Dev nD) (t : Fin cfg0.N) : (dats m 0 c).after 5 t = iblk m c 5 t := by dsimp only [dats]
theorem after_out6 (c : Dev nD) (t : Fin cfg0.N) : (dats m 0 c).after 6 t = (sumsAt m c t.val t.isLt).1 := by dsimp only [dats]
theorem after_out7 (c : Dev nD) (t : Fin cfg0.N) : (dats m 0 c).after 7 t = (sumsAt m c t.val t.isLt).2.1 := by dsimp only [dats]
theorem after_out8 (c : Dev nD) (t : Fin cfg0.N) : (dats m 0 c).after 8 t = (sumsAt m c t.val t.isLt).2.2.1 := by dsimp only [dats]

/-- Each input's current staging buffer holds its block at every point, fetched there or not. -/
theorem before_in0 (c : Dev nD) (t : Fin cfg0.N) (d) : (dats m 0 c).before 0 t d = iblk m c 0 t :=
  before_in0_of m (dats m 0 c) (A_eq m c 0) (after_in0 m c) t d
theorem before_in1 (c : Dev nD) (t : Fin cfg0.N) (d) : (dats m 0 c).before 1 t d = iblk m c 1 t :=
  before_in1_of m (dats m 0 c) (A_eq m c 1) (after_in1 m c) t d
theorem before_in2 (c : Dev nD) (t : Fin cfg0.N) (d) : (dats m 0 c).before 2 t d = iblk m c 2 t :=
  before_in2_of m (dats m 0 c) (A_eq m c 2) (after_in2 m c) t d
theorem before_in3 (c : Dev nD) (t : Fin cfg0.N) (d) : (dats m 0 c).before 3 t d = iblk m c 3 t :=
  before_in3_of m (dats m 0 c) (A_eq m c 3) (after_in3 m c) t d
theorem before_in4 (c : Dev nD) (t : Fin cfg0.N) (d) : (dats m 0 c).before 4 t d = iblk m c 4 t :=
  before_in4_of m (dats m 0 c) (A_eq m c 4) (after_in4 m c) t d
theorem before_in5 (c : Dev nD) (t : Fin cfg0.N) (d) : (dats m 0 c).before 5 t d = iblk m c 5 t :=
  before_in5_of m (dats m 0 c) (A_eq m c 5) (after_in5 m c) t d

/-- What the body must leave in an input's buffer: the block it found. -/
theorem leaves_in0 (c : Dev nD) (t : Fin cfg0.N) :
    (dats m 0 c).leavesExact 0 t = owns (c : Thread nD τ) (stg0 t) fullShare (iblk m c 0 t) := by
  unfold Dat.leavesExact; rw [live0 t, after_in0]
theorem leaves_in1 (c : Dev nD) (t : Fin cfg0.N) :
    (dats m 0 c).leavesExact 1 t = owns (c : Thread nD τ) (stg1 t) fullShare (iblk m c 1 t) := by
  unfold Dat.leavesExact; rw [live1 t, after_in1]
theorem leaves_in2 (c : Dev nD) (t : Fin cfg0.N) :
    (dats m 0 c).leavesExact 2 t = owns (c : Thread nD τ) (stg2 t) fullShare (iblk m c 2 t) := by
  unfold Dat.leavesExact; rw [live2 t, after_in2]
theorem leaves_in3 (c : Dev nD) (t : Fin cfg0.N) :
    (dats m 0 c).leavesExact 3 t = owns (c : Thread nD τ) (stg3 t) fullShare (iblk m c 3 t) := by
  unfold Dat.leavesExact; rw [live3 t, after_in3]
theorem leaves_in4 (c : Dev nD) (t : Fin cfg0.N) :
    (dats m 0 c).leavesExact 4 t = owns (c : Thread nD τ) (stg4 t) fullShare (iblk m c 4 t) := by
  unfold Dat.leavesExact; rw [live4 t, after_in4]
theorem leaves_in5 (c : Dev nD) (t : Fin cfg0.N) :
    (dats m 0 c).leavesExact 5 t = owns (c : Thread nD τ) (stg5 t) fullShare (iblk m c 5 t) := by
  unfold Dat.leavesExact; rw [live5 t, after_in5]

/-- Away from a row's last point an output's buffer is handed back as found; at it, holding the running sums' component. -/
theorem leaves_out6_idle (c : Dev nD) (t : Fin cfg0.N) (h1 : ¬t.val % 16 = 15) :
    (dats m 0 c).leavesExact 6 t = iprop(∃ d, owns (c : Thread nD τ) (stg6 t) fullShare ((dats m 0 c).before 6 t d)) :=
  Dat.leavesExact_idle (dats m 0 c) 6 t (idle6_of_not_rowEnd t (fun h => h1 ((atRowEnd_iff t).mp h))) (noFlush6_of_not_rowEnd t (fun h => h1 ((atRowEnd_iff t).mp h)))
theorem leaves_out6_live (c : Dev nD) (t : Fin cfg0.N) (h1 : t.val % 16 = 15) :
    (dats m 0 c).leavesExact 6 t = owns (c : Thread nD τ) (stg6 t) fullShare (sumsAt m c t.val t.isLt).1 := by
  unfold Dat.leavesExact; rw [live6_of_rowEnd t ((atRowEnd_iff t).mpr h1), after_out6]
theorem leaves_out7_idle (c : Dev nD) (t : Fin cfg0.N) (h1 : ¬t.val % 16 = 15) :
    (dats m 0 c).leavesExact 7 t = iprop(∃ d, owns (c : Thread nD τ) (stg7 t) fullShare ((dats m 0 c).before 7 t d)) :=
  Dat.leavesExact_idle (dats m 0 c) 7 t (idle7_of_not_rowEnd t (fun h => h1 ((atRowEnd_iff t).mp h))) (noFlush7_of_not_rowEnd t (fun h => h1 ((atRowEnd_iff t).mp h)))
theorem leaves_out7_live (c : Dev nD) (t : Fin cfg0.N) (h1 : t.val % 16 = 15) :
    (dats m 0 c).leavesExact 7 t = owns (c : Thread nD τ) (stg7 t) fullShare (sumsAt m c t.val t.isLt).2.1 := by
  unfold Dat.leavesExact; rw [live7_of_rowEnd t ((atRowEnd_iff t).mpr h1), after_out7]
theorem leaves_out8_idle (c : Dev nD) (t : Fin cfg0.N) (h1 : ¬t.val % 16 = 15) :
    (dats m 0 c).leavesExact 8 t = iprop(∃ d, owns (c : Thread nD τ) (stg8 t) fullShare ((dats m 0 c).before 8 t d)) :=
  Dat.leavesExact_idle (dats m 0 c) 8 t (idle8_of_not_rowEnd t (fun h => h1 ((atRowEnd_iff t).mp h))) (noFlush8_of_not_rowEnd t (fun h => h1 ((atRowEnd_iff t).mp h)))
theorem leaves_out8_live (c : Dev nD) (t : Fin cfg0.N) (h1 : t.val % 16 = 15) :
    (dats m 0 c).leavesExact 8 t = owns (c : Thread nD τ) (stg8 t) fullShare (sumsAt m c t.val t.isLt).2.2.1 := by
  unfold Dat.leavesExact; rw [live8_of_rowEnd t ((atRowEnd_iff t).mpr h1), after_out8]

/-! ## The body obligation, at a generic point -/

/-- What the body is called with at point `t`: the invariant, what the core owes, and each window's current staging buffer
    at what it then holds. -/
def bodyPre (c : Dev nD) (t : Fin cfg0.N) : sProp 𝕄 :=
  iprop((dats m 0 c).Φ t.castSucc ∗ (dats m 0 c).owesAt () t.castSucc
    ∗ (∃ d, owns (c : Thread nD τ) (stg0 t) fullShare ((dats m 0 c).before 0 t d))
    ∗ (∃ d, owns (c : Thread nD τ) (stg1 t) fullShare ((dats m 0 c).before 1 t d))
    ∗ (∃ d, owns (c : Thread nD τ) (stg2 t) fullShare ((dats m 0 c).before 2 t d))
    ∗ (∃ d, owns (c : Thread nD τ) (stg3 t) fullShare ((dats m 0 c).before 3 t d))
    ∗ (∃ d, owns (c : Thread nD τ) (stg4 t) fullShare ((dats m 0 c).before 4 t d))
    ∗ (∃ d, owns (c : Thread nD τ) (stg5 t) fullShare ((dats m 0 c).before 5 t d))
    ∗ (∃ d, owns (c : Thread nD τ) (stg6 t) fullShare ((dats m 0 c).before 6 t d))
    ∗ (∃ d, owns (c : Thread nD τ) (stg7 t) fullShare ((dats m 0 c).before 7 t d))
    ∗ (∃ d, owns (c : Thread nD τ) (stg8 t) fullShare ((dats m 0 c).before 8 t d)))

/-- What it returns: the invariant at the next point, the same debts, and each buffer at what the body leaves. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t)

set_option maxHeartbeats 4800000 in
/-- The body at any point. The inputs' buffers hold their blocks; the point's position modulo 16 says which of the three
    cases it is in, and that case's run applies: the invariant hands it the accumulators (at anything before the very
    first point, else at the sums of the point before — which a row's first point does not read, zeroing them), and takes
    them back at this point's sums, each read back from the stores that cover it; the outputs are handed back untouched
    away from a row's end and at the sums there; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_in0, before_in1, before_in2, before_in3, before_in4, before_in5]
  rw [show (dats m 0 c).owesAt () t.succ = (dats m 0 c).owesAt () t.castSucc from rfl]
  rw [show (dats m 0 c).Φ t.succ = PhiT m c (t.val + 1) t.isLt from rfl, PhiT_succ]
  rw [leaves_in0, leaves_in1, leaves_in2, leaves_in3, leaves_in4, leaves_in5]
  have hN : t.val < 32 := lt_of_lt_of_eq t.isLt (show cfg0.N = 32 from N_0)
  by_cases h0 : t.val % 16 = 0
  · have h1 : ¬t.val % 16 = 15 := by omega
    rw [leaves_out6_idle m c t h1, leaves_out7_idle m c t h1, leaves_out8_idle m c t h1]
    rw [sumsAt_first m c t h0 h1]
    unfold firstLeaves; (try dsimp only)
    by_cases hz : t.val = 0
    · rw [PhiT_castSucc m c t, PhiT_zero m c _ _ hz, PhiA_eq]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((firstAt m c t h0 h1).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      isplitl [HS2]; · iexact HS2
      iintro ⟨H0, H1, H2, H3, H4, H5, H6, H7, H8, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (coverFirstAcc0 m c t h0 h1)
          isplitl [HS1]
          · unfold owns; iexists _; isplitr
            swap; · iexact HS1
            ipureintro; exact View.read_writes_of_cover _ _ _ _ _ (coverFirstAcc1 m c t h0 h1)
          unfold owns; iexists _; isplitr
          swap; · iexact HS2
          ipureintro; exact View.read_writes_of_cover _ _ _ _ _ (coverFirstAcc2 m c t h0 h1)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      iexists _; iexact H8
    · rw [PhiT_castSucc m c t, PhiT_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((firstAt m c t h0 h1).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexists _; iexact HS0
      isplitl [HS1]; · iexists _; iexact HS1
      isplitl [HS2]; · iexists _; iexact HS2
      iintro ⟨H0, H1, H2, H3, H4, H5, H6, H7, H8, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (coverFirstAcc0 m c t h0 h1)
          isplitl [HS1]
          · unfold owns; iexists _; isplitr
            swap; · iexact HS1
            ipureintro; exact View.read_writes_of_cover _ _ _ _ _ (coverFirstAcc1 m c t h0 h1)
          unfold owns; iexists _; isplitr
          swap; · iexact HS2
          ipureintro; exact View.read_writes_of_cover _ _ _ _ _ (coverFirstAcc2 m c t h0 h1)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      iexists _; iexact H8
  · have hz : t.val ≠ 0 := fun hz => h0 (by rw [hz])
    by_cases h1 : t.val % 16 = 15
    · rw [leaves_out6_live m c t h1, leaves_out7_live m c t h1, leaves_out8_live m c t h1]
      rw [sumsAt_last m c t h0 h1]
      unfold lastLeaves; (try dsimp only)
      rw [PhiT_castSucc m c t, PhiT_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((lastAt m c t h0 h1 _ _ _).2.2.2.2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [HS0]; · iexact HS0
      isplitl [HS1]; · iexact HS1
      isplitl [HS2]; · iexact HS2
      iintro ⟨H0, H1, H2, H3, H4, H5, ⟨%e6, H6⟩, ⟨%e7, H7⟩, ⟨%e8, H8⟩, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (coverLastAcc0 m c t h0 h1 _ _ _)
          isplitl [HS1]
          · unfold owns; iexists _; isplitr
            swap; · iexact HS1
            ipureintro; exact View.read_writes_of_cover _ _ _ _ _ (coverLastAcc1 m c t h0 h1 _ _ _)
          unfold owns; iexists _; isplitr
          swap; · iexact HS2
          ipureintro; exact View.read_writes_of_cover _ _ _ _ _ (coverLastAcc2 m c t h0 h1 _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]
      · unfold owns; iexists _; isplitr
        swap; · iexact H6
        ipureintro; exact View.read_writes_of_cover _ _ _ _ _ (coverLastOut6 m c t h0 h1 _ _ _)
      isplitl [H7]
      · unfold owns; iexists _; isplitr
        swap; · iexact H7
        ipureintro; exact View.read_writes_of_cover _ _ _ _ _ (coverLastOut7 m c t h0 h1 _ _ _)
      unfold owns; iexists _; isplitr
      swap; · iexact H8
      ipureintro; exact View.read_writes_of_cover _ _ _ _ _ (coverLastOut8 m c t h0 h1 _ _ _)
    · rw [leaves_out6_idle m c t h1, leaves_out7_idle m c t h1, leaves_out8_idle m c t h1]
      rw [sumsAt_mid m c t h0 h1]
      unfold midLeaves; (try dsimp only)
      rw [PhiT_castSucc m c t, PhiT_pos m c _ _ hz]
      iintro ⟨⟨⟨HS0, HS1, HS2⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
      iapply ((midAt m c t h0 h1 _ _ _).2.2.2 _ _ _ Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [HS0]; · iexact HS0
      isplitl [HS1]; · iexact HS1
      isplitl [HS2]; · iexact HS2
      iintro ⟨H0, H1, H2, H3, H4, H5, H6, H7, H8, ⟨%es0, HS0⟩, ⟨%es1, HS1⟩, ⟨%es2, HS2⟩⟩
      isplitl [HS0 HS1 HS2 Hg]
      · isplitl [HS0 HS1 HS2]
        · isplitl [HS0]
          · unfold owns; iexists _; isplitr
            swap; · iexact HS0
            ipureintro; exact View.read_writes_of_cover _ _ _ _ _ (coverMidAcc0 m c t h0 h1 _ _ _)
          isplitl [HS1]
          · unfold owns; iexists _; isplitr
            swap; · iexact HS1
            ipureintro; exact View.read_writes_of_cover _ _ _ _ _ (coverMidAcc1 m c t h0 h1 _ _ _)
          unfold owns; iexists _; isplitr
          swap; · iexact HS2
          ipureintro; exact View.read_writes_of_cover _ _ _ _ _ (coverMidAcc2 m c t h0 h1 _ _ _)
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      iexists _; iexact H8

/-- The body obligation of the region's proof data, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiT m c 0 (Nat.zero_le _) from rfl, PhiT_zero m c 0 _ rfl]
  try exact Idealize.SL.BI.Entails.refl _

/-- After any point the invariant gives the launch's back: what the accumulators hold is forgotten. -/
theorem Phi_out (c : Dev nD) (t : Fin (cfg0.N + 1)) (ht : t.val ≠ 0) : (dats m 0 c).Φ t ⊢ Pipeline.ΦA spec0 c := by
  rw [show (dats m 0 c).Φ t = PhiT m c t.val (Nat.le_of_lt_succ t.isLt) from rfl, PhiT_pos m c _ _ ht, PhiA_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

/-- In particular after the last point. -/
theorem hout (c : Dev nD) : (dats m 0 c).Φ (Fin.last cfg0.N) ⊢ Pipeline.ΦA spec0 c :=
  Phi_out m c _ (by rw [Fin.val_last]; have : cfg0.N = 32 := N_0; omega)

end Cert.KernelIdeal.Mmd

end
-- ==== Proof.Frame.lean ====
/-
  The run of @main at the region body's proof data, and the frame: the two argument arrays end as they began.

  No operation of @main writes an argument: the host stretches write only their own results, the region's write-backs
  only the three result arrays. So the value the run computes for an argument buffer is its launch contents.
-/
import proofs.«136887_j59356448031516_2_alg».proof.Proof.Launch
import proofs.«136887_j59356448031516_2_alg».proof.Proof.BodyData

noncomputable section

namespace Cert.KernelIdeal.Mmd

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]
variable (m : (ℓ : Loc nD τ sig) → Buf (Elt F) ℓ) (ρ : Dev nD → PrngReg)

/-- THE RUN at the body's proof data: every weakly fair execution of @main terminates, nothing faulting, each unscoped
    buffer ending at what the three stretches compute for it. -/
theorem run_main : θ_run defs (onTc (τ := τ) (main (F := F))) (s₀ m ρ) (fun r => ∀ c : Dev nD,
      ∀ b ∈ (Finset.univ.filter fun b : Ref sig .tc => ¬ b.isScoped), r.2.mem ((c.tc : Thread nD τ).loc b) = Vend m (dats m) c (Proc.devRef .tc b)) :=
  run_of m ρ (dats m) (A_eq m) (fun _ _ => rfl) (fun c => (body_obligation m c).loose) (fun _ _ => rfl) (fun _ _ => rfl) (hin m) (hout m)

variable (dats' : (p : Fin 1) → (c : Dev nD) → Dat τ (Elt F) Unit ℕ (UR sig nD τ) ℕ (cfgs p) c)

set_option maxHeartbeats 4000000 in
/-- The first argument's buffer ends at its launch contents. -/
theorem Vend_arg0 (c : Dev nD) : Vend m dats' c (Proc.devRef .tc main_arg0) = m ((c.tc : Thread nD τ).loc main_arg0) := by
  have h1 : Vend m dats' c (Proc.devRef .tc main_arg0) = Vexit m dats' c (Proc.devRef .tc main_arg0) := by
    dsimp only [Vend, hostOps1]; after_results
  have h2 : V m c main_arg0 = m ((c.tc : Thread nD τ).loc main_arg0) := by
    dsimp only [V, V0, hostOps0]; after_results
  rw [h1, Vexit_of_ne m dats' c main_arg0 (by decide) (by decide) (by decide), h2]

set_option maxHeartbeats 4000000 in
/-- The second argument's buffer ends at its launch contents. -/
theorem Vend_arg1 (c : Dev nD) : Vend m dats' c (Proc.devRef .tc main_arg1) = m ((c.tc : Thread nD τ).loc main_arg1) := by
  have h1 : Vend m dats' c (Proc.devRef .tc main_arg1) = Vexit m dats' c (Proc.devRef .tc main_arg1) := by
    dsimp only [Vend, hostOps1]; after_results
  have h2 : V m c main_arg1 = m ((c.tc : Thread nD τ).loc main_arg1) := by
    dsimp only [V, V0, hostOps0]; after_results
  rw [h1, Vexit_of_ne m dats' c main_arg1 (by decide) (by decide) (by decide), h2]

theorem arg0_unscoped : main_arg0 ∈ (Finset.univ.filter fun b : Ref sig .tc => ¬ b.isScoped) := by decide
theorem arg1_unscoped : main_arg1 ∈ (Finset.univ.filter fun b : Ref sig .tc => ¬ b.isScoped) := by decide
theorem v25_unscoped : main_v25 ∈ (Finset.univ.filter fun b : Ref sig .tc => ¬ b.isScoped) := by decide

/-- THE FRAME: @main runs to the end, nothing faulting, and both argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c => ⟨(h c main_arg0 arg0_unscoped).trans (Vend_arg0 m (dats m) c),
    (h c main_arg1 arg1_unscoped).trans (Vend_arg1 m (dats m) c)⟩) (run_main m ρ)

end Cert.KernelIdeal.Mmd

end
-- ==== Proof.CellValue.lean ====
/-
  What each case of a grid point leaves in the accumulators and the outputs, as the body's own arithmetic.

  The body's pure values are named payloads of the printed program. With the six input blocks at a point written
  x0 … x5 (the two 256-row tiles, the two whole rounded arrays, the two rows of negated squared norms), the point adds to
  accumulator 0 the sum over the tile of exp(2<a,a'> - |a|^2 - |a'|^2) for the first array against itself, to accumulator 1
  the same for the second array against itself, and to accumulator 2 the same for the first against the second. Each
  accumulator is stored whole, once (after a zero store at a row's first point), so what it ends holding is the last
  store's payload: the update applied to the old contents — zero at a row's first point, what the point before left
  otherwise. At a row's last point each output is stored the accumulator's updated contents, read back after that store.
-/
import proofs.«136887_j59356448031516_2_alg».proof.Proof.BodyData
import Idealize.ShloMosaic.Lib.Pipeline.Value

set_option maxRecDepth 16384

noncomputable section

namespace Cert.KernelIdeal.Mmd

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ)

/-- The zero offsets of a whole-buffer access, however spelt. -/
theorem hz3 : (![0, 0, 0] : Fin 3 → Nat) = fun _ => 0 := funext fun a => by fin_cases a <;> rfl
theorem hz2 : (![0, 0] : Fin 2 → Nat) = fun _ => 0 := funext fun a => by fin_cases a <;> rfl

/-- At a row's first point accumulator 0 ends holding zero with the first pair's tile sum added to it: the body reads it back after the zero store. -/
theorem firstLeaves_acc0 (c : Dev nD) (t : Fin cfg0.N) (h0 : t.val % 16 = 0) (h1 : ¬t.val % 16 = 15) :
    (firstLeaves m c t h0 h1).2.2.2.1 = k0_pay12 (k0_pay11 (iblk m c 0 t) (iblk m c 2 t) (iblk m c 4 t)) k0_pay2 := by
  unfold firstLeaves
  dsimp only
  unfold readBack
  rw [View.read_writes_eq_canon _ _ _ (coverFirstAcc0 m c t h0 h1)]
  unfold firstAt runFirst
  dsimp only
  sl_unfold_words
  rw [View.canon_cons_unit_zero (S := S1x1x1) hz3, View.readCov_unit_zero (S := S1x1x1) _ hz3]
  simp only [View.readAt_eq_ld, Memref.IsWhole.read_unread, View.ld_unit_zero (S := S256x128) hz2, View.ld_unit_zero (S := S8192x128) hz2, View.ld_unit_zero (S := S1x8192) hz2, View.ld_unit_zero (S := S1x1x1) hz3]

/-- At a row's first point accumulator 1 ends holding zero with the second pair's tile sum added to it: the body reads it back after the zero store. -/
theorem firstLeaves_acc1 (c : Dev nD) (t : Fin cfg0.N) (h0 : t.val % 16 = 0) (h1 : ¬t.val % 16 = 15) :
    (firstLeaves m c t h0 h1).2.2.2.2.1 = k0_pay13 (k0_pay6 (iblk m c 1 t)) (k0_pay7 (iblk m c 3 t)) (k0_pay8 (iblk m c 5 t)) (k0_pay10 (iblk m c 1 t)) k0_pay3 := by
  unfold firstLeaves
  dsimp only
  unfold readBack
  rw [View.read_writes_eq_canon _ _ _ (coverFirstAcc1 m c t h0 h1)]
  unfold firstAt runFirst
  dsimp only
  sl_unfold_words
  rw [View.canon_cons_unit_zero (S := S1x1x1) hz3, View.readCov_unit_zero (S := S1x1x1) _ hz3]
  simp only [View.readAt_eq_ld, Memref.IsWhole.read_unread, View.ld_unit_zero (S := S256x128) hz2, View.ld_unit_zero (S := S8192x128) hz2, View.ld_unit_zero (S := S1x8192) hz2, View.ld_unit_zero (S := S1x1x1) hz3]

/-- At a row's first point accumulator 2 ends holding zero with the cross pair's tile sum added to it: the body reads it back after the zero store. -/
theorem firstLeaves_acc2 (c : Dev nD) (t : Fin cfg0.N) (h0 : t.val % 16 = 0) (h1 : ¬t.val % 16 = 15) :
    (firstLeaves m c t h0 h1).2.2.2.2.2 = k0_pay1 (k0_pay14 (k0_pay5 (iblk m c 0 t)) (k0_pay7 (iblk m c 3 t)) (k0_pay8 (iblk m c 5 t)) (k0_pay9 (iblk m c 0 t))) k0_pay4 := by
  unfold firstLeaves
  dsimp only
  unfold readBack
  rw [View.read_writes_eq_canon _ _ _ (coverFirstAcc2 m c t h0 h1)]
  unfold firstAt runFirst
  dsimp only
  sl_unfold_words
  rw [View.canon_cons_unit_zero (S := S1x1x1) hz3, View.readCov_unit_zero (S := S1x1x1) _ hz3]
  simp only [View.readAt_eq_ld, Memref.IsWhole.read_unread, View.ld_unit_zero (S := S256x128) hz2, View.ld_unit_zero (S := S8192x128) hz2, View.ld_unit_zero (S := S1x8192) hz2, View.ld_unit_zero (S := S1x1x1) hz3]

/-- At a point inside a row accumulator 0 ends holding what it held (`s0`) with the first pair's tile sum added to it. -/
theorem midLeaves_acc0 (c : Dev nD) (t : Fin cfg0.N) (h0 : ¬t.val % 16 = 0) (h1 : ¬t.val % 16 = 15) (s0 s1 s2 : Vec F S1x1x1 .f32) :
    (midLeaves m c t h0 h1 s0 s1 s2).2.2.2.1 = k0_pay12 (k0_pay11 (iblk m c 0 t) (iblk m c 2 t) (iblk m c 4 t)) s0 := by
  unfold midLeaves
  dsimp only
  unfold readBack
  rw [View.read_writes_eq_canon _ _ _ (coverMidAcc0 m c t h0 h1 s0 s1 s2)]
  unfold midAt runMid
  dsimp only
  sl_unfold_words
  rw [View.canon_unit_zero (S := S1x1x1) hz3]
  simp only [View.readAt_eq_ld, Memref.IsWhole.read_unread, View.ld_unit_zero (S := S256x128) hz2, View.ld_unit_zero (S := S8192x128) hz2, View.ld_unit_zero (S := S1x8192) hz2, View.ld_unit_zero (S := S1x1x1) hz3]
  exact congrArg (fun s => k0_pay12 (k0_pay11 (iblk m c 0 t) (iblk m c 2 t) (iblk m c 4 t)) s) ((Memref.isWhole_whole cc0_scratch0).read_unread s0)

/-- At a point inside a row accumulator 1 ends holding what it held (`s1`) with the second pair's tile sum added to it. -/
theorem midLeaves_acc1 (c : Dev nD) (t : Fin cfg0.N) (h0 : ¬t.val % 16 = 0) (h1 : ¬t.val % 16 = 15) (s0 s1 s2 : Vec F S1x1x1 .f32) :
    (midLeaves m c t h0 h1 s0 s1 s2).2.2.2.2.1 = k0_pay13 (k0_pay6 (iblk m c 1 t)) (k0_pay7 (iblk m c 3 t)) (k0_pay8 (iblk m c 5 t)) (k0_pay10 (iblk m c 1 t)) s1 := by
  unfold midLeaves
  dsimp only
  unfold readBack
  rw [View.read_writes_eq_canon _ _ _ (coverMidAcc1 m c t h0 h1 s0 s1 s2)]
  unfold midAt runMid
  dsimp only
  sl_unfold_words
  rw [View.canon_unit_zero (S := S1x1x1) hz3]
  simp only [View.readAt_eq_ld, Memref.IsWhole.read_unread, View.ld_unit_zero (S := S256x128) hz2, View.ld_unit_zero (S := S8192x128) hz2, View.ld_unit_zero (S := S1x8192) hz2, View.ld_unit_zero (S := S1x1x1) hz3]
  exact congrArg (fun s => k0_pay13 (k0_pay6 (iblk m c 1 t)) (k0_pay7 (iblk m c 3 t)) (k0_pay8 (iblk m c 5 t)) (k0_pay10 (iblk m c 1 t)) s) ((Memref.isWhole_whole cc0_scratch1).read_unread s1)

/-- At a point inside a row accumulator 2 ends holding what it held (`s2`) with the cross pair's tile sum added to it. -/
theorem midLeaves_acc2 (c : Dev nD) (t : Fin cfg0.N) (h0 : ¬t.val % 16 = 0) (h1 : ¬t.val % 16 = 15) (s0 s1 s2 : Vec F S1x1x1 .f32) :
    (midLeaves m c t h0 h1 s0 s1 s2).2.2.2.2.2 = k0_pay1 (k0_pay14 (k0_pay5 (iblk m c 0 t)) (k0_pay7 (iblk m c 3 t)) (k0_pay8 (iblk m c 5 t)) (k0_pay9 (iblk m c 0 t))) s2 := by
  unfold midLeaves
  dsimp only
  unfold readBack
  rw [View.read_writes_eq_canon _ _ _ (coverMidAcc2 m c t h0 h1 s0 s1 s2)]
  unfold midAt runMid
  dsimp only
  sl_unfold_words
  rw [View.canon_unit_zero (S := S1x1x1) hz3]
  simp only [View.readAt_eq_ld, Memref.IsWhole.read_unread, View.ld_unit_zero (S := S256x128) hz2, View.ld_unit_zero (S := S8192x128) hz2, View.ld_unit_zero (S := S1x8192) hz2, View.ld_unit_zero (S := S1x1x1) hz3]
  exact congrArg (fun s => k0_pay1 (k0_pay14 (k0_pay5 (iblk m c 0 t)) (k0_pay7 (iblk m c 3 t)) (k0_pay8 (iblk m c 5 t)) (k0_pay9 (iblk m c 0 t))) s) ((Memref.isWhole_whole cc0_scratch2).read_unread s2)

/-- At a point that ends a row accumulator 0 ends holding what it held (`s0`) with the first pair's tile sum added to it. -/
theorem lastLeaves_acc0 (c : Dev nD) (t : Fin cfg0.N) (h0 : ¬t.val % 16 = 0) (h1 : t.val % 16 = 15) (s0 s1 s2 : Vec F S1x1x1 .f32) :
    (lastLeaves m c t h0 h1 s0 s1 s2).2.2.2.1 = k0_pay12 (k0_pay11 (iblk m c 0 t) (iblk m c 2 t) (iblk m c 4 t)) s0 := by
  unfold lastLeaves
  dsimp only
  unfold readBack
  rw [View.read_writes_eq_canon _ _ _ (coverLastAcc0 m c t h0 h1 s0 s1 s2)]
  unfold lastAt runLast
  dsimp only
  sl_unfold_words
  rw [View.canon_unit_zero (S := S1x1x1) hz3]
  simp only [View.readAt_eq_ld, Memref.IsWhole.read_unread, View.ld_unit_zero (S := S256x128) hz2, View.ld_unit_zero (S := S8192x128) hz2, View.ld_unit_zero (S := S1x8192) hz2, View.ld_unit_zero (S := S1x1x1) hz3]
  exact congrArg (fun s => k0_pay12 (k0_pay11 (iblk m c 0 t) (iblk m c 2 t) (iblk m c 4 t)) s) ((Memref.isWhole_whole cc0_scratch0).read_unread s0)

/-- At a point that ends a row accumulator 1 ends holding what it held (`s1`) with the second pair's tile sum added to it. -/
theorem lastLeaves_acc1 (c : Dev nD) (t : Fin cfg0.N) (h0 : ¬t.val % 16 = 0) (h1 : t.val % 16 = 15) (s0 s1 s2 : Vec F S1x1x1 .f32) :
    (lastLeaves m c t h0 h1 s0 s1 s2).2.2.2.2.1 = k0_pay13 (k0_pay6 (iblk m c 1 t)) (k0_pay7 (iblk m c 3 t)) (k0_pay8 (iblk m c 5 t)) (k0_pay10 (iblk m c 1 t)) s1 := by
  unfold lastLeaves
  dsimp only
  unfold readBack
  rw [View.read_writes_eq_canon _ _ _ (coverLastAcc1 m c t h0 h1 s0 s1 s2)]
  unfold lastAt runLast
  dsimp only
  sl_unfold_words
  rw [View.canon_unit_zero (S := S1x1x1) hz3]
  simp only [View.readAt_eq_ld, Memref.IsWhole.read_unread, View.ld_unit_zero (S := S256x128) hz2, View.ld_unit_zero (S := S8192x128) hz2, View.ld_unit_zero (S := S1x8192) hz2, View.ld_unit_zero (S := S1x1x1) hz3]
  exact congrArg (fun s => k0_pay13 (k0_pay6 (iblk m c 1 t)) (k0_pay7 (iblk m c 3 t)) (k0_pay8 (iblk m c 5 t)) (k0_pay10 (iblk m c 1 t)) s) ((Memref.isWhole_whole cc0_scratch1).read_unread s1)

/-- At a point that ends a row accumulator 2 ends holding what it held (`s2`) with the cross pair's tile sum added to it. -/
theorem lastLeaves_acc2 (c : Dev nD) (t : Fin cfg0.N) (h0 : ¬t.val % 16 = 0) (h1 : t.val % 16 = 15) (s0 s1 s2 : Vec F S1x1x1 .f32) :
    (lastLeaves m c t h0 h1 s0 s1 s2).2.2.2.2.2 = k0_pay1 (k0_pay14 (k0_pay5 (iblk m c 0 t)) (k0_pay7 (iblk m c 3 t)) (k0_pay8 (iblk m c 5 t)) (k0_pay9 (iblk m c 0 t))) s2 := by
  unfold lastLeaves
  dsimp only
  unfold readBack
  rw [View.read_writes_eq_canon _ _ _ (coverLastAcc2 m c t h0 h1 s0 s1 s2)]
  unfold lastAt runLast
  dsimp only
  sl_unfold_words
  rw [View.canon_unit_zero (S := S1x1x1) hz3]
  simp only [View.readAt_eq_ld, Memref.IsWhole.read_unread, View.ld_unit_zero (S := S256x128) hz2, View.ld_unit_zero (S := S8192x128) hz2, View.ld_unit_zero (S := S1x8192) hz2, View.ld_unit_zero (S := S1x1x1) hz3]
  exact congrArg (fun s => k0_pay1 (k0_pay14 (k0_pay5 (iblk m c 0 t)) (k0_pay7 (iblk m c 3 t)) (k0_pay8 (iblk m c 5 t)) (k0_pay9 (iblk m c 0 t))) s) ((Memref.isWhole_whole cc0_scratch2).read_unread s2)

/-- At a row's last point output 6 receives the copy of accumulator 0 made after its update: the same value. -/
theorem lastLeaves_out6 (c : Dev nD) (t : Fin cfg0.N) (h0 : ¬t.val % 16 = 0) (h1 : t.val % 16 = 15) (s0 s1 s2 : Vec F S1x1x1 .f32) :
    (lastLeaves m c t h0 h1 s0 s1 s2).1 = k0_pay12 (k0_pay11 (iblk m c 0 t) (iblk m c 2 t) (iblk m c 4 t)) s0 := by
  unfold lastLeaves
  dsimp only
  unfold readBack
  rw [View.read_writes_eq_canon _ _ _ (coverLastOut6 m c t h0 h1 s0 s1 s2)]
  unfold lastAt runLast
  dsimp only
  sl_unfold_words
  rw [View.canon_unit_zero (S := S1x1x1) hz3, View.readCov_unit_zero (S := S1x1x1) _ hz3]
  simp only [View.readAt_eq_ld, Memref.IsWhole.read_unread, View.ld_unit_zero (S := S256x128) hz2, View.ld_unit_zero (S := S8192x128) hz2, View.ld_unit_zero (S := S1x8192) hz2, View.ld_unit_zero (S := S1x1x1) hz3]
  exact congrArg (fun s => k0_pay12 (k0_pay11 (iblk m c 0 t) (iblk m c 2 t) (iblk m c 4 t)) s) ((Memref.isWhole_whole cc0_scratch0).read_unread s0)

/-- At a row's last point output 7 receives the copy of accumulator 1 made after its update: the same value. -/
theorem lastLeaves_out7 (c : Dev nD) (t : Fin cfg0.N) (h0 : ¬t.val % 16 = 0) (h1 : t.val % 16 = 15) (s0 s1 s2 : Vec F S1x1x1 .f32) :
    (lastLeaves m c t h0 h1 s0 s1 s2).2.1 = k0_pay13 (k0_pay6 (iblk m c 1 t)) (k0_pay7 (iblk m c 3 t)) (k0_pay8 (iblk m c 5 t)) (k0_pay10 (iblk m c 1 t)) s1 := by
  unfold lastLeaves
  dsimp only
  unfold readBack
  rw [View.read_writes_eq_canon _ _ _ (coverLastOut7 m c t h0 h1 s0 s1 s2)]
  unfold lastAt runLast
  dsimp only
  sl_unfold_words
  rw [View.canon_unit_zero (S := S1x1x1) hz3, View.readCov_unit_zero (S := S1x1x1) _ hz3]
  simp only [View.readAt_eq_ld, Memref.IsWhole.read_unread, View.ld_unit_zero (S := S256x128) hz2, View.ld_unit_zero (S := S8192x128) hz2, View.ld_unit_zero (S := S1x8192) hz2, View.ld_unit_zero (S := S1x1x1) hz3]
  exact congrArg (fun s => k0_pay13 (k0_pay6 (iblk m c 1 t)) (k0_pay7 (iblk m c 3 t)) (k0_pay8 (iblk m c 5 t)) (k0_pay10 (iblk m c 1 t)) s) ((Memref.isWhole_whole cc0_scratch1).read_unread s1)

/-- At a row's last point output 8 receives the copy of accumulator 2 made after its update: the same value. -/
theorem lastLeaves_out8 (c : Dev nD) (t : Fin cfg0.N) (h0 : ¬t.val % 16 = 0) (h1 : t.val % 16 = 15) (s0 s1 s2 : Vec F S1x1x1 .f32) :
    (lastLeaves m c t h0 h1 s0 s1 s2).2.2.1 = k0_pay1 (k0_pay14 (k0_pay5 (iblk m c 0 t)) (k0_pay7 (iblk m c 3 t)) (k0_pay8 (iblk m c 5 t)) (k0_pay9 (iblk m c 0 t))) s2 := by
  unfold lastLeaves
  dsimp only
  unfold readBack
  rw [View.read_writes_eq_canon _ _ _ (coverLastOut8 m c t h0 h1 s0 s1 s2)]
  unfold lastAt runLast
  dsimp only
  sl_unfold_words
  rw [View.canon_unit_zero (S := S1x1x1) hz3, View.readCov_unit_zero (S := S1x1x1) _ hz3]
  simp only [View.readAt_eq_ld, Memref.IsWhole.read_unread, View.ld_unit_zero (S := S256x128) hz2, View.ld_unit_zero (S := S8192x128) hz2, View.ld_unit_zero (S := S1x8192) hz2, View.ld_unit_zero (S := S1x1x1) hz3]
  exact congrArg (fun s => k0_pay1 (k0_pay14 (k0_pay5 (iblk m c 0 t)) (k0_pay7 (iblk m c 3 t)) (k0_pay8 (iblk m c 5 t)) (k0_pay9 (iblk m c 0 t))) s) ((Memref.isWhole_whole cc0_scratch2).read_unread s2)

end Cert.KernelIdeal.Mmd

end
-- ==== Proof.Blocks.lean ====
/-
  Where the windows' blocks sit, and each input block as the region's entry arrays restricted to it.

  Grid point `t` (of 32) has coordinates (t / 16, t % 16). The two streamed windows (0, 1) take block 16·(t/16) + t%16 = t
  of 256 rows; the four resident windows (2 … 5) always take their whole array; the three result windows (6, 7, 8)
  take the one-entry block t / 16 of their [2, 1, 1] array. A block's coordinate is always index × size + offset.
-/
import proofs.«136887_j59356448031516_2_alg».proof.Proof.Entry
import Idealize.ShloMosaic.Lib.ValueIdx
import Idealize.ShloMosaic.Lib.Pipeline.Value

noncomputable section

namespace Cert.KernelIdeal.Mmd

open Idealize.ShloMosaic Idealize.ShloMosaic.TcCoe
open Idealize.SL Idealize.SL.RA Idealize.SL.Sem
open Cert.KernelIdeal Cert.KernelIdeal.Gen

variable {F : FTy → Type} [FloatOps F]
variable (m : (ℓ : Loc nD τ sig) → Buf (Elt F) ℓ)

/-- The printed index maps in closed form, decided over the grid. -/
theorem idx_streamed : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

theorem idx_resident : ∀ t : Fin cfg0.N, win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0 :=
  (by decide +kernel : ∀ t : Fin grid0.N, _)

theorem idx_results : ∀ t : Fin cfg0.N, win0_6.index t (0 : Fin 3) = t.val / 16 ∧ win0_6.index t (1 : Fin 3) = 0 ∧ win0_6.index t (2 : Fin 3) = 0
    ∧ win0_7.index t (0 : Fin 3) = t.val / 16 ∧ win0_7.index t (1 : Fin 3) = 0 ∧ win0_7.index t (2 : Fin 3) = 0
    ∧ win0_8.index t (0 : Fin 3) = t.val / 16 ∧ win0_8.index t (1 : Fin 3) = 0 ∧ win0_8.index t (2 : Fin 3) = 0 :=
  (by decide +kernel : ∀ t : Fin grid0.N, _)

/-- The streamed tile of the first rounded array at point `t`: its rows 256·t … 256·t + 255. -/
theorem iblk0_apply (c : Dev nD) (t : Fin cfg0.N) (y : S256x128.Idx) (i : S8192x128.Idx)
    (h0 : (i 0).val = t.val * 256 + (y 0).val) (h1 : (i 1).val = (y 1).val) :
    iblk m c 0 t y = V m c main_v0 i := by
  obtain ⟨e0, e1, -, -⟩ := idx_streamed t
  show V m c main_v0 (((cfg0.win 0).blk t).view.emb y) = V m c main_v0 i
  congr 1
  funext a; apply Fin.ext
  match a with
  | ⟨0, _⟩ => show win0_0.index t (0 : Fin 2) * 256 + 1 * (y 0).val = (i 0).val; omega
  | ⟨1, _⟩ => show win0_0.index t (1 : Fin 2) * 128 + 1 * (y 1).val = (i 1).val; omega

/-- The streamed tile of the second rounded array at point `t`. -/
theorem iblk1_apply (c : Dev nD) (t : Fin cfg0.N) (y : S256x128.Idx) (i : S8192x128.Idx)
    (h0 : (i 0).val = t.val * 256 + (y 0).val) (h1 : (i 1).val = (y 1).val) :
    iblk m c 1 t y = V m c main_v1 i := by
  obtain ⟨-, -, e0, e1⟩ := idx_streamed t
  show V m c main_v1 (((cfg0.win 1).blk t).view.emb y) = V m c main_v1 i
  congr 1
  funext a; apply Fin.ext
  match a with
  | ⟨0, _⟩ => show win0_1.index t (0 : Fin 2) * 256 + 1 * (y 0).val = (i 0).val; omega
  | ⟨1, _⟩ => show win0_1.index t (1 : Fin 2) * 128 + 1 * (y 1).val = (i 1).val; omega

/-- A resident window's block is its whole array, at every point. -/
theorem iblk2_eq (c : Dev nD) (t : Fin cfg0.N) : iblk m c 2 t = V m c main_v0 := by
  obtain ⟨e0, e1, -, -, -, -, -, -⟩ := idx_resident t
  funext y
  show V m c main_v0 (((cfg0.win 2).blk t).view.emb y) = V m c main_v0 y
  congr 1
  funext a; apply Fin.ext
  match a with
  | ⟨0, _⟩ => show win0_2.index t (0 : Fin 2) * 8192 + 1 * (y 0).val = (y 0).val; omega
  | ⟨1, _⟩ => show win0_2.index t (1 : Fin 2) * 128 + 1 * (y 1).val = (y 1).val; omega

theorem iblk3_eq (c : Dev nD) (t : Fin cfg0.N) : iblk m c 3 t = V m c main_v1 := by
  obtain ⟨-, -, e0, e1, -, -, -, -⟩ := idx_resident t
  funext y
  show V m c main_v1 (((cfg0.win 3).blk t).view.emb y) = V m c main_v1 y
  congr 1
  funext a; apply Fin.ext
  match a with
  | ⟨0, _⟩ => show win0_3.index t (0 : Fin 2) * 8192 + 1 * (y 0).val = (y 0).val; omega
  | ⟨1, _⟩ => show win0_3.index t (1 : Fin 2) * 128 + 1 * (y 1).val = (y 1).val; omega

theorem iblk4_eq (c : Dev nD) (t : Fin cfg0.N) : iblk m c 4 t = V m c main_v9 := by
  obtain ⟨-, -, -, -, e0, e1, -, -⟩ := idx_resident t
  funext y
  show V m c main_v9 (((cfg0.win 4).blk t).view.emb y) = V m c main_v9 y
  congr 1
  funext a; apply Fin.ext
  match a with
  | ⟨0, _⟩ => show win0_4.index t (0 : Fin 2) * 1 + 1 * (y 0).val = (y 0).val; omega
  | ⟨1, _⟩ => show win0_4.index t (1 : Fin 2) * 8192 + 1 * (y 1).val = (y 1).val; omega

theorem iblk5_eq (c : Dev nD) (t : Fin cfg0.N) : iblk m c 5 t = V m c main_v15 := by
  obtain ⟨-, -, -, -, -, -, e0, e1⟩ := idx_resident t
  funext y
  show V m c main_v15 (((cfg0.win 5).blk t).view.emb y) = V m c main_v15 y
  congr 1
  funext a; apply Fin.ext
  match a with
  | ⟨0, _⟩ => show win0_5.index t (0 : Fin 2) * 1 + 1 * (y 0).val = (y 0).val; omega
  | ⟨1, _⟩ => show win0_5.index t (1 : Fin 2) * 8192 + 1 * (y 1).val = (y 1).val; omega

end Cert.KernelIdeal.Mmd

end
-- ==== Proof.OutValue.lean ====
/-
  The three result arrays after the region: entry (c, 0, 0) of each is what the LAST point of grid row `c` (point
  16·c + 15) stored into the window's one-entry staging buffer, since a result window is written back exactly at a
  row's last point, at block index c, and the two blocks tile the [2, 1, 1] array.
-/
import proofs.«136887_j59356448031516_2_alg».proof.Proof.Blocks
import proofs.«136887_j59356448031516_2_alg».proof.Proof.BodyData

noncomputable section

namespace Cert.KernelIdeal.Mmd

open Idealize.ShloMosaic Idealize.ShloMosaic.TcCoe
open Idealize.SL Idealize.SL.RA Idealize.SL.Sem
open Idealize.ShloMosaic.Pipeline (Dat Cfg Window)
open Cert.KernelIdeal Cert.KernelIdeal.Gen

variable {F : FTy → Type} [FloatOps F]
variable (m : (ℓ : Loc nD τ sig) → Buf (Elt F) ℓ)

/-- The recursion's value depends on the point only. -/
theorem sumsAt_congr (c : Dev nD) {n n' : ℕ} (h : n = n') (hn : n < cfg0.N) (hn' : n' < cfg0.N) :
    sumsAt m c n hn = sumsAt m c n' hn' := by subst h; rfl

theorem rowEnd_lt (i : S2x1x1.Idx) : 16 * (i 0).val + 15 < cfg0.N := by
  have h : (i 0).val < 2 := (i 0).isLt
  have hN : cfg0.N = 32 := N_0
  omega

/-- The one index of a [1, 1, 1] block. -/
theorem cell_idx (y : S1x1x1.Idx) : y = ValueIdx.ix3 (0 : Fin 1) (0 : Fin 1) (0 : Fin 1) := by
  funext a; apply Fin.ext
  match a with
  | ⟨0, _⟩ => have h : (y 0).val < 1 := (y 0).isLt; show (y 0).val = 0; omega
  | ⟨1, _⟩ => have h : (y 1).val < 1 := (y 1).isLt; show (y 1).val = 0; omega
  | ⟨2, _⟩ => have h : (y 2).val < 1 := (y 2).isLt; show (y 2).val = 0; omega

/-! ### Result window 6 -/

/-- What result array 0 ends holding: at (c, 0, 0), what point 16·c + 15 left in the window's staging buffer. -/
def result6 (c : Dev nD) : S2x1x1.Idx → Elt F .f32 := fun i =>
  (sumsAt m c (16 * (i 0).val + 15) (rowEnd_lt i)).1 (ValueIdx.ix3 (0 : Fin 1) (0 : Fin 1) (0 : Fin 1))

/-- An index of the array is in point `t`'s block iff each coordinate is in the block's range on its axis. -/
theorem mem_blk6 (t : Fin cfg0.N) (i : S2x1x1.Idx) :
    i ∈ ((cfg0.win 6).blk t).view.set ↔ ∀ a : Fin 3, win0_6.index t a * S1x1x1.size a ≤ (i a).val ∧ (i a).val < win0_6.index t a * S1x1x1.size a + S1x1x1.size a := by
  show i ∈ ((View.whole main_v16_0).slice (win0_6.rect t)).set ↔ _
  rw [View.set_slice_whole, Rect.mem_set_unit]
  exact Iff.rfl

/-- WHAT A ROW'S LAST POINT WRITES BACK is its block of `result6`. -/
theorem flushed6_eq (c : Dev nD) (t : Fin cfg0.N) (hf : (cfg0.win 6).flush t = true) :
    (dats m 0 c).flushed 6 t = ((cfg0.win 6).blk t).view.read (Elt F) (result6 m c) := by
  have h15 : t.val % 16 = 15 := (flush0_6 t).mp hf
  obtain ⟨e6, -, -, e7, -, -, e8, -, -⟩ := idx_results t
  show (cfg0.win 6).cut (grid0.coords t) ((dats m 0 c).after 6 t) = _
  rw [after_out6]
  funext y
  have hy0 : (y 0).val < 1 := (y 0).isLt
  have he : (((cfg0.win 6).blk t).view.emb y 0).val = win0_6.index t (0 : Fin 3) * 1 + 1 * (y 0).val := rfl
  have e : 16 * (((cfg0.win 6).blk t).view.emb y 0).val + 15 = t.val := by rw [he]; omega
  show (sumsAt m c t.val t.isLt).1 y = (sumsAt m c (16 * (((cfg0.win 6).blk t).view.emb y 0).val + 15) (rowEnd_lt _)).1 (ValueIdx.ix3 (0 : Fin 1) (0 : Fin 1) (0 : Fin 1))
  rw [sumsAt_congr m c e (rowEnd_lt _) t.isLt, cell_idx y]

/-- Every index of the array is in the block of its row's last point. -/
theorem cover6 (i : S2x1x1.Idx) : ∃ t : Fin cfg0.N, (cfg0.win 6).flush t = true ∧ i ∈ ((cfg0.win 6).blk t).view.set := by
  have h0 : (i 0).val < 2 := (i 0).isLt
  have h1 : (i 1).val < 1 := (i 1).isLt
  have h2 : (i 2).val < 1 := (i 2).isLt
  refine ⟨⟨16 * (i 0).val + 15, rowEnd_lt i⟩, (flush0_6 _).mpr (by show (16 * (i 0).val + 15) % 16 = 15; omega), ?_⟩
  obtain ⟨e6a, e6b, e6c, e7a, e7b, e7c, e8a, e8b, e8c⟩ := idx_results ⟨16 * (i 0).val + 15, rowEnd_lt i⟩
  rw [mem_blk6]
  intro a
  match a with
  | ⟨0, _⟩ => show win0_6.index _ (0 : Fin 3) * 1 ≤ (i 0).val ∧ (i 0).val < win0_6.index _ (0 : Fin 3) * 1 + 1; simp only [] at e6a; omega
  | ⟨1, _⟩ => show win0_6.index _ (1 : Fin 3) * 1 ≤ (i 1).val ∧ (i 1).val < win0_6.index _ (1 : Fin 3) * 1 + 1; omega
  | ⟨2, _⟩ => show win0_6.index _ (2 : Fin 3) * 1 ≤ (i 2).val ∧ (i 2).val < win0_6.index _ (2 : Fin 3) * 1 + 1; omega

/-- THE ARRAY after the region. -/
theorem final6 (c : Dev nD) : (dats m 0 c).arrAt 6 cfg0.N = result6 m c :=
  (dats m 0 c).arrAt_eq_of_cover 6 (result6 m c) (fun t hf => flushed6_eq m c t hf) (cover6)

/-! ### Result window 7 -/

/-- What result array 1 ends holding: at (c, 0, 0), what point 16·c + 15 left in the window's staging buffer. -/
def result7 (c : Dev nD) : S2x1x1.Idx → Elt F .f32 := fun i =>
  (sumsAt m c (16 * (i 0).val + 15) (rowEnd_lt i)).2.1 (ValueIdx.ix3 (0 : Fin 1) (0 : Fin 1) (0 : Fin 1))

/-- An index of the array is in point `t`'s block iff each coordinate is in the block's range on its axis. -/
theorem mem_blk7 (t : Fin cfg0.N) (i : S2x1x1.Idx) :
    i ∈ ((cfg0.win 7).blk t).view.set ↔ ∀ a : Fin 3, win0_7.index t a * S1x1x1.size a ≤ (i a).val ∧ (i a).val < win0_7.index t a * S1x1x1.size a + S1x1x1.size a := by
  show i ∈ ((View.whole main_v16_1).slice (win0_7.rect t)).set ↔ _
  rw [View.set_slice_whole, Rect.mem_set_unit]
  exact Iff.rfl

/-- WHAT A ROW'S LAST POINT WRITES BACK is its block of `result7`. -/
theorem flushed7_eq (c : Dev nD) (t : Fin cfg0.N) (hf : (cfg0.win 7).flush t = true) :
    (dats m 0 c).flushed 7 t = ((cfg0.win 7).blk t).view.read (Elt F) (result7 m c) := by
  have h15 : t.val % 16 = 15 := (flush0_7 t).mp hf
  obtain ⟨e6, -, -, e7, -, -, e8, -, -⟩ := idx_results t
  show (cfg0.win 7).cut (grid0.coords t) ((dats m 0 c).after 7 t) = _
  rw [after_out7]
  funext y
  have hy0 : (y 0).val < 1 := (y 0).isLt
  have he : (((cfg0.win 7).blk t).view.emb y 0).val = win0_7.index t (0 : Fin 3) * 1 + 1 * (y 0).val := rfl
  have e : 16 * (((cfg0.win 7).blk t).view.emb y 0).val + 15 = t.val := by rw [he]; omega
  show (sumsAt m c t.val t.isLt).2.1 y = (sumsAt m c (16 * (((cfg0.win 7).blk t).view.emb y 0).val + 15) (rowEnd_lt _)).2.1 (ValueIdx.ix3 (0 : Fin 1) (0 : Fin 1) (0 : Fin 1))
  rw [sumsAt_congr m c e (rowEnd_lt _) t.isLt, cell_idx y]

/-- Every index of the array is in the block of its row's last point. -/
theorem cover7 (i : S2x1x1.Idx) : ∃ t : Fin cfg0.N, (cfg0.win 7).flush t = true ∧ i ∈ ((cfg0.win 7).blk t).view.set := by
  have h0 : (i 0).val < 2 := (i 0).isLt
  have h1 : (i 1).val < 1 := (i 1).isLt
  have h2 : (i 2).val < 1 := (i 2).isLt
  refine ⟨⟨16 * (i 0).val + 15, rowEnd_lt i⟩, (flush0_7 _).mpr (by show (16 * (i 0).val + 15) % 16 = 15; omega), ?_⟩
  obtain ⟨e6a, e6b, e6c, e7a, e7b, e7c, e8a, e8b, e8c⟩ := idx_results ⟨16 * (i 0).val + 15, rowEnd_lt i⟩
  rw [mem_blk7]
  intro a
  match a with
  | ⟨0, _⟩ => show win0_7.index _ (0 : Fin 3) * 1 ≤ (i 0).val ∧ (i 0).val < win0_7.index _ (0 : Fin 3) * 1 + 1; simp only [] at e7a; omega
  | ⟨1, _⟩ => show win0_7.index _ (1 : Fin 3) * 1 ≤ (i 1).val ∧ (i 1).val < win0_7.index _ (1 : Fin 3) * 1 + 1; omega
  | ⟨2, _⟩ => show win0_7.index _ (2 : Fin 3) * 1 ≤ (i 2).val ∧ (i 2).val < win0_7.index _ (2 : Fin 3) * 1 + 1; omega

/-- THE ARRAY after the region. -/
theorem final7 (c : Dev nD) : (dats m 0 c).arrAt 7 cfg0.N = result7 m c :=
  (dats m 0 c).arrAt_eq_of_cover 7 (result7 m c) (fun t hf => flushed7_eq m c t hf) (cover7)

/-! ### Result window 8 -/

/-- What result array 2 ends holding: at (c, 0, 0), what point 16·c + 15 left in the window's staging buffer. -/
def result8 (c : Dev nD) : S2x1x1.Idx → Elt F .f32 := fun i =>
  (sumsAt m c (16 * (i 0).val + 15) (rowEnd_lt i)).2.2.1 (ValueIdx.ix3 (0 : Fin 1) (0 : Fin 1) (0 : Fin 1))

/-- An index of the array is in point `t`'s block iff each coordinate is in the block's range on its axis. -/
theorem mem_blk8 (t : Fin cfg0.N) (i : S2x1x1.Idx) :
    i ∈ ((cfg0.win 8).blk t).view.set ↔ ∀ a : Fin 3, win0_8.index t a * S1x1x1.size a ≤ (i a).val ∧ (i a).val < win0_8.index t a * S1x1x1.size a + S1x1x1.size a := by
  show i ∈ ((View.whole main_v16_2).slice (win0_8.rect t)).set ↔ _
  rw [View.set_slice_whole, Rect.mem_set_unit]
  exact Iff.rfl

/-- WHAT A ROW'S LAST POINT WRITES BACK is its block of `result8`. -/
theorem flushed8_eq (c : Dev nD) (t : Fin cfg0.N) (hf : (cfg0.win 8).flush t = true) :
    (dats m 0 c).flushed 8 t = ((cfg0.win 8).blk t).view.read (Elt F) (result8 m c) := by
  have h15 : t.val % 16 = 15 := (flush0_8 t).mp hf
  obtain ⟨e6, -, -, e7, -, -, e8, -, -⟩ := idx_results t
  show (cfg0.win 8).cut (grid0.coords t) ((dats m 0 c).after 8 t) = _
  rw [after_out8]
  funext y
  have hy0 : (y 0).val < 1 := (y 0).isLt
  have he : (((cfg0.win 8).blk t).view.emb y 0).val = win0_8.index t (0 : Fin 3) * 1 + 1 * (y 0).val := rfl
  have e : 16 * (((cfg0.win 8).blk t).view.emb y 0).val + 15 = t.val := by rw [he]; omega
  show (sumsAt m c t.val t.isLt).2.2.1 y = (sumsAt m c (16 * (((cfg0.win 8).blk t).view.emb y 0).val + 15) (rowEnd_lt _)).2.2.1 (ValueIdx.ix3 (0 : Fin 1) (0 : Fin 1) (0 : Fin 1))
  rw [sumsAt_congr m c e (rowEnd_lt _) t.isLt, cell_idx y]

/-- Every index of the array is in the block of its row's last point. -/
theorem cover8 (i : S2x1x1.Idx) : ∃ t : Fin cfg0.N, (cfg0.win 8).flush t = true ∧ i ∈ ((cfg0.win 8).blk t).view.set := by
  have h0 : (i 0).val < 2 := (i 0).isLt
  have h1 : (i 1).val < 1 := (i 1).isLt
  have h2 : (i 2).val < 1 := (i 2).isLt
  refine ⟨⟨16 * (i 0).val + 15, rowEnd_lt i⟩, (flush0_8 _).mpr (by show (16 * (i 0).val + 15) % 16 = 15; omega), ?_⟩
  obtain ⟨e6a, e6b, e6c, e7a, e7b, e7c, e8a, e8b, e8c⟩ := idx_results ⟨16 * (i 0).val + 15, rowEnd_lt i⟩
  rw [mem_blk8]
  intro a
  match a with
  | ⟨0, _⟩ => show win0_8.index _ (0 : Fin 3) * 1 ≤ (i 0).val ∧ (i 0).val < win0_8.index _ (0 : Fin 3) * 1 + 1; simp only [] at e8a; omega
  | ⟨1, _⟩ => show win0_8.index _ (1 : Fin 3) * 1 ≤ (i 1).val ∧ (i 1).val < win0_8.index _ (1 : Fin 3) * 1 + 1; omega
  | ⟨2, _⟩ => show win0_8.index _ (2 : Fin 3) * 1 ≤ (i 2).val ∧ (i 2).val < win0_8.index _ (2 : Fin 3) * 1 + 1; omega

/-- THE ARRAY after the region. -/
theorem final8 (c : Dev nD) : (dats m 0 c).arrAt 8 cfg0.N = result8 m c :=
  (dats m 0 c).arrAt_eq_of_cover 8 (result8 m c) (fun t hf => flushed8_eq m c t hf) (cover8)

end Cert.KernelIdeal.Mmd

end
-- ==== Proof.Spec.lean ====
/-
  The mathematics of the MMD loss with a Gaussian kernel over two point clouds x, y of 8192 points in
  dimension 128, on the extended reals, with no program in sight.

  For point clouds a, b write  nrm a i = Σ_k a(i,k)²  and  dot a b i j = Σ_k a(i,k)·b(j,k).  The squared distance of
  a_i and b_j is  nrm a i + nrm b j − 2·dot a b i j,  and the loss is
        mean_{i,j} e^{−|x_i−x_j|²} + mean_{i,j} e^{−|y_i−y_j|²} − 2·mean_{i,j} e^{−|x_i−y_j|²},
  every mean a sum of 8192² = 2²⁶ terms divided by 2²⁶.

  Two arrangements of that one number are stated here.  The first (Rpair, Gref) sums e^{−1·((nrm a i + nrm b j) − 2·dot a b i j)}
  over all pairs (i, j), divides each of the three sums, and doubles the third quotient.  The second (Kpair, Gker) cuts
  the first index into 2 × 16 slabs of 256 rows, i = (16c + t)·256 + r, writes the exponent as
  (2·dot a b i j + (−1)·nrm a i) + (−1)·nrm b j, and doubles the third sum before dividing it.
  On the extended reals the two exponents differ when a norm is infinite (−1 does not distribute over ∞ − ∞), so the
  law  Gref = Gker  is stated for clouds whose every entry is a real, and proved by carrying every quantity down
  to ℝ: there the slabs re-index all rows (rowEquiv), the exponents agree by ring, and dividing by 2²⁶ ≠ 0 is
  multiplying by its reciprocal.
-/
import Idealize.ShloMosaic.PureOps.Ideal
import Idealize.ShloMosaic.PureOps.Ideal.Laws
import Idealize.ShloMosaic.Lib.ValueIdx

noncomputable section

open scoped BigOperators

namespace Cert.MmdSpec

open Idealize.ShloMosaic

/-- A cloud of 8192 points in dimension 128, entries extended reals. -/
abbrev Mat : Type := Fin 8192 → Fin 128 → EReal

/-- The same with real entries. -/
abbrev RMat : Type := Fin 8192 → Fin 128 → ℝ

/-- A flat rank-2 array read as a cloud: entry (i, k) is the array at the index with coordinates i, k. -/
def mat (x : (⟨2, ![8192, 128]⟩ : Shape).Idx → EReal) : Mat := fun i k => x (ValueIdx.ix2 i k)

/-- A real cloud among the extended-real ones. -/
def ofR (a : RMat) : Mat := fun i k => ((a i k : ℝ) : EReal)

/-! ## The two arrangements, on the extended reals -/

/-- The squared norm of point i. -/
def nrm (a : Mat) (i : Fin 8192) : EReal := ∑ k : Fin 128, a i k * a i k

/-- The inner product of point i of a with point j of b. -/
def dot (a b : Mat) (i j : Fin 8192) : EReal := ∑ k : Fin 128, a i k * b j k

/-- Row r of slab t of half c: (16c + t)·256 + r. -/
def row (c : Fin 2) (t : Fin 16) (r : Fin 256) : Fin 8192 :=
  ⟨(16 * c.val + t.val) * 256 + r.val, by have := c.isLt; have := t.isLt; have := r.isLt; omega⟩

/-- One Gaussian term, the exponent written as the slabbed arrangement writes it:
    (2·dot + (−1)·nrm a i) + (−1)·nrm b j. -/
def kerTerm (a b : Mat) (i j : Fin 8192) : EReal :=
  Ideal.exp ((Ideal.ofBits .f32 0x40000000#32 * dot a b i j + Ideal.ofBits .f32 0xBF800000#32 * nrm a i)
    + Ideal.ofBits .f32 0xBF800000#32 * nrm b j)

/-- One Gaussian term, the exponent written as minus the squared distance: (−1)·((nrm a i + nrm b j) − 2·dot). -/
def refTerm (a b : Mat) (i j : Fin 8192) : EReal :=
  Ideal.exp (Ideal.ofBits .f32 0xBF800000#32 * ((nrm a i + nrm b j) - Ideal.ofBits .f32 0x40000000#32 * dot a b i j))

/-- The sum of all Gaussian terms of a pair of clouds, slab by slab: halves, slabs of a half, rows of a slab, then all
    points of the second cloud. -/
def Kpair (a b : Mat) : EReal :=
  ∑ c : Fin 2, ∑ t : Fin 16, ∑ r : Fin 256, ∑ j : Fin 8192, kerTerm a b (row c t r) j

/-- The sum of all Gaussian terms of a pair of clouds, over all pairs of points. -/
def Rpair (a b : Mat) : EReal := ∑ i : Fin 8192, ∑ j : Fin 8192, refTerm a b i j

/-- The loss in the slabbed arrangement: the cross sum is doubled, then divided by 2²⁶. -/
def Gker (x y : Mat) : EReal :=
  (Ideal.div (Kpair x x) (Ideal.ofBits .f32 0x4C800000#32) + Ideal.div (Kpair y y) (Ideal.ofBits .f32 0x4C800000#32))
    - Ideal.div (Ideal.ofBits .f32 0x40000000#32 * Kpair x y) (Ideal.ofBits .f32 0x4C800000#32)

/-- The loss in the all-pairs arrangement: the cross sum is divided by 2²⁶, then doubled. -/
def Gref (x y : Mat) : EReal :=
  (Ideal.div (Rpair x x) (Ideal.ofBits .f32 0x4C800000#32) + Ideal.div (Rpair y y) (Ideal.ofBits .f32 0x4C800000#32))
    - Ideal.ofBits .f32 0x40000000#32 * Ideal.div (Rpair x y) (Ideal.ofBits .f32 0x4C800000#32)

/-! ## The three float words the algebra needs the value of -/

/-- The word 0xBF800000 denotes −1. -/
theorem ofBits_negOne : Ideal.ofBits .f32 0xBF800000#32 = ((-1 : ℝ) : EReal) := by
  simp [Ideal.ofBits, Ideal.ieee, -EReal.coe_mul]; norm_num

/-- The word 0x40000000 denotes 2. -/
theorem ofBits_two : Ideal.ofBits .f32 0x40000000#32 = ((2 : ℝ) : EReal) := by
  simp [Ideal.ofBits, Ideal.ieee, -EReal.coe_mul]; norm_num

/-- The word 0x4C800000 denotes 2²⁶ = 8192². -/
theorem ofBits_count : Ideal.ofBits .f32 0x4C800000#32 = ((67108864 : ℝ) : EReal) := by
  simp [Ideal.ofBits, Ideal.ieee, -EReal.coe_mul]; norm_num

/-! ## Sums of reals are reals -/

/-- A finite sum of reals, taken on the extended reals, is the real sum. -/
theorem coe_sum {ι : Type*} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, ih, EReal.coe_add]

/-! ## The slabs re-index the rows -/

/-- Half, slab and row within the slab determine a row of the cloud, and every row arises once. -/
def rowEquiv : Fin 2 × Fin 16 × Fin 256 ≃ Fin 8192 where
  toFun p := row p.1 p.2.1 p.2.2
  invFun i := (⟨i.val / 4096, by have := i.isLt; omega⟩, ⟨i.val / 256 % 16, by omega⟩, ⟨i.val % 256, by omega⟩)
  left_inv := by
    rintro ⟨c, t, r⟩
    have hc := c.isLt; have ht := t.isLt; have hr := r.isLt
    refine Prod.ext (Fin.ext ?_) (Prod.ext (Fin.ext ?_) (Fin.ext ?_))
    · show ((16 * c.val + t.val) * 256 + r.val) / 4096 = c.val; omega
    · show ((16 * c.val + t.val) * 256 + r.val) / 256 % 16 = t.val; omega
    · show ((16 * c.val + t.val) * 256 + r.val) % 256 = r.val; omega
  right_inv := by
    intro i
    have hi := i.isLt
    refine Fin.ext ?_
    show (16 * (i.val / 4096) + i.val / 256 % 16) * 256 + i.val % 256 = i.val
    omega

/-- Summing slab by slab is summing over all rows. -/
theorem sum_row {M : Type*} [AddCommMonoid M] (f : Fin 8192 → M) :
    ∑ c : Fin 2, ∑ t : Fin 16, ∑ r : Fin 256, f (row c t r) = ∑ i : Fin 8192, f i := by
  rw [← Equiv.sum_comp rowEquiv f, Fintype.sum_prod_type]
  refine Finset.sum_congr rfl fun c _ => ?_
  rw [Fintype.sum_prod_type]
  rfl

/-! ## The same quantities over ℝ -/

/-- The squared norm of point i, real. -/
def nrmR (a : RMat) (i : Fin 8192) : ℝ := ∑ k : Fin 128, a i k * a i k

/-- The inner product of point i of a with point j of b, real. -/
def dotR (a b : RMat) (i j : Fin 8192) : ℝ := ∑ k : Fin 128, a i k * b j k

/-- The slabbed arrangement's exponent, real. -/
def kerExpR (a b : RMat) (i j : Fin 8192) : ℝ := (2 * dotR a b i j + (-1) * nrmR a i) + (-1) * nrmR b j

/-- The all-pairs arrangement's exponent, real. -/
def refExpR (a b : RMat) (i j : Fin 8192) : ℝ := (-1) * ((nrmR a i + nrmR b j) - 2 * dotR a b i j)

/-- The slabbed sum, real. -/
def KpairR (a b : RMat) : ℝ :=
  ∑ c : Fin 2, ∑ t : Fin 16, ∑ r : Fin 256, ∑ j : Fin 8192, Real.exp (kerExpR a b (row c t r) j)

/-- The all-pairs sum, real. -/
def RpairR (a b : RMat) : ℝ := ∑ i : Fin 8192, ∑ j : Fin 8192, Real.exp (refExpR a b i j)

/-- Both exponents are minus the squared distance. -/
theorem kerExpR_eq_refExpR (a b : RMat) (i j : Fin 8192) : kerExpR a b i j = refExpR a b i j := by
  unfold kerExpR refExpR; ring

/-- Over ℝ the two sums are one number. -/
theorem KpairR_eq_RpairR (a b : RMat) : KpairR a b = RpairR a b := by
  unfold KpairR RpairR
  rw [sum_row (fun i => ∑ j : Fin 8192, Real.exp (kerExpR a b i j))]
  exact Finset.sum_congr rfl fun i _ => Finset.sum_congr rfl fun j _ => by rw [kerExpR_eq_refExpR]

/-! ## Real clouds: every quantity of either arrangement is a real -/

/-- A cloud whose every entry is a real is a real cloud. -/
theorem exists_ofR (x : Mat) (hx : ∀ i k, ∃ r : ℝ, x i k = (r : EReal)) : ∃ a : RMat, x = ofR a := by
  choose a ha using hx
  exact ⟨a, funext fun i => funext fun k => ha i k⟩

theorem nrm_ofR (a : RMat) (i : Fin 8192) : nrm (ofR a) i = ((nrmR a i : ℝ) : EReal) := by
  unfold nrm nrmR ofR
  rw [← coe_sum]
  exact Finset.sum_congr rfl fun k _ => (EReal.coe_mul _ _).symm

theorem dot_ofR (a b : RMat) (i j : Fin 8192) : dot (ofR a) (ofR b) i j = ((dotR a b i j : ℝ) : EReal) := by
  unfold dot dotR ofR
  rw [← coe_sum]
  exact Finset.sum_congr rfl fun k _ => (EReal.coe_mul _ _).symm

/-- The slabbed exponent of real clouds is a real … -/
theorem kerExp_ofR (a b : RMat) (i j : Fin 8192) :
    (Ideal.ofBits .f32 0x40000000#32 * dot (ofR a) (ofR b) i j + Ideal.ofBits .f32 0xBF800000#32 * nrm (ofR a) i)
      + Ideal.ofBits .f32 0xBF800000#32 * nrm (ofR b) j = ((kerExpR a b i j : ℝ) : EReal) := by
  rw [ofBits_two, ofBits_negOne, dot_ofR, nrm_ofR, nrm_ofR, ← EReal.coe_mul, ← EReal.coe_mul, ← EReal.coe_mul,
    ← EReal.coe_add, ← EReal.coe_add]
  rfl

/-- … and so is the all-pairs exponent. -/
theorem refExp_ofR (a b : RMat) (i j : Fin 8192) :
    Ideal.ofBits .f32 0xBF800000#32 * ((nrm (ofR a) i + nrm (ofR b) j) - Ideal.ofBits .f32 0x40000000#32 * dot (ofR a) (ofR b) i j)
      = ((refExpR a b i j : ℝ) : EReal) := by
  rw [ofBits_two, ofBits_negOne, dot_ofR, nrm_ofR, nrm_ofR, ← EReal.coe_mul, ← EReal.coe_add, ← EReal.coe_sub,
    ← EReal.coe_mul]
  rfl

theorem kerTerm_ofR (a b : RMat) (i j : Fin 8192) :
    kerTerm (ofR a) (ofR b) i j = ((Real.exp (kerExpR a b i j) : ℝ) : EReal) := by
  unfold kerTerm; rw [kerExp_ofR, Ideal.exp_coe]

theorem refTerm_ofR (a b : RMat) (i j : Fin 8192) :
    refTerm (ofR a) (ofR b) i j = ((Real.exp (refExpR a b i j) : ℝ) : EReal) := by
  unfold refTerm; rw [refExp_ofR, Ideal.exp_coe]

/-- One row's sum of Gaussian terms (a partial sum of either arrangement) is a real. -/
theorem sum_kerTerm_ofR (a b : RMat) (i : Fin 8192) :
    ∑ j : Fin 8192, kerTerm (ofR a) (ofR b) i j = ((∑ j : Fin 8192, Real.exp (kerExpR a b i j) : ℝ) : EReal) := by
  rw [← coe_sum]; exact Finset.sum_congr rfl fun j _ => kerTerm_ofR a b i j

theorem sum_refTerm_ofR (a b : RMat) (i : Fin 8192) :
    ∑ j : Fin 8192, refTerm (ofR a) (ofR b) i j = ((∑ j : Fin 8192, Real.exp (refExpR a b i j) : ℝ) : EReal) := by
  rw [← coe_sum]; exact Finset.sum_congr rfl fun j _ => refTerm_ofR a b i j

theorem Kpair_ofR (a b : RMat) : Kpair (ofR a) (ofR b) = ((KpairR a b : ℝ) : EReal) := by
  unfold Kpair KpairR
  rw [← coe_sum]; refine Finset.sum_congr rfl fun c _ => ?_
  rw [← coe_sum]; refine Finset.sum_congr rfl fun t _ => ?_
  rw [← coe_sum]; refine Finset.sum_congr rfl fun r _ => ?_
  exact sum_kerTerm_ofR a b (row c t r)

theorem Rpair_ofR (a b : RMat) : Rpair (ofR a) (ofR b) = ((RpairR a b : ℝ) : EReal) := by
  unfold Rpair RpairR
  rw [← coe_sum]; exact Finset.sum_congr rfl fun i _ => sum_refTerm_ofR a b i

/-- Dividing by the word for 2²⁶ is multiplying by the real 1/2²⁶. -/
theorem div_count (z : EReal) :
    Ideal.div z (Ideal.ofBits .f32 0x4C800000#32) = z * (((1 / 67108864 : ℝ)) : EReal) := by
  rw [ofBits_count]; exact Ideal.div_coe (by norm_num) z

theorem Gker_ofR (a b : RMat) :
    Gker (ofR a) (ofR b)
      = (((KpairR a a * (1 / 67108864) + KpairR b b * (1 / 67108864)) - (2 * KpairR a b) * (1 / 67108864) : ℝ) : EReal) := by
  unfold Gker
  rw [div_count, div_count, div_count, Kpair_ofR, Kpair_ofR, Kpair_ofR, ofBits_two, ← EReal.coe_mul, ← EReal.coe_mul,
    ← EReal.coe_mul, ← EReal.coe_mul, ← EReal.coe_add, ← EReal.coe_sub]

theorem Gref_ofR (a b : RMat) :
    Gref (ofR a) (ofR b)
      = (((RpairR a a * (1 / 67108864) + RpairR b b * (1 / 67108864)) - 2 * (RpairR a b * (1 / 67108864)) : ℝ) : EReal) := by
  unfold Gref
  rw [div_count, div_count, div_count, Rpair_ofR, Rpair_ofR, Rpair_ofR, ofBits_two, ← EReal.coe_mul, ← EReal.coe_mul,
    ← EReal.coe_mul, ← EReal.coe_mul, ← EReal.coe_add, ← EReal.coe_sub]

/-! ## The law -/

/-- For clouds of real entries the two arrangements of the loss are one extended real (a real, in fact). -/
theorem Gref_eq_Gker (x y : Mat) (hx : ∀ i k, ∃ r : ℝ, x i k = (r : EReal)) (hy : ∀ i k, ∃ r : ℝ, y i k = (r : EReal)) :
    Gref x y = Gker x y := by
  obtain ⟨a, rfl⟩ := exists_ofR x hx
  obtain ⟨b, rfl⟩ := exists_ofR y hy
  rw [Gref_ofR, Gker_ofR, KpairR_eq_RpairR, KpairR_eq_RpairR, KpairR_eq_RpairR]
  congr 1
  ring

end Cert.MmdSpec

end
-- ==== Proof.HostValue.lean ====
/-
  The host operations around the region, read at the ideal instance, from arbitrary buffer contents W.

  Before the region: each argument array is rounded to the narrow format and widened again, which on extended reals
  changes nothing, so the two arrays the region reads are the argument arrays themselves.  The row of negated norms is
  built as the [8192,1] column whose entry r is (−1)·(0 + Σ_k x(r,k)·x(r,k)), then recast to a [1,8192] row; entry
  (0, j) of the row is entry (j, 0) of the column (both sit at position j in row-major order), that is (−1)·nrm x j.

  After the region: each of the three [2,1,1] results is summed over all its indices, which are the two indices
  (c, 0, 0); the first two sums are divided by 2²⁶ and added, the third is doubled, divided, and subtracted.  When
  the entries (c,0,0) are the per-half sums of Gaussian terms, this is the slabbed arrangement of the loss.

  No host operation writes an argument array.
-/
import proofs.«136887_j59356448031516_2_alg».proof.Proof.Gen.KernelIdeal.Launch
import proofs.«136887_j59356448031516_2_alg».proof.Proof.Spec
import Idealize.ShloMosaic.Lib.StableHlo.Run
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.HostValue

open Cert.KernelIdeal Cert.KernelIdeal.Gen Idealize.ShloMosaic Idealize.ShloMosaic.StableHlo
open Idealize.ShloMosaic.ValueIdx Cert.MmdSpec

/-! ## The buffers the host operations read, at their literal types -/

/-- The first argument array. -/
abbrev argX (W : Valuation τ sig (Elt Ideal)) : FVec Ideal S8192x128 .f32 := W (Proc.devRef .tc main_arg0)
/-- The second argument array. -/
abbrev argY (W : Valuation τ sig (Elt Ideal)) : FVec Ideal S8192x128 .f32 := W (Proc.devRef .tc main_arg1)
/-- The region's three result arrays. -/
abbrev out0 (W : Valuation τ sig (Elt Ideal)) : FVec Ideal S2x1x1 .f32 := W (Proc.devRef .tc main_v16_0)
abbrev out1 (W : Valuation τ sig (Elt Ideal)) : FVec Ideal S2x1x1 .f32 := W (Proc.devRef .tc main_v16_1)
abbrev out2 (W : Valuation τ sig (Elt Ideal)) : FVec Ideal S2x1x1 .f32 := W (Proc.devRef .tc main_v16_2)

/-! ## The negated-norm row of an array -/

/-- The column of negated squared norms, recast as a row: the operations' term, as a function of the array. -/
def negNormRow (X : FVec Ideal S8192x128 .f32) : FVec Ideal S1x8192 .f32 :=
  shapeCast S1x8192
    (mulf (broadcastInDim S8192x1 ![] bcast_S_S8192x1 (constant (F := Ideal) S_ .f32 0xBF800000#32))
      (broadcastInDim S8192x1 ![0] bcast_S8192_S8192x1_0
        (Host.reduceAdd (F := Ideal) (mulf X X) (constant (F := Ideal) S_ .f32 0x00000000#32)
          reducesTo_S8192x128_S8192_d1 h_S_)))
    shapeCasts_S8192x1_S1x8192

/-- The sum along a row of the squares, the initial value 0 in front dropped: the squared norm of the point. -/
theorem rowSum_apply (X : FVec Ideal S8192x128 .f32) (j : Fin 8192) :
    Host.reduceAdd (F := Ideal) (mulf X X) (constant (F := Ideal) S_ .f32 0x00000000#32)
      reducesTo_S8192x128_S8192_d1 h_S_ (ix1 j) = nrm (mat X) j := by
  generalize hy : mulf X X = y0
  simp only [Host.reduceAdd, Ideal.hostReduceAdd_def]
  rw [Ideal.hostReduceAdd_single reducesTo_S8192x128_S8192_d1 (by decide)]
  rw [show (constant (F := Ideal) S_ .f32 0x00000000#32) (Shape.Idx.first h_S_) = Ideal.ofBits .f32 0x00000000#32 from rfl,
    Ideal.ofBits_zero_f32, zero_add]
  unfold nrm
  refine Finset.sum_congr rfl fun k _ => ?_
  subst hy
  have e : (Shape.Reduces.lift (s := S8192x128) (t := S8192) (a := 1) (by decide) (ix1 j) k) = ix2 j k :=
    funext fun a => Fin.ext (by match a with | ⟨0, _⟩ => rfl | ⟨1, _⟩ => rfl)
  rw [e]; rfl

/-- Entry (0, j) of the negated-norm row is (−1)·(squared norm of point j). -/
theorem negNormRow_apply (X : FVec Ideal S8192x128 .f32) (j : Fin 8192) :
    negNormRow X (ix2 0 j) = Ideal.ofBits .f32 0xBF800000#32 * nrm (mat X) j := by
  unfold negNormRow
  rw [shapeCast_apply _ shapeCasts_S8192x1_S1x8192 (ix2 (0 : Fin 1) j) (ix2 j (0 : Fin 1)) (by
    rw [Shape.rowMajor_val_two, Shape.rowMajor_val_two]
    show j.val * 1 + 0 = 0 * 8192 + j.val
    omega)]
  rw [mulf_apply,
    broadcastInDim_apply _ bcast_S_S8192x1 _ (ix2 j (0 : Fin 1)) ix0 (fun a => a.elim0),
    broadcastInDim_apply _ bcast_S8192_S8192x1_0 _ (ix2 j (0 : Fin 1)) (ix1 j) (fun a => match a with
      | ⟨0, _⟩ => by show j.val = if (8192 : Nat) = 1 then 0 else j.val; rw [if_neg (by decide)]),
    constant_apply, rowSum_apply]

/-! ## Before the region -/

section Entry

variable (W : Valuation τ sig (Elt Ideal))

/-- The first array the region reads is the first argument array: rounding to the narrow format changes no extended real. -/
theorem entry_v0 :
    (after (hostOps0 (F := Ideal)) W (Proc.devRef .tc main_v0) : S8192x128.Idx → EReal)
      = argX W := by
  after_results; rfl

/-- The second array the region reads is the second argument array. -/
theorem entry_v1 :
    (after (hostOps0 (F := Ideal)) W (Proc.devRef .tc main_v1) : S8192x128.Idx → EReal)
      = argY W := by
  after_results; rfl

/-- The first norm row is the negated-norm row of the first argument array. -/
theorem entry_v9_eq :
    (after (hostOps0 (F := Ideal)) W (Proc.devRef .tc main_v9) : S1x8192.Idx → EReal)
      = negNormRow (argX W) := by
  after_results; rfl

/-- The second norm row is the negated-norm row of the second argument array. -/
theorem entry_v15_eq :
    (after (hostOps0 (F := Ideal)) W (Proc.devRef .tc main_v15) : S1x8192.Idx → EReal)
      = negNormRow (argY W) := by
  after_results; rfl

/-- Entry (0, j) of the first norm row: (−1)·(squared norm of point j of the first cloud). -/
theorem entry_v9 (j : Fin 8192) :
    (after (hostOps0 (F := Ideal)) W (Proc.devRef .tc main_v9) : S1x8192.Idx → EReal) (ix2 0 j)
      = Ideal.ofBits .f32 0xBF800000#32 * nrm (mat (argX W)) j := by
  rw [entry_v9_eq, negNormRow_apply]

/-- Entry (0, j) of the second norm row: (−1)·(squared norm of point j of the second cloud). -/
theorem entry_v15 (j : Fin 8192) :
    (after (hostOps0 (F := Ideal)) W (Proc.devRef .tc main_v15) : S1x8192.Idx → EReal) (ix2 0 j)
      = Ideal.ofBits .f32 0xBF800000#32 * nrm (mat (argY W)) j := by
  rw [entry_v15_eq, negNormRow_apply]

end Entry

/-! ## After the region -/

/-- The [2,1,1] index set is the two indices (c, 0, 0). -/
def idxEquiv211 : S2x1x1.Idx ≃ Fin 2 where
  toFun i := i 0
  invFun c := ix3 c (0 : Fin 1) (0 : Fin 1)
  left_inv i := by
    have h1 : (i 1).val < 1 := (i 1).isLt
    have h2 : (i 2).val < 1 := (i 2).isLt
    funext a
    refine Fin.ext ?_
    match a with
    | ⟨0, _⟩ => rfl
    | ⟨1, _⟩ => show 0 = (i 1).val; omega
    | ⟨2, _⟩ => show 0 = (i 2).val; omega
  right_inv _ := rfl

/-- A sum over the [2,1,1] index set is the sum over its first coordinate. -/
theorem sum_idx211 {M : Type*} [AddCommMonoid M] (f : S2x1x1.Idx → M) :
    ∑ i, f i = ∑ c : Fin 2, f (ix3 c (0 : Fin 1) (0 : Fin 1)) := by
  rw [← Equiv.sum_comp idxEquiv211.symm f]
  rfl

/-- The sum of a [2,1,1] array over all three axes, the initial value 0 in front dropped. -/
theorem total_apply (o : FVec Ideal S2x1x1 .f32) (i : S_.Idx) :
    Host.reduceAdd (F := Ideal) o (constant (F := Ideal) S_ .f32 0x00000000#32) reducesTo_S2x1x1_S_d0_1_2 h_S_ i
      = ∑ c : Fin 2, o (ix3 c (0 : Fin 1) (0 : Fin 1)) := by
  simp only [Host.reduceAdd, Ideal.hostReduceAdd_def]
  rw [Ideal.hostReduceAdd_total reducesTo_S2x1x1_S_d0_1_2 (fun b => b.elim0) o _ i,
    show (constant (F := Ideal) S_ .f32 0x00000000#32) (Shape.Idx.first h_S_) = Ideal.ofBits .f32 0x00000000#32 from rfl,
    Ideal.ofBits_zero_f32, zero_add, sum_idx211]

/-- The tail's term, as a function of the three result arrays. -/
def tailTerm (o0 o1 o2 : FVec Ideal S2x1x1 .f32) : FVec Ideal S_ .f32 :=
  subf
    (addf
      (Host.divf (Host.reduceAdd (F := Ideal) o0 (constant (F := Ideal) S_ .f32 0x00000000#32) reducesTo_S2x1x1_S_d0_1_2 h_S_)
        (constant (F := Ideal) S_ .f32 0x4C800000#32))
      (Host.divf (Host.reduceAdd (F := Ideal) o1 (constant (F := Ideal) S_ .f32 0x00000000#32) reducesTo_S2x1x1_S_d0_1_2 h_S_)
        (constant (F := Ideal) S_ .f32 0x4C800000#32)))
    (Host.divf
      (mulf (constant (F := Ideal) S_ .f32 0x40000000#32)
        (Host.reduceAdd (F := Ideal) o2 (constant (F := Ideal) S_ .f32 0x00000000#32) reducesTo_S2x1x1_S_d0_1_2 h_S_))
      (constant (F := Ideal) S_ .f32 0x4C800000#32))

/-- The tail's term at its one index: the two quotients' sum minus the quotient of the doubled third sum. -/
theorem tailTerm_apply (o0 o1 o2 : FVec Ideal S2x1x1 .f32) (i : S_.Idx) :
    tailTerm o0 o1 o2 i
      = (Ideal.div (∑ c : Fin 2, o0 (ix3 c (0 : Fin 1) (0 : Fin 1))) (Ideal.ofBits .f32 0x4C800000#32)
          + Ideal.div (∑ c : Fin 2, o1 (ix3 c (0 : Fin 1) (0 : Fin 1))) (Ideal.ofBits .f32 0x4C800000#32))
        - Ideal.div (Ideal.ofBits .f32 0x40000000#32 * ∑ c : Fin 2, o2 (ix3 c (0 : Fin 1) (0 : Fin 1)))
            (Ideal.ofBits .f32 0x4C800000#32) := by
  rw [← total_apply o0 i, ← total_apply o1 i, ← total_apply o2 i]
  rfl

section Tail

variable (W : Valuation τ sig (Elt Ideal))

/-- The result buffer after the tail is the tail's term of the three result arrays. -/
theorem tail_v25_eq :
    (after (hostOps1 (F := Ideal)) W (Proc.devRef .tc main_v25) : S_.Idx → EReal)
      = tailTerm (out0 W) (out1 W) (out2 W) := by
  after_results; rfl

/-- The result after the tail, from the three result arrays' entries (c, 0, 0). -/
theorem tail_v25 :
    (after (hostOps1 (F := Ideal)) W (Proc.devRef .tc main_v25) : S_.Idx → EReal)
      = fun _ =>
        (Ideal.div (∑ c : Fin 2, out0 W (ix3 c (0 : Fin 1) (0 : Fin 1)))
            (Ideal.ofBits .f32 0x4C800000#32)
          + Ideal.div (∑ c : Fin 2, out1 W (ix3 c (0 : Fin 1) (0 : Fin 1)))
            (Ideal.ofBits .f32 0x4C800000#32))
        - Ideal.div (Ideal.ofBits .f32 0x40000000#32
              * ∑ c : Fin 2, out2 W (ix3 c (0 : Fin 1) (0 : Fin 1)))
            (Ideal.ofBits .f32 0x4C800000#32) := by
  rw [tail_v25_eq]
  funext i
  exact tailTerm_apply _ _ _ i

/-- When the three result arrays hold, at (c, 0, 0), the half-c sums of Gaussian terms of the pairs (a,a), (b,b), (a,b),
    the result after the tail is the slabbed arrangement of the loss of a and b. -/
theorem tail_Gker (a b : Mat)
    (h0 : ∀ c : Fin 2, out0 W (ix3 c (0 : Fin 1) (0 : Fin 1))
      = ∑ t : Fin 16, ∑ r : Fin 256, ∑ j : Fin 8192, kerTerm a a (row c t r) j)
    (h1 : ∀ c : Fin 2, out1 W (ix3 c (0 : Fin 1) (0 : Fin 1))
      = ∑ t : Fin 16, ∑ r : Fin 256, ∑ j : Fin 8192, kerTerm b b (row c t r) j)
    (h2 : ∀ c : Fin 2, out2 W (ix3 c (0 : Fin 1) (0 : Fin 1))
      = ∑ t : Fin 16, ∑ r : Fin 256, ∑ j : Fin 8192, kerTerm a b (row c t r) j) :
    (after (hostOps1 (F := Ideal)) W (Proc.devRef .tc main_v25) : S_.Idx → EReal) = fun _ => Gker a b := by
  rw [tail_v25]
  funext _
  unfold Gker Kpair
  rw [Finset.sum_congr rfl fun c _ => h0 c, Finset.sum_congr rfl fun c _ => h1 c, Finset.sum_congr rfl fun c _ => h2 c]

end Tail

/-! ## The argument arrays are written by no host operation -/

section Args

variable (W : Valuation τ sig (Elt Ideal))

theorem arg0_entry : after (hostOps0 (F := Ideal)) W (Proc.devRef .tc main_arg0) = W (Proc.devRef .tc main_arg0) := by
  after_results

theorem arg1_entry : after (hostOps0 (F := Ideal)) W (Proc.devRef .tc main_arg1) = W (Proc.devRef .tc main_arg1) := by
  after_results

theorem arg0_tail : after (hostOps1 (F := Ideal)) W (Proc.devRef .tc main_arg0) = W (Proc.devRef .tc main_arg0) := by
  after_results

theorem arg1_tail : after (hostOps1 (F := Ideal)) W (Proc.devRef .tc main_arg1) = W (Proc.devRef .tc main_arg1) := by
  after_results

end Args

end Cert.KernelIdeal.HostValue

end
-- ==== Proof.PayValue.lean ====
/-
  The accumulating arithmetic of one grid point, read at the one entry of a [1,1,1] accumulator.

  From a 256-row tile l of one cloud, the whole second cloud rb (8192 rows), and the second cloud's row nb of negated
  squared norms, the arithmetic forms the [256,8192] array whose entry (r, j) is
        exp( (2·Σ_k l(r,k)·rb(j,k) + (−1)·Σ_k l(r,k)² ) + nb(0,j) ),
  sums it along each row, then down the 256 rows, and adds the total to the accumulator's entry.  When the tile's row r
  is row rowOf r of a cloud a, rb is a cloud b and nb(0,j) = (−1)·nrm b j, entry (r, j) is the Gaussian term of points
  rowOf r of a and j of b in the slabbed arrangement, so the accumulator grows by the sum of those terms over the tile's
  rows and all of b.  The three accumulators of a grid point are three instances of this one computation; the zeroing
  stores write 0.
-/
import proofs.«136887_j59356448031516_2_alg».proof.Proof.Gen.KernelIdeal.Skeleton
import proofs.«136887_j59356448031516_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.KernelIdeal.PayValue

open Cert.KernelIdeal Cert.KernelIdeal.Gen Idealize.ShloMosaic Idealize.ShloMosaic.ValueIdx Cert.MmdSpec

/-! ## The pieces of the computation, as functions of their operands -/

/-- The column of negated squared norms of a tile's rows. -/
def negNormCol (l : FVec Ideal S256x128 .bf16) : FVec Ideal S256x1 .f32 :=
  mulf (broadcast S256x1 (Scalar.ofBits (F := Ideal) .f32 0xBF800000#32))
    (shapeCast S256x1
      (multiReduction .add [1] S256 (mulf (extf .f32 l bitsLt_bf16_f32) (extf .f32 l bitsLt_bf16_f32)) 0x00000000#32
        reduces_S256x128_S256 (.inl rfl) rfl)
      shapeCasts_S256_S256x1)

/-- The [256,8192] array of exponentials of a tile against a whole cloud. -/
def expTile (l : FVec Ideal S256x128 .bf16) (rb : FVec Ideal S8192x128 .bf16) (nb : FVec Ideal S1x8192 .f32)
    (nl : FVec Ideal S256x1 .f32) : FVec Ideal S256x8192 .f32 :=
  exp (addf
    (addf
      (mulf (broadcast S256x8192 (Scalar.ofBits (F := Ideal) .f32 0x40000000#32))
        (matmul dot_S256x128_S8192x128_S256x8192_1_1_0_0_n_n none l rb (constant (F := Ideal) S256x8192 .f32 0x00000000#32)))
      (broadcastTo S256x8192 nl broadcasts_S256x1_S256x8192))
    (broadcastTo S256x8192 nb broadcasts_S1x8192_S256x8192))

/-- The sum along each row of a [256,8192] array. -/
def laneSum (v : FVec Ideal S256x8192 .f32) : FVec Ideal S256 .f32 :=
  multiReduction .add [1] S256 v 0x00000000#32 reduces_S256x8192_S256 (.inl rfl) rfl

/-- A vector of 256 entries as a column. -/
def colOf (v : FVec Ideal S256 .f32) : FVec Ideal S256x1 .f32 := shapeCast S256x1 v shapeCasts_S256_S256x1

/-- The accumulator plus the sum down a column. -/
def accum (col : FVec Ideal S256x1 .f32) (acc : Vec Ideal S1x1x1 .f32) : FVec Ideal S1x1x1 .f32 :=
  shapeCast S1x1x1
    (addf acc
      (shapeCast S1x1x1
        (shapeCast S1x1 (multiReduction .add [0] S1 col 0x00000000#32 reduces_S256x1_S1 (.inl rfl) rfl) shapeCasts_S1_S1x1)
        shapeCasts_S1x1_S1x1x1))
    shapeCasts_S1x1x1_S1x1x1

/-! ## Each piece at an index -/

/-- An exponential at an index is the exponential of the entry. -/
theorem exp_apply {s : Shape} {φ : FTy} (v : FVec Ideal s φ) (i : s.Idx) : exp v i = Ideal.exp (v i) := rfl

/-- Entry (r, 0) of the negated-norm column: (−1)·Σ_k l(r,k)². -/
theorem negNormCol_apply (l : FVec Ideal S256x128 .bf16) (r : Fin 256) :
    negNormCol l (ix2 r (0 : Fin 1))
      = Ideal.ofBits .f32 0xBF800000#32 * ∑ k : Fin 128, l (ix2 r k) * l (ix2 r k) := by
  unfold negNormCol
  rw [mulf_apply, broadcast_apply]
  refine congrArg (Ideal.ofBits .f32 0xBF800000#32 * ·) ?_
  rw [shapeCast_apply _ shapeCasts_S256_S256x1 (ix2 r (0 : Fin 1)) (ix1 r) (by
    rw [Shape.rowMajor_val_one, Shape.rowMajor_val_two]
    show r.val = r.val * 1 + 0
    omega)]
  refine (Ideal.multiReduction_add_single (mulf (extf .f32 l bitsLt_bf16_f32) (extf .f32 l bitsLt_bf16_f32))
    0x00000000#32 reduces_S256x128_S256 (.inl rfl) rfl (ix1 r)).trans ?_
  refine Finset.sum_congr rfl fun k _ => ?_
  have e : reduces_S256x128_S256.lift (ix1 r) k = ix2 r k :=
    funext fun a => Fin.ext (by match a with | ⟨0, _⟩ => rfl | ⟨1, _⟩ => rfl)
  rw [e]; rfl

/-- A column broadcast along the rows reads, at (r, j), the column's entry (r, 0). -/
theorem broadcastTo_a1_ab_apply (v : FVec Ideal S256x1 .f32) (r : Fin 256) (j : Fin 8192) :
    broadcastTo S256x8192 v broadcasts_S256x1_S256x8192 (ix2 r j) = v (ix2 r (0 : Fin 1)) := by
  refine broadcastTo_apply v broadcasts_S256x1_S256x8192 (ix2 r j) (ix2 r (0 : Fin 1)) fun ax => ?_
  match ax with
  | ⟨0, _⟩ => show r.val = if (256 : Nat) = 1 then 0 else r.val; rw [if_neg (by decide)]
  | ⟨1, _⟩ => show 0 = if (1 : Nat) = 1 then 0 else j.val; rw [if_pos rfl]

/-- The product's left operand index at output (i0, i1) and contraction coordinate q is (i0, q) … -/
theorem lhs_row (i : S256x8192.Idx) (q : dot_S256x128_S8192x128_S256x8192_1_1_0_0_n_n.contr.Idx) :
    (dot_S256x128_S8192x128_S256x8192_1_1_0_0_n_n.lhsIdx i q 0).val = (i 0).val := by
  unfold DotDims.lhsIdx
  rw [dif_neg (show ¬(0 : Fin S256x128.rank) ∈ dot_S256x128_S8192x128_S256x8192_1_1_0_0_n_n.lhsBatch by decide),
    dif_pos (show (0 : Fin S256x128.rank) ∈ dot_S256x128_S8192x128_S256x8192_1_1_0_0_n_n.lhsNonContracting by decide)]
  rfl
theorem lhs_contr (i : S256x8192.Idx) (q : dot_S256x128_S8192x128_S256x8192_1_1_0_0_n_n.contr.Idx) :
    (dot_S256x128_S8192x128_S256x8192_1_1_0_0_n_n.lhsIdx i q 1).val = (q ⟨0, by decide⟩).val :=
  dot_S256x128_S8192x128_S256x8192_1_1_0_0_n_n.lhsIdx_val_of_single rfl i q
/-- … and its right operand index is (i1, q): both operands are contracted along their second axis. -/
theorem rhs_row (i : S256x8192.Idx) (q : dot_S256x128_S8192x128_S256x8192_1_1_0_0_n_n.contr.Idx) :
    (dot_S256x128_S8192x128_S256x8192_1_1_0_0_n_n.rhsIdx i q 0).val = (i 1).val := by
  unfold DotDims.rhsIdx
  rw [dif_neg (show ¬(0 : Fin S8192x128.rank) ∈ dot_S256x128_S8192x128_S256x8192_1_1_0_0_n_n.rhsBatch by decide),
    dif_pos (show (0 : Fin S8192x128.rank) ∈ dot_S256x128_S8192x128_S256x8192_1_1_0_0_n_n.rhsNonContracting by decide)]
  rfl
theorem rhs_contr (i : S256x8192.Idx) (q : dot_S256x128_S8192x128_S256x8192_1_1_0_0_n_n.contr.Idx) :
    (dot_S256x128_S8192x128_S256x8192_1_1_0_0_n_n.rhsIdx i q 1).val = (q ⟨0, by decide⟩).val :=
  dot_S256x128_S8192x128_S256x8192_1_1_0_0_n_n.rhsIdx_val_of_single rfl i q

/-- The product of a tile with a cloud into the zero accumulator: at (r, j), Σ_k l(r,k)·rb(j,k). -/
theorem matmul_tile_apply (l : FVec Ideal S256x128 .bf16) (rb : FVec Ideal S8192x128 .bf16) (r : Fin 256) (j : Fin 8192) :
    matmul dot_S256x128_S8192x128_S256x8192_1_1_0_0_n_n none l rb (constant (F := Ideal) S256x8192 .f32 0x00000000#32) (ix2 r j)
      = ∑ k : Fin 128, l (ix2 r k) * rb (ix2 j k) := by
  refine (Ideal.matmul_constant_zero_apply dot_S256x128_S8192x128_S256x8192_1_1_0_0_n_n none l rb (ix2 r j)).trans ?_
  rw [← Equiv.sum_comp (ValueIdx.contrEquiv1 dot_S256x128_S8192x128_S256x8192_1_1_0_0_n_n 128 rfl rfl).symm]
  refine Finset.sum_congr rfl fun k _ => ?_
  have hk := ValueIdx.contrEquiv1_symm_val dot_S256x128_S8192x128_S256x8192_1_1_0_0_n_n 128 rfl rfl k
  have el : dot_S256x128_S8192x128_S256x8192_1_1_0_0_n_n.lhsIdx (ix2 r j) ((ValueIdx.contrEquiv1 dot_S256x128_S8192x128_S256x8192_1_1_0_0_n_n 128 rfl rfl).symm k) = ix2 r k :=
    funext fun a => Fin.ext (by
      match a with
      | ⟨0, _⟩ => exact lhs_row _ _
      | ⟨1, _⟩ => exact (lhs_contr _ _).trans hk)
  have er : dot_S256x128_S8192x128_S256x8192_1_1_0_0_n_n.rhsIdx (ix2 r j) ((ValueIdx.contrEquiv1 dot_S256x128_S8192x128_S256x8192_1_1_0_0_n_n 128 rfl rfl).symm k) = ix2 j k :=
    funext fun a => Fin.ext (by
      match a with
      | ⟨0, _⟩ => exact rhs_row _ _
      | ⟨1, _⟩ => exact (rhs_contr _ _).trans hk)
  rw [el, er]

/-- Entry (r, j) of the array of exponentials. -/
theorem expTile_apply (l : FVec Ideal S256x128 .bf16) (rb : FVec Ideal S8192x128 .bf16) (nb : FVec Ideal S1x8192 .f32)
    (nl : FVec Ideal S256x1 .f32) (r : Fin 256) (j : Fin 8192) :
    expTile l rb nb nl (ix2 r j)
      = Ideal.exp ((Ideal.ofBits .f32 0x40000000#32 * ∑ k : Fin 128, l (ix2 r k) * rb (ix2 j k) + nl (ix2 r (0 : Fin 1)))
          + nb (ix2 (0 : Fin 1) j)) := by
  unfold expTile
  rw [exp_apply, addf_apply, addf_apply, mulf_apply, broadcast_apply, matmul_tile_apply, broadcastTo_a1_ab_apply,
    broadcastTo_1b_ab_apply]
  rfl

/-- Entry r of the row sums: the sum over j of the row's entries. -/
theorem laneSum_apply (v : FVec Ideal S256x8192 .f32) (r : Fin 256) :
    laneSum v (ix1 r) = ∑ j : Fin 8192, v (ix2 r j) := by
  unfold laneSum
  refine (Ideal.multiReduction_add_single v 0x00000000#32 reduces_S256x8192_S256 (.inl rfl) rfl (ix1 r)).trans ?_
  refine Finset.sum_congr rfl fun j _ => ?_
  have e : reduces_S256x8192_S256.lift (ix1 r) j = ix2 r j :=
    funext fun a => Fin.ext (by match a with | ⟨0, _⟩ => rfl | ⟨1, _⟩ => rfl)
  exact congrArg v e

/-- Entry (r, 0) of a vector laid as a column is its entry r. -/
theorem colOf_apply (v : FVec Ideal S256 .f32) (r : Fin 256) : colOf v (ix2 r (0 : Fin 1)) = v (ix1 r) := by
  unfold colOf
  exact shapeCast_apply _ shapeCasts_S256_S256x1 (ix2 r (0 : Fin 1)) (ix1 r) (by
    rw [Shape.rowMajor_val_one, Shape.rowMajor_val_two]
    show r.val = r.val * 1 + 0
    omega)

/-- The accumulator's entry after the addition: its old entry plus the sum down the column. -/
theorem accum_apply (col : FVec Ideal S256x1 .f32) (acc : Vec Ideal S1x1x1 .f32) :
    accum col acc (ix3 (0 : Fin 1) (0 : Fin 1) (0 : Fin 1))
      = acc (ix3 (0 : Fin 1) (0 : Fin 1) (0 : Fin 1)) + ∑ r : Fin 256, col (ix2 r (0 : Fin 1)) := by
  unfold accum
  rw [shapeCast_self, addf_apply, shapeCast_ab_1ab_apply, shapeCast_a_1a_apply]
  refine congrArg (acc (ix3 (0 : Fin 1) (0 : Fin 1) (0 : Fin 1)) + ·) ?_
  refine (Ideal.multiReduction_add_single col 0x00000000#32 reduces_S256x1_S1 (.inl rfl) rfl (ix1 (0 : Fin 1))).trans ?_
  refine Finset.sum_congr rfl fun r _ => ?_
  have e : reduces_S256x1_S1.lift (ix1 (0 : Fin 1)) r = ix2 r (0 : Fin 1) :=
    funext fun a => Fin.ext (by match a with | ⟨0, _⟩ => rfl | ⟨1, _⟩ => rfl)
  exact congrArg col e

/-! ## One accumulation, in the specification's terms -/

/-- From a tile whose row r is row rowOf r of cloud a, the whole cloud b, and b's row of negated squared norms, the
    accumulator's entry grows by the sum of the Gaussian terms of the tile's rows against all of b. -/
theorem accum_tile (l : FVec Ideal S256x128 .bf16) (rb : FVec Ideal S8192x128 .bf16) (nb : FVec Ideal S1x8192 .f32)
    (acc : Vec Ideal S1x1x1 .f32) (a b : Mat) (rowOf : Fin 256 → Fin 8192)
    (hl : ∀ r k, l (ix2 r k) = a (rowOf r) k) (hrb : ∀ j k, rb (ix2 j k) = b j k)
    (hnb : ∀ j, nb (ix2 (0 : Fin 1) j) = Ideal.ofBits .f32 0xBF800000#32 * nrm b j) :
    accum (colOf (laneSum (expTile l rb nb (negNormCol l)))) acc (ix3 (0 : Fin 1) (0 : Fin 1) (0 : Fin 1))
      = acc (ix3 (0 : Fin 1) (0 : Fin 1) (0 : Fin 1)) + ∑ r : Fin 256, ∑ j : Fin 8192, kerTerm a b (rowOf r) j := by
  rw [accum_apply]
  refine congrArg (acc (ix3 (0 : Fin 1) (0 : Fin 1) (0 : Fin 1)) + ·) (Finset.sum_congr rfl fun r _ => ?_)
  rw [colOf_apply, laneSum_apply]
  refine Finset.sum_congr rfl fun j _ => ?_
  rw [expTile_apply, negNormCol_apply, hnb]
  unfold kerTerm dot nrm
  simp only [hl, hrb]

/-! ## The payloads are these pieces -/

theorem pay5_eq (xt : Vec Ideal S256x128 .bf16) : k0_pay5 (F := Ideal) xt = xt := by
  unfold k0_pay5; exact shapeCast_self _ _
theorem pay6_eq (yt : Vec Ideal S256x128 .bf16) : k0_pay6 (F := Ideal) yt = yt := by
  unfold k0_pay6; exact shapeCast_self _ _
theorem pay7_eq (yb : Vec Ideal S8192x128 .bf16) : k0_pay7 (F := Ideal) yb = yb := by
  unfold k0_pay7; exact shapeCast_self _ _
theorem pay8_eq (bb : Vec Ideal S1x8192 .f32) : k0_pay8 (F := Ideal) bb = bb := by
  unfold k0_pay8; exact shapeCast_self _ _

/-- The first tile's negated-norm column is the column of the tile. -/
theorem pay9_eq (xt : Vec Ideal S256x128 .bf16) : k0_pay9 (F := Ideal) xt = negNormCol (k0_pay5 (F := Ideal) xt) := rfl
/-- The second tile's likewise. -/
theorem pay10_eq (yt : Vec Ideal S256x128 .bf16) : k0_pay10 (F := Ideal) yt = negNormCol (k0_pay6 (F := Ideal) yt) := rfl

/-- The first accumulator's stored value, as the pieces. -/
theorem first_eq (xt : Vec Ideal S256x128 .bf16) (xb : Vec Ideal S8192x128 .bf16) (bbx : Vec Ideal S1x8192 .f32)
    (acc : Vec Ideal S1x1x1 .f32) :
    k0_pay12 (F := Ideal) (k0_pay11 (F := Ideal) xt xb bbx) acc
      = accum (colOf (laneSum (expTile (k0_pay5 (F := Ideal) xt) (shapeCast S8192x128 xb shapeCasts_S8192x128_S8192x128)
          (shapeCast S1x8192 bbx shapeCasts_S1x8192_S1x8192) (k0_pay9 (F := Ideal) xt)))) acc := rfl

/-- The second accumulator's stored value, as the pieces. -/
theorem second_eq (l : FVec Ideal S256x128 .bf16) (rb : FVec Ideal S8192x128 .bf16) (nb : FVec Ideal S1x8192 .f32)
    (nl : FVec Ideal S256x1 .f32) (acc : Vec Ideal S1x1x1 .f32) :
    k0_pay13 (F := Ideal) l rb nb nl acc = accum (colOf (laneSum (expTile l rb nb nl))) acc := rfl

/-- The third accumulator's stored value, as the pieces. -/
theorem third_eq (l : FVec Ideal S256x128 .bf16) (rb : FVec Ideal S8192x128 .bf16) (nb : FVec Ideal S1x8192 .f32)
    (nl : FVec Ideal S256x1 .f32) (acc : Vec Ideal S1x1x1 .f32) :
    k0_pay1 (F := Ideal) (k0_pay14 (F := Ideal) l rb nb nl) acc = accum (colOf (laneSum (expTile l rb nb nl))) acc := rfl

/-! ## The three accumulating stores at the accumulator's entry -/

/-- The first accumulator: tile xt of cloud a, whole array xb = cloud b, norm row of b. -/
theorem first_cell (xt : Vec Ideal S256x128 .bf16) (xb : Vec Ideal S8192x128 .bf16) (bbx : Vec Ideal S1x8192 .f32)
    (acc : Vec Ideal S1x1x1 .f32) (a b : Mat) (rowOf : Fin 256 → Fin 8192)
    (hxt : ∀ r k, xt (ix2 r k) = a (rowOf r) k) (hxb : ∀ j k, xb (ix2 j k) = b j k)
    (hbb : ∀ j, bbx (ix2 (0 : Fin 1) j) = Ideal.ofBits .f32 0xBF800000#32 * nrm b j) :
    k0_pay12 (F := Ideal) (k0_pay11 (F := Ideal) xt xb bbx) acc (ix3 (0 : Fin 1) (0 : Fin 1) (0 : Fin 1))
      = acc (ix3 (0 : Fin 1) (0 : Fin 1) (0 : Fin 1)) + ∑ r : Fin 256, ∑ j : Fin 8192, kerTerm a b (rowOf r) j := by
  rw [first_eq, pay9_eq, pay5_eq, shapeCast_self, shapeCast_self]
  exact accum_tile xt xb bbx acc a b rowOf hxt hxb hbb

/-- The second accumulator: tile yt of cloud a, whole array yb = cloud b, norm row of b. -/
theorem second_cell (yt : Vec Ideal S256x128 .bf16) (yb : Vec Ideal S8192x128 .bf16) (bby : Vec Ideal S1x8192 .f32)
    (acc : Vec Ideal S1x1x1 .f32) (a b : Mat) (rowOf : Fin 256 → Fin 8192)
    (hyt : ∀ r k, yt (ix2 r k) = a (rowOf r) k) (hyb : ∀ j k, yb (ix2 j k) = b j k)
    (hbb : ∀ j, bby (ix2 (0 : Fin 1) j) = Ideal.ofBits .f32 0xBF800000#32 * nrm b j) :
    k0_pay13 (F := Ideal) (k0_pay6 (F := Ideal) yt) (k0_pay7 (F := Ideal) yb) (k0_pay8 (F := Ideal) bby)
        (k0_pay10 (F := Ideal) yt) acc (ix3 (0 : Fin 1) (0 : Fin 1) (0 : Fin 1))
      = acc (ix3 (0 : Fin 1) (0 : Fin 1) (0 : Fin 1)) + ∑ r : Fin 256, ∑ j : Fin 8192, kerTerm a b (rowOf r) j := by
  rw [second_eq, pay10_eq, pay6_eq, pay7_eq, pay8_eq]
  exact accum_tile yt yb bby acc a b rowOf hyt hyb hbb

/-- The third accumulator: tile xt of cloud a, whole array yb = cloud b, norm row of b. -/
theorem third_cell (xt : Vec Ideal S256x128 .bf16) (yb : Vec Ideal S8192x128 .bf16) (bby : Vec Ideal S1x8192 .f32)
    (acc : Vec Ideal S1x1x1 .f32) (a b : Mat) (rowOf : Fin 256 → Fin 8192)
    (hxt : ∀ r k, xt (ix2 r k) = a (rowOf r) k) (hyb : ∀ j k, yb (ix2 j k) = b j k)
    (hbb : ∀ j, bby (ix2 (0 : Fin 1) j) = Ideal.ofBits .f32 0xBF800000#32 * nrm b j) :
    k0_pay1 (F := Ideal) (k0_pay14 (F := Ideal) (k0_pay5 (F := Ideal) xt) (k0_pay7 (F := Ideal) yb)
        (k0_pay8 (F := Ideal) bby) (k0_pay9 (F := Ideal) xt)) acc (ix3 (0 : Fin 1) (0 : Fin 1) (0 : Fin 1))
      = acc (ix3 (0 : Fin 1) (0 : Fin 1) (0 : Fin 1)) + ∑ r : Fin 256, ∑ j : Fin 8192, kerTerm a b (rowOf r) j := by
  rw [third_eq, pay9_eq, pay5_eq, pay7_eq, pay8_eq]
  exact accum_tile xt yb bby acc a b rowOf hxt hyb hbb

/-! ## The accumulator's one entry, and the zeroing stores -/

/-- The [1,1,1] index set has the one index (0, 0, 0). -/
theorem idx_cell (i : S1x1x1.Idx) : i = ix3 (0 : Fin 1) (0 : Fin 1) (0 : Fin 1) := by
  have h0 : (i 0).val < 1 := (i 0).isLt
  have h1 : (i 1).val < 1 := (i 1).isLt
  have h2 : (i 2).val < 1 := (i 2).isLt
  funext a
  refine Fin.ext ?_
  match a with
  | ⟨0, _⟩ => show (i 0).val = 0; omega
  | ⟨1, _⟩ => show (i 1).val = 0; omega
  | ⟨2, _⟩ => show (i 2).val = 0; omega

/-- A [1,1,1] array is determined by its one entry. -/
theorem ext_cell (v w : Vec Ideal S1x1x1 .f32)
    (h : v (ix3 (0 : Fin 1) (0 : Fin 1) (0 : Fin 1)) = w (ix3 (0 : Fin 1) (0 : Fin 1) (0 : Fin 1))) : v = w := by
  funext i
  rw [idx_cell i]
  exact h

/-- The zeroing stores write 0. -/
theorem pay2_cell : k0_pay2 (F := Ideal) (ix3 (0 : Fin 1) (0 : Fin 1) (0 : Fin 1)) = 0 := by
  unfold k0_pay2; rw [shapeCast_self]; exact Ideal.ofBits_zero_f32
theorem pay3_cell : k0_pay3 (F := Ideal) (ix3 (0 : Fin 1) (0 : Fin 1) (0 : Fin 1)) = 0 := by
  unfold k0_pay3; rw [shapeCast_self]; exact Ideal.ofBits_zero_f32
theorem pay4_cell : k0_pay4 (F := Ideal) (ix3 (0 : Fin 1) (0 : Fin 1) (0 : Fin 1)) = 0 := by
  unfold k0_pay4; rw [shapeCast_self]; exact Ideal.ofBits_zero_f32

end Cert.KernelIdeal.PayValue

end
-- ==== Proof.LibRowSums.lean ====
/-
  A running sum that is reset at the start of every row of 16 points and increased by the point's term otherwise is, at
  each point, the sum of the terms of the row's points so far.
-/
import Idealize.ShloMosaic.Lib.ValueIdx

open scoped BigOperators

namespace Cert.MmdAccum

variable {M : Type} [AddCommMonoid M]

/-- If `A n = 0 + T n` at the first point of a row of 16 and `A n = A (n - 1) + T n` at every other point, then
    `A n` is the sum of `T` over the row's points up to `n`. -/
theorem row_partial_sum (N : ℕ) (T A : ℕ → M)
    (hfirst : ∀ n, n < N → n % 16 = 0 → A n = 0 + T n)
    (hstep : ∀ n, n < N → n % 16 ≠ 0 → A n = A (n - 1) + T n) :
    ∀ n, n < N → A n = ∑ s ∈ Finset.range (n % 16 + 1), T (16 * (n / 16) + s) := by
  intro n
  induction n with
  | zero =>
    intro h
    rw [hfirst 0 h rfl]
    simp
  | succ k ih =>
    intro h
    by_cases h0 : (k + 1) % 16 = 0
    · rw [hfirst (k + 1) h h0, h0, zero_add, Finset.sum_range_one]
      congr 1
      omega
    · rw [hstep (k + 1) h h0, Nat.add_sub_cancel, ih (by omega)]
      have hq : (k + 1) / 16 = k / 16 := by omega
      have hr : (k + 1) % 16 = k % 16 + 1 := by omega
      rw [hq, hr, Finset.sum_range_succ (fun s => T (16 * (k / 16) + s)) (k % 16 + 1)]
      congr 2
      omega

/-- At the row's last point: the whole row's sum, over `Fin 16`. -/
theorem row_sum (N : ℕ) (T A : ℕ → M)
    (hfirst : ∀ n, n < N → n % 16 = 0 → A n = 0 + T n)
    (hstep : ∀ n, n < N → n % 16 ≠ 0 → A n = A (n - 1) + T n)
    (q : ℕ) (hq : 16 * q + 15 < N) :
    A (16 * q + 15) = ∑ t : Fin 16, T (16 * q + t.val) := by
  rw [row_partial_sum N T A hfirst hstep _ hq]
  have h1 : (16 * q + 15) % 16 + 1 = 16 := by omega
  have h2 : (16 * q + 15) / 16 = q := by omega
  rw [h1, h2, Finset.sum_range]

end Cert.MmdAccum
-- ==== Proof.KernelValue.lean ====
/-
  THE KERNEL'S RESULT at the ideal instance: @main's scalar is the kernel's arrangement `Gker` of the two argument
  arrays.

  At a grid point the body adds, to each of its three accumulators, the point's tile sum: the sum over the tile's 256
  rows i and all 8192 rows j of exp(2·⟨a_i, b_j⟩ − |a_i|² − |b_j|²), for the pairs (x, x), (y, y), (x, y) — the tile and
  the resident operand being the rounded arguments, which at the ideal instance are the arguments themselves, and the
  norm rows being −|b_j|². An accumulator is reset at the first point of each grid row of 16 points, so at the row's
  last point it holds the sum of the row's 16 tile sums; that is what is written back to entry (c, 0, 0) of the result
  array. The host stretch after the region adds the two rows and combines the three pairs.
-/
import proofs.«136887_j59356448031516_2_alg».proof.Proof.CellValue
import proofs.«136887_j59356448031516_2_alg».proof.Proof.OutValue
import proofs.«136887_j59356448031516_2_alg».proof.Proof.Frame
import proofs.«136887_j59356448031516_2_alg».proof.Proof.HostValue
import proofs.«136887_j59356448031516_2_alg».proof.Proof.PayValue
import proofs.«136887_j59356448031516_2_alg».proof.Proof.LibRowSums

noncomputable section

namespace Cert.KernelIdeal.Mmd

open Idealize.ShloMosaic Idealize.ShloMosaic.TcCoe
open Idealize.SL Idealize.SL.RA Idealize.SL.Sem
open Idealize.ShloMosaic.Pipeline (Dat Cfg Window)
open Cert.KernelIdeal Cert.KernelIdeal.Gen Cert.MmdSpec Cert.KernelIdeal.PayValue Cert.KernelIdeal.HostValue
open scoped BigOperators

variable (m : (ℓ : Loc nD τ sig) → Buf (Elt Ideal) ℓ) (c : Dev nD)

/-- The two argument arrays, as matrices of extended reals. -/
def argA : Mat := mat (m ((c.tc : Thread nD τ).loc main_arg0) : FVec Ideal S8192x128 .f32)
def argB : Mat := mat (m ((c.tc : Thread nD τ).loc main_arg1) : FVec Ideal S8192x128 .f32)

/-- Row `r` of the tile streamed at grid point `t`. -/
def rowAt (t : Fin cfg0.N) (r : Fin 256) : Fin 8192 :=
  ⟨t.val * 256 + r.val, by have h : t.val < 32 := lt_of_lt_of_eq t.isLt N_0; have := r.isLt; omega⟩

/-! ## What the body's loads hold, at the ideal instance -/

theorem entryA : (V m c main_v0 : S8192x128.Idx → EReal) = (m ((c.tc : Thread nD τ).loc main_arg0) : FVec Ideal S8192x128 .f32) :=
  entry_v0 (Vlaunch m c)
theorem entryB : (V m c main_v1 : S8192x128.Idx → EReal) = (m ((c.tc : Thread nD τ).loc main_arg1) : FVec Ideal S8192x128 .f32) :=
  entry_v1 (Vlaunch m c)

theorem tileA (t : Fin cfg0.N) (r : Fin 256) (k : Fin 128) :
    (iblk m c 0 t : S256x128.Idx → EReal) (ValueIdx.ix2 r k) = argA m c (rowAt t r) k := by
  rw [iblk0_apply m c t (ValueIdx.ix2 r k) (ValueIdx.ix2 (rowAt t r) k) rfl rfl]
  exact congrFun (entryA m c) _
theorem tileB (t : Fin cfg0.N) (r : Fin 256) (k : Fin 128) :
    (iblk m c 1 t : S256x128.Idx → EReal) (ValueIdx.ix2 r k) = argB m c (rowAt t r) k := by
  rw [iblk1_apply m c t (ValueIdx.ix2 r k) (ValueIdx.ix2 (rowAt t r) k) rfl rfl]
  exact congrFun (entryB m c) _
theorem residentA (t : Fin cfg0.N) (j : Fin 8192) (k : Fin 128) :
    (iblk m c 2 t : S8192x128.Idx → EReal) (ValueIdx.ix2 j k) = argA m c j k := by
  rw [iblk2_eq]; exact congrFun (entryA m c) _
theorem residentB (t : Fin cfg0.N) (j : Fin 8192) (k : Fin 128) :
    (iblk m c 3 t : S8192x128.Idx → EReal) (ValueIdx.ix2 j k) = argB m c j k := by
  rw [iblk3_eq]; exact congrFun (entryB m c) _
theorem normRowA (t : Fin cfg0.N) (j : Fin 8192) :
    (iblk m c 4 t : S1x8192.Idx → EReal) (ValueIdx.ix2 (0 : Fin 1) j) = Ideal.ofBits .f32 0xBF800000#32 * nrm (argA m c) j := by
  rw [iblk4_eq]; exact entry_v9 (Vlaunch m c) j
theorem normRowB (t : Fin cfg0.N) (j : Fin 8192) :
    (iblk m c 5 t : S1x8192.Idx → EReal) (ValueIdx.ix2 (0 : Fin 1) j) = Ideal.ofBits .f32 0xBF800000#32 * nrm (argB m c) j := by
  rw [iblk5_eq]; exact entry_v15 (Vlaunch m c) j

/-- The tile sum of a pair of matrices at grid point `t`. -/
def tileSum (a b : Mat) (t : Fin cfg0.N) : EReal := ∑ r : Fin 256, ∑ j : Fin 8192, kerTerm a b (rowAt t r) j

/-! ## The three accumulators, point by point -/

/-- Accumulator 0 after the first point of a row: the point's tile sum (added to the zero just stored). -/
theorem acc0_first (t : Fin cfg0.N) (h0 : t.val % 16 = 0) :
    ((sumsAt m c t.val t.isLt).2.2.2.1 (ValueIdx.ix3 (0 : Fin 1) (0 : Fin 1) (0 : Fin 1)) : EReal) = 0 + tileSum (argA m c) (argA m c) t := by
  have h1 : ¬t.val % 16 = 15 := by omega
  rw [sumsAt_first m c t h0 h1, firstLeaves_acc0 m c t h0 h1]
  refine (first_cell (iblk m c 0 t) (iblk m c 2 t) (iblk m c 4 t) (k0_pay2 (F := Ideal)) (argA m c) (argA m c) (rowAt t) (tileA m c t) (residentA m c t) (normRowA m c t)).trans ?_
  rw [pay2_cell]; rfl

/-- Accumulator 0 after any later point of a row: what the point before left, plus the point's tile sum. -/
theorem acc0_next (t : Fin cfg0.N) (h0 : ¬t.val % 16 = 0) :
    ((sumsAt m c t.val t.isLt).2.2.2.1 (ValueIdx.ix3 (0 : Fin 1) (0 : Fin 1) (0 : Fin 1)) : EReal)
      = ((sumsAt m c (t.val - 1) (Nat.lt_of_le_of_lt (Nat.sub_le _ _) t.isLt)).2.2.2.1 (ValueIdx.ix3 (0 : Fin 1) (0 : Fin 1) (0 : Fin 1)) : EReal) + tileSum (argA m c) (argA m c) t := by
  by_cases h1 : t.val % 16 = 15
  · rw [sumsAt_last m c t h0 h1, lastLeaves_acc0 m c t h0 h1]
    exact first_cell (iblk m c 0 t) (iblk m c 2 t) (iblk m c 4 t) _ (argA m c) (argA m c) (rowAt t) (tileA m c t) (residentA m c t) (normRowA m c t)
  · rw [sumsAt_mid m c t h0 h1, midLeaves_acc0 m c t h0 h1]
    exact first_cell (iblk m c 0 t) (iblk m c 2 t) (iblk m c 4 t) _ (argA m c) (argA m c) (rowAt t) (tileA m c t) (residentA m c t) (normRowA m c t)

/-- At a row's last point result buffer 0 holds what accumulator 0 holds. -/
theorem out0_last (t : Fin cfg0.N) (h1 : t.val % 16 = 15) :
    (sumsAt m c t.val t.isLt).1 = (sumsAt m c t.val t.isLt).2.2.2.1 := by
  have h0 : ¬t.val % 16 = 0 := by omega
  rw [sumsAt_last m c t h0 h1, lastLeaves_out6 m c t h0 h1, lastLeaves_acc0 m c t h0 h1]

/-- Accumulator 0 as a sequence over the points, and the tile sums as one. -/
def accSeq0 (n : ℕ) : EReal := if h : n < cfg0.N then ((sumsAt m c n h).2.2.2.1 (ValueIdx.ix3 (0 : Fin 1) (0 : Fin 1) (0 : Fin 1)) : EReal) else 0
def tileSeq0 (n : ℕ) : EReal := if h : n < cfg0.N then tileSum (argA m c) (argA m c) ⟨n, h⟩ else 0

/-- Entry (q, 0, 0) of result array 0: the sum of grid row q's sixteen tile sums. -/
theorem result6_apply (q : Fin 2) :
    (result6 m c (ValueIdx.ix3 q (0 : Fin 1) (0 : Fin 1)) : EReal)
      = ∑ t : Fin 16, ∑ r : Fin 256, ∑ j : Fin 8192, kerTerm (argA m c) (argA m c) (row q t r) j := by
  have hN : cfg0.N = 32 := N_0
  have hq : 16 * q.val + 15 < cfg0.N := by have := q.isLt; omega
  have key := Cert.MmdAccum.row_sum cfg0.N (tileSeq0 m c) (accSeq0 m c)
    (fun n hn h0 => by
      unfold accSeq0 tileSeq0; rw [dif_pos hn, dif_pos hn]
      exact acc0_first m c ⟨n, hn⟩ h0)
    (fun n hn h0 => by
      have hn' : n - 1 < cfg0.N := by omega
      unfold accSeq0 tileSeq0; rw [dif_pos hn, dif_pos hn, dif_pos hn']
      exact acc0_next m c ⟨n, hn⟩ h0)
    q.val hq
  unfold result6
  show ((sumsAt m c (16 * q.val + 15) _).1 (ValueIdx.ix3 (0 : Fin 1) (0 : Fin 1) (0 : Fin 1)) : EReal) = _
  rw [out0_last m c ⟨16 * q.val + 15, hq⟩ (by show (16 * q.val + 15) % 16 = 15; omega)]
  have hA : accSeq0 m c (16 * q.val + 15) = ((sumsAt m c (16 * q.val + 15) hq).2.2.2.1 (ValueIdx.ix3 (0 : Fin 1) (0 : Fin 1) (0 : Fin 1)) : EReal) := by
    unfold accSeq0; rw [dif_pos hq]
  rw [← hA, key]
  refine Finset.sum_congr rfl fun t _ => ?_
  have ht : 16 * q.val + t.val < cfg0.N := by have := q.isLt; have := t.isLt; omega
  unfold tileSeq0; rw [dif_pos ht]
  unfold tileSum
  refine Finset.sum_congr rfl fun r _ => Finset.sum_congr rfl fun j _ => ?_
  congr 1

/-- Accumulator 1 after the first point of a row: the point's tile sum (added to the zero just stored). -/
theorem acc1_first (t : Fin cfg0.N) (h0 : t.val % 16 = 0) :
    ((sumsAt m c t.val t.isLt).2.2.2.2.1 (ValueIdx.ix3 (0 : Fin 1) (0 : Fin 1) (0 : Fin 1)) : EReal) = 0 + tileSum (argB m c) (argB m c) t := by
  have h1 : ¬t.val % 16 = 15 := by omega
  rw [sumsAt_first m c t h0 h1, firstLeaves_acc1 m c t h0 h1]
  refine (second_cell (iblk m c 1 t) (iblk m c 3 t) (iblk m c 5 t) (k0_pay3 (F := Ideal)) (argB m c) (argB m c) (rowAt t) (tileB m c t) (residentB m c t) (normRowB m c t)).trans ?_
  rw [pay3_cell]; rfl

/-- Accumulator 1 after any later point of a row: what the point before left, plus the point's tile sum. -/
theorem acc1_next (t : Fin cfg0.N) (h0 : ¬t.val % 16 = 0) :
    ((sumsAt m c t.val t.isLt).2.2.2.2.1 (ValueIdx.ix3 (0 : Fin 1) (0 : Fin 1) (0 : Fin 1)) : EReal)
      = ((sumsAt m c (t.val - 1) (Nat.lt_of_le_of_lt (Nat.sub_le _ _) t.isLt)).2.2.2.2.1 (ValueIdx.ix3 (0 : Fin 1) (0 : Fin 1) (0 : Fin 1)) : EReal) + tileSum (argB m c) (argB m c) t := by
  by_cases h1 : t.val % 16 = 15
  · rw [sumsAt_last m c t h0 h1, lastLeaves_acc1 m c t h0 h1]
    exact second_cell (iblk m c 1 t) (iblk m c 3 t) (iblk m c 5 t) _ (argB m c) (argB m c) (rowAt t) (tileB m c t) (residentB m c t) (normRowB m c t)
  · rw [sumsAt_mid m c t h0 h1, midLeaves_acc1 m c t h0 h1]
    exact second_cell (iblk m c 1 t) (iblk m c 3 t) (iblk m c 5 t) _ (argB m c) (argB m c) (rowAt t) (tileB m c t) (residentB m c t) (normRowB m c t)

/-- At a row's last point result buffer 1 holds what accumulator 1 holds. -/
theorem out1_last (t : Fin cfg0.N) (h1 : t.val % 16 = 15) :
    (sumsAt m c t.val t.isLt).2.1 = (sumsAt m c t.val t.isLt).2.2.2.2.1 := by
  have h0 : ¬t.val % 16 = 0 := by omega
  rw [sumsAt_last m c t h0 h1, lastLeaves_out7 m c t h0 h1, lastLeaves_acc1 m c t h0 h1]

/-- Accumulator 1 as a sequence over the points, and the tile sums as one. -/
def accSeq1 (n : ℕ) : EReal := if h : n < cfg0.N then ((sumsAt m c n h).2.2.2.2.1 (ValueIdx.ix3 (0 : Fin 1) (0 : Fin 1) (0 : Fin 1)) : EReal) else 0
def tileSeq1 (n : ℕ) : EReal := if h : n < cfg0.N then tileSum (argB m c) (argB m c) ⟨n, h⟩ else 0

/-- Entry (q, 0, 0) of result array 1: the sum of grid row q's sixteen tile sums. -/
theorem result7_apply (q : Fin 2) :
    (result7 m c (ValueIdx.ix3 q (0 : Fin 1) (0 : Fin 1)) : EReal)
      = ∑ t : Fin 16, ∑ r : Fin 256, ∑ j : Fin 8192, kerTerm (argB m c) (argB m c) (row q t r) j := by
  have hN : cfg0.N = 32 := N_0
  have hq : 16 * q.val + 15 < cfg0.N := by have := q.isLt; omega
  have key := Cert.MmdAccum.row_sum cfg0.N (tileSeq1 m c) (accSeq1 m c)
    (fun n hn h0 => by
      unfold accSeq1 tileSeq1; rw [dif_pos hn, dif_pos hn]
      exact acc1_first m c ⟨n, hn⟩ h0)
    (fun n hn h0 => by
      have hn' : n - 1 < cfg0.N := by omega
      unfold accSeq1 tileSeq1; rw [dif_pos hn, dif_pos hn, dif_pos hn']
      exact acc1_next m c ⟨n, hn⟩ h0)
    q.val hq
  unfold result7
  show ((sumsAt m c (16 * q.val + 15) _).2.1 (ValueIdx.ix3 (0 : Fin 1) (0 : Fin 1) (0 : Fin 1)) : EReal) = _
  rw [out1_last m c ⟨16 * q.val + 15, hq⟩ (by show (16 * q.val + 15) % 16 = 15; omega)]
  have hA : accSeq1 m c (16 * q.val + 15) = ((sumsAt m c (16 * q.val + 15) hq).2.2.2.2.1 (ValueIdx.ix3 (0 : Fin 1) (0 : Fin 1) (0 : Fin 1)) : EReal) := by
    unfold accSeq1; rw [dif_pos hq]
  rw [← hA, key]
  refine Finset.sum_congr rfl fun t _ => ?_
  have ht : 16 * q.val + t.val < cfg0.N := by have := q.isLt; have := t.isLt; omega
  unfold tileSeq1; rw [dif_pos ht]
  unfold tileSum
  refine Finset.sum_congr rfl fun r _ => Finset.sum_congr rfl fun j _ => ?_
  congr 1

/-- Accumulator 2 after the first point of a row: the point's tile sum (added to the zero just stored). -/
theorem acc2_first (t : Fin cfg0.N) (h0 : t.val % 16 = 0) :
    ((sumsAt m c t.val t.isLt).2.2.2.2.2 (ValueIdx.ix3 (0 : Fin 1) (0 : Fin 1) (0 : Fin 1)) : EReal) = 0 + tileSum (argA m c) (argB m c) t := by
  have h1 : ¬t.val % 16 = 15 := by omega
  rw [sumsAt_first m c t h0 h1, firstLeaves_acc2 m c t h0 h1]
  refine (third_cell (iblk m c 0 t) (iblk m c 3 t) (iblk m c 5 t) (k0_pay4 (F := Ideal)) (argA m c) (argB m c) (rowAt t) (tileA m c t) (residentB m c t) (normRowB m c t)).trans ?_
  rw [pay4_cell]; rfl

/-- Accumulator 2 after any later point of a row: what the point before left, plus the point's tile sum. -/
theorem acc2_next (t : Fin cfg0.N) (h0 : ¬t.val % 16 = 0) :
    ((sumsAt m c t.val t.isLt).2.2.2.2.2 (ValueIdx.ix3 (0 : Fin 1) (0 : Fin 1) (0 : Fin 1)) : EReal)
      = ((sumsAt m c (t.val - 1) (Nat.lt_of_le_of_lt (Nat.sub_le _ _) t.isLt)).2.2.2.2.2 (ValueIdx.ix3 (0 : Fin 1) (0 : Fin 1) (0 : Fin 1)) : EReal) + tileSum (argA m c) (argB m c) t := by
  by_cases h1 : t.val % 16 = 15
  · rw [sumsAt_last m c t h0 h1, lastLeaves_acc2 m c t h0 h1]
    exact third_cell (iblk m c 0 t) (iblk m c 3 t) (iblk m c 5 t) _ (argA m c) (argB m c) (rowAt t) (tileA m c t) (residentB m c t) (normRowB m c t)
  · rw [sumsAt_mid m c t h0 h1, midLeaves_acc2 m c t h0 h1]
    exact third_cell (iblk m c 0 t) (iblk m c 3 t) (iblk m c 5 t) _ (argA m c) (argB m c) (rowAt t) (tileA m c t) (residentB m c t) (normRowB m c t)

/-- At a row's last point result buffer 2 holds what accumulator 2 holds. -/
theorem out2_last (t : Fin cfg0.N) (h1 : t.val % 16 = 15) :
    (sumsAt m c t.val t.isLt).2.2.1 = (sumsAt m c t.val t.isLt).2.2.2.2.2 := by
  have h0 : ¬t.val % 16 = 0 := by omega
  rw [sumsAt_last m c t h0 h1, lastLeaves_out8 m c t h0 h1, lastLeaves_acc2 m c t h0 h1]

/-- Accumulator 2 as a sequence over the points, and the tile sums as one. -/
def accSeq2 (n : ℕ) : EReal := if h : n < cfg0.N then ((sumsAt m c n h).2.2.2.2.2 (ValueIdx.ix3 (0 : Fin 1) (0 : Fin 1) (0 : Fin 1)) : EReal) else 0
def tileSeq2 (n : ℕ) : EReal := if h : n < cfg0.N then tileSum (argA m c) (argB m c) ⟨n, h⟩ else 0

/-- Entry (q, 0, 0) of result array 2: the sum of grid row q's sixteen tile sums. -/
theorem result8_apply (q : Fin 2) :
    (result8 m c (ValueIdx.ix3 q (0 : Fin 1) (0 : Fin 1)) : EReal)
      = ∑ t : Fin 16, ∑ r : Fin 256, ∑ j : Fin 8192, kerTerm (argA m c) (argB m c) (row q t r) j := by
  have hN : cfg0.N = 32 := N_0
  have hq : 16 * q.val + 15 < cfg0.N := by have := q.isLt; omega
  have key := Cert.MmdAccum.row_sum cfg0.N (tileSeq2 m c) (accSeq2 m c)
    (fun n hn h0 => by
      unfold accSeq2 tileSeq2; rw [dif_pos hn, dif_pos hn]
      exact acc2_first m c ⟨n, hn⟩ h0)
    (fun n hn h0 => by
      have hn' : n - 1 < cfg0.N := by omega
      unfold accSeq2 tileSeq2; rw [dif_pos hn, dif_pos hn, dif_pos hn']
      exact acc2_next m c ⟨n, hn⟩ h0)
    q.val hq
  unfold result8
  show ((sumsAt m c (16 * q.val + 15) _).2.2.1 (ValueIdx.ix3 (0 : Fin 1) (0 : Fin 1) (0 : Fin 1)) : EReal) = _
  rw [out2_last m c ⟨16 * q.val + 15, hq⟩ (by show (16 * q.val + 15) % 16 = 15; omega)]
  have hA : accSeq2 m c (16 * q.val + 15) = ((sumsAt m c (16 * q.val + 15) hq).2.2.2.2.2 (ValueIdx.ix3 (0 : Fin 1) (0 : Fin 1) (0 : Fin 1)) : EReal) := by
    unfold accSeq2; rw [dif_pos hq]
  rw [← hA, key]
  refine Finset.sum_congr rfl fun t _ => ?_
  have ht : 16 * q.val + t.val < cfg0.N := by have := q.isLt; have := t.isLt; omega
  unfold tileSeq2; rw [dif_pos ht]
  unfold tileSum
  refine Finset.sum_congr rfl fun r _ => Finset.sum_congr rfl fun j _ => ?_
  congr 1

/-! ## The scalar -/

set_option maxHeartbeats 4000000 in
/-- THE KERNEL'S VALUE: what the run computes for the result buffer is the kernel's arrangement of the two arguments. -/
theorem kernel_value : (Vend m (dats m) c (Proc.devRef .tc main_v25) : S_.Idx → EReal) = fun _ => Gker (argA m c) (argB m c) := by
  refine tail_Gker (Vexit m (dats m) c) (argA m c) (argB m c) (fun q => ?_) (fun q => ?_) (fun q => ?_)
  · show ((Vexit m (dats m) c (Proc.devRef .tc main_v16_0) : S2x1x1.Idx → EReal) (ValueIdx.ix3 q (0 : Fin 1) (0 : Fin 1))) = _
    rw [Vexit_6, final6]; exact result6_apply m c q
  · show ((Vexit m (dats m) c (Proc.devRef .tc main_v16_1) : S2x1x1.Idx → EReal) (ValueIdx.ix3 q (0 : Fin 1) (0 : Fin 1))) = _
    rw [Vexit_7, final7]; exact result7_apply m c q
  · show ((Vexit m (dats m) c (Proc.devRef .tc main_v16_2) : S2x1x1.Idx → EReal) (ValueIdx.ix3 q (0 : Fin 1) (0 : Fin 1))) = _
    rw [Vexit_8, final8]; exact result8_apply m c q

end Cert.KernelIdeal.Mmd

end
-- ==== Proof.RefValue.lean ====
/-
  The reference computes the all-pairs arrangement of the loss.  Reading its result term one operation at a time, at the
  ideal instance: each row-norm array holds at row a the sum over k of x(a,k)·x(a,k) (the initial value 0 added in front
  vanishes); the product with the transposed array holds at (a,b) the sum over k of x0(a,k)·x1(b,k); so the exponential's
  operand at (a,b) is (−1)·((nrm x0 a + nrm x1 b) − 2·dot x0 x1 a b), the sum over all indices of the [8192,8192] array is the
  double sum over a and b, and the last five scalar operations are the two quotients' sum minus twice the third
  quotient.  The same-cloud sums are the two-cloud sum with both clouds equal: their operations are the same operations,
  one for one.
-/
import proofs.«136887_j59356448031516_2_alg».proof.Proof.Gen.ReferenceIdeal.Read
import proofs.«136887_j59356448031516_2_alg».proof.Proof.Spec

noncomputable section

open scoped BigOperators

namespace Cert.ReferenceIdeal.RefValue

open Cert.ReferenceIdeal Cert.ReferenceIdeal.Gen Idealize.ShloMosaic Idealize.ShloMosaic.ValueIdx Cert.MmdSpec

/-- The row norms of a cloud: at row a, the squared norm of point a. -/
theorem norm_row (x : (⟨S8192x128, .f32⟩ : BufTy).Contents (Elt Ideal)) (a : Fin 8192) :
    Read.val_main_v42 (F := Ideal) x (ix1 a) = nrm (mat x) a := by
  rw [Read.val_main_v42_apply, Read.val_main_cst_11_apply, Ideal.ofBits_def, Ideal.ofBits_zero_f32, zero_add]
  unfold nrm
  refine Finset.sum_congr rfl fun k _ => ?_
  rw [Read.val_main_v41_apply, Ideal.mulf_def]
  have e : Read.idx_main_v42 (ix1 a) k = ix2 a k :=
    funext fun d => Fin.ext (by match d with | ⟨0, _⟩ => rfl | ⟨1, _⟩ => rfl)
  rw [e]; rfl

/-- The same for the second cloud's norms (the array that is later laid along the columns). -/
theorem norm_col (x : (⟨S8192x128, .f32⟩ : BufTy).Contents (Elt Ideal)) (b : Fin 8192) :
    Read.val_main_v45 (F := Ideal) x (ix1 b) = nrm (mat x) b := by
  rw [Read.val_main_v45_apply, Read.val_main_cst_12_apply, Ideal.ofBits_def, Ideal.ofBits_zero_f32, zero_add]
  unfold nrm
  refine Finset.sum_congr rfl fun k _ => ?_
  rw [Read.val_main_v44_apply, Ideal.mulf_def]
  have e : Read.idx_main_v45 (ix1 b) k = ix2 b k :=
    funext fun d => Fin.ext (by match d with | ⟨0, _⟩ => rfl | ⟨1, _⟩ => rfl)
  rw [e]; rfl

/-- The product of the first cloud with the second one transposed: at (a, b), the inner product of points a and b. -/
theorem inner (x0 x1 : (⟨S8192x128, .f32⟩ : BufTy).Contents (Elt Ideal)) (a b : Fin 8192) :
    Read.val_main_v52 (F := Ideal) x0 x1 (ix2 a b) = dot (mat x0) (mat x1) a b := by
  rw [Read.val_main_v52_apply]
  unfold dot
  refine Finset.sum_congr rfl fun k _ => ?_
  rw [Read.val_main_v51_apply]
  have el : Read.lidx_main_v52 (ix2 a b) k = ix2 a k :=
    funext fun d => Fin.ext (by match d with | ⟨0, _⟩ => rfl | ⟨1, _⟩ => rfl)
  have er : Read.idx_main_v51 (Read.ridx_main_v52 (ix2 a b) k) = ix2 b k :=
    funext fun d => Fin.ext (by match d with | ⟨0, _⟩ => rfl | ⟨1, _⟩ => rfl)
  rw [el, er]; rfl

/-- The exponentials' array: at (a, b), the Gaussian term of points a and b. -/
theorem term (x0 x1 : (⟨S8192x128, .f32⟩ : BufTy).Contents (Elt Ideal)) (a b : Fin 8192) :
    Read.val_main_v58 (F := Ideal) x0 x1 (ix2 a b) = refTerm (mat x0) (mat x1) a b := by
  rw [Read.val_main_v58_apply, Read.val_main_v57_apply, Read.val_main_v56_apply, Read.val_main_cst_14_apply,
    Read.val_main_v55_apply, Read.val_main_v50_apply, Read.val_main_v54_apply, Read.val_main_v53_apply,
    Read.val_main_cst_13_apply, Read.val_main_v48_apply, Read.val_main_v43_apply, Read.val_main_v49_apply,
    Read.val_main_v47_apply, Read.val_main_v46_apply]
  have e1 : Read.idx_main_v43 (Read.idx_main_v48 (ix2 a b)) = ix1 a :=
    funext fun d => Fin.ext (by match d with | ⟨0, _⟩ => rfl)
  have e2 : Read.idx_main_v46 (Read.idx_main_v47 (Read.idx_main_v49 (ix2 a b))) = ix1 b :=
    funext fun d => Fin.ext (by match d with | ⟨0, _⟩ => rfl)
  rw [e1, e2, norm_row, norm_col, inner]
  simp only [Ideal.hostUnary_exp_def, Ideal.mulf_def, Ideal.subf_def, Ideal.addf_def, Ideal.ofBits_def]
  rfl

/-- The sum of the exponentials' array over all its indices is the all-pairs sum of the two clouds. -/
theorem pair (x0 x1 : (⟨S8192x128, .f32⟩ : BufTy).Contents (Elt Ideal)) (i : S_.Idx) :
    Read.val_main_v59 (F := Ideal) x0 x1 i = Rpair (mat x0) (mat x1) := by
  rw [Read.val_main_v59_apply, Read.val_main_cst_15_apply, Ideal.ofBits_def, Ideal.ofBits_zero_f32, zero_add,
    ValueIdx.sum_idx2]
  unfold Rpair
  exact Finset.sum_congr rfl fun a _ => Finset.sum_congr rfl fun b _ => term x0 x1 a b

/-- The first cloud's own sum is computed by the same operations as the two-cloud sum, both clouds the first. -/
theorem pair_first (x : (⟨S8192x128, .f32⟩ : BufTy).Contents (Elt Ideal)) :
    Read.val_main_v18 (F := Ideal) x = Read.val_main_v59 (F := Ideal) x x := rfl

/-- The second cloud's own sum likewise. -/
theorem pair_second (x : (⟨S8192x128, .f32⟩ : BufTy).Contents (Elt Ideal)) :
    Read.val_main_v38 (F := Ideal) x = Read.val_main_v59 (F := Ideal) x x := rfl

/-- The reference's result, at the ideal instance, is the all-pairs arrangement of the loss of the two argument arrays. -/
theorem result_eq (x0 x1 : (⟨S8192x128, .f32⟩ : BufTy).Contents (Elt Ideal)) :
    Read.val_main_v62 (F := Ideal) x0 x1 = fun _ => Gref (mat x0) (mat x1) := by
  funext i
  rw [Read.val_main_v62_apply, Read.val_main_v40_apply, Read.val_main_v61_apply, Read.val_main_v19_apply,
    Read.val_main_v39_apply, Read.val_main_v60_apply, Read.val_main_cst_17_apply, Read.val_main_cst_4_apply,
    Read.val_main_cst_10_apply, Read.val_main_cst_16_apply, pair_first, pair_second, pair, pair, pair]
  simp only [Ideal.subf_def, Ideal.addf_def, Ideal.mulf_def, Ideal.hostDivf_def, Ideal.ofBits_def]
  rfl

end Cert.ReferenceIdeal.RefValue

end
-- ==== Proof.Finite.lean ====
/-
  From the precondition to finiteness.  The precondition compares, entry by entry, the absolute value of each argument
  array with +∞ (the float word 0x7F800000) and asks that every comparison hold.  An extended real whose absolute
  value max(x, −x) is strictly below +∞ is neither +∞ nor −∞, so it is a real.  Hence: if the precondition's
  predicate is all ones, every entry of both arrays is a real number.
-/
import proofs.«136887_j59356448031516_2_alg».proof.Pre_finite_inputs
import Idealize.ShloMosaic.Lib.ReduceAll
import Idealize.ShloMosaic.Lib.ValueIdx
import Idealize.ShloMosaic.PureOps.Ideal.Laws

noncomputable section

namespace Cert.MmdFinite

open Idealize.ShloMosaic Cert.Pre_finite_inputs

/-- The scalar shape has one index. -/
instance : Subsingleton S_.Idx := ⟨fun a b => funext fun d => d.elim0⟩

/-- An extended real whose absolute value is below +∞ is a real. -/
theorem real_of_abs_lt_top (x : EReal) (h : max x (-x) < ⊤) : ∃ r : ℝ, x = (r : EReal) := by
  induction x using EReal.rec with
  | bot => simp at h
  | coe r => exact ⟨r, rfl⟩
  | top => simp at h

/-- The word 0x7F800000 denotes +∞. -/
theorem ofBits_inf : Ideal.ofBits .f32 0x7F800000#32 = ⊤ := by
  simp [Ideal.ofBits, Ideal.ieee]

/-- One entry: the comparison |x| < +∞ holding says x is a real. -/
theorem real_of_abs_lt_inf (x : EReal)
    (h : Ideal.cmp .olt (max x (-x)) (Ideal.ofBits .f32 0x7F800000#32) = 1#1) : ∃ r : ℝ, x = (r : EReal) := by
  rw [ofBits_inf] at h
  refine real_of_abs_lt_top x ?_
  by_contra hn
  simp [Ideal.cmp, hn] at h

/-- If the finiteness predicate of the two argument arrays is all ones, every entry of both is a real. -/
theorem entries_real [Facts] (a0 a1 : FVec Ideal S8192x128 .f32)
    (h : fn (F := Ideal) a0 a1 = fun _ => 1#1) :
    (∀ i : S8192x128.Idx, ∃ r : ℝ, a0 i = (r : EReal)) ∧ (∀ i : S8192x128.Idx, ∃ r : ℝ, a1 i = (r : EReal)) := by
  have h0 := congrFun h ValueIdx.ix0
  dsimp only [fn] at h0
  obtain ⟨h3, h7⟩ := IntOp.andi_eq_one.1 h0
  constructor
  · intro i
    have e := Host.reduce_andi_all _ _ _ _ _ h3 i
    exact real_of_abs_lt_inf (a0 i) e
  · intro i
    have e := Host.reduce_andi_all _ _ _ _ _ h7 i
    exact real_of_abs_lt_inf (a1 i) e

end Cert.MmdFinite

end
-- ==== Proof.RefLaw.lean ====
/-
  The reference's result under the precondition: the precondition makes every entry of both clouds a real, on real clouds
  the all-pairs arrangement of the loss equals the slabbed one, and the reference computes the all-pairs arrangement; so its
  result is the slabbed arrangement of the two argument arrays.
-/
import proofs.«136887_j59356448031516_2_alg».proof.Proof.RefValue
import proofs.«136887_j59356448031516_2_alg».proof.Proof.Finite

noncomputable section

namespace Cert.ReferenceIdeal.RefValue

open Cert.ReferenceIdeal Idealize.ShloMosaic Cert.MmdSpec

/-- With the finiteness predicate all ones on the two argument arrays, the reference's result is the slabbed
    arrangement of the loss. -/
theorem result_eq_Gker [Cert.Pre_finite_inputs.Facts] (x0 x1 : (⟨S8192x128, .f32⟩ : BufTy).Contents (Elt Ideal))
    (h : Cert.Pre_finite_inputs.fn (F := Ideal) x0 x1 = fun _ => 1#1) :
    Read.val_main_v62 (F := Ideal) x0 x1 = fun _ => Gker (mat x0) (mat x1) := by
  obtain ⟨h0, h1⟩ := Cert.MmdFinite.entries_real x0 x1 h
  rw [result_eq, Gref_eq_Gker (mat x0) (mat x1) (fun i k => h0 (ValueIdx.ix2 i k)) (fun i k => h1 (ValueIdx.ix2 i k))]

end Cert.ReferenceIdeal.RefValue

end
-- ==== Proof.lean ====
/-
  An RBF maximum-mean-discrepancy loss over x, y : f32[8192, 128],
      mean_ij e^{-|x_i - x_j|²} + mean_ij e^{-|y_i - y_j|²} - 2 · mean_ij e^{-|x_i - y_j|²},
  computed by a kernel that streams tiles of 256 rows over a 2 × 16 grid and keeps three running sums, against a plain
  jnp reference that forms the three 8192 × 8192 matrices.

  The three frames: the reference is a host program (its generated run gives the frame); the kernel's programs run
  under the launch of `Proof/Launch.lean` with the body's proof data of `Proof/BodyData.lean`, read at the word
  level for `Kernel` (the same modules with the program's namespace substituted, `Proof/K*.lean`) and at the ideal
  instance for `KernelIdeal`.

  The value claim, at the ideal instance: the kernel's scalar is the arrangement
      (K(x,x)/2²⁶ + K(y,y)/2²⁶) − (2·K(x,y))/2²⁶,   K(a,b) = Σ_tiles Σ_{i in tile} Σ_j exp((2⟨a_i,b_j⟩ + (−1)|a_i|²) + (−1)|b_j|²)
  (`Proof/KernelValue.lean`), the reference's is
      (R(x,x)/2²⁶ + R(y,y)/2²⁶) − 2·(R(x,y)/2²⁶),   R(a,b) = Σ_i Σ_j exp(−1·((|a_i|² + |b_j|²) − 2⟨a_i,b_j⟩))
  (`Proof/RefValue.lean`), and the two are equal when every entry is a real number (`Proof/Spec.lean`: distributing
  −1 over the difference and moving the factor 2 across the quotient need finiteness), which the precondition says
  (`Proof/Finite.lean`).
-/
import proofs.«136887_j59356448031516_2_alg».proof.Defs
import proofs.«136887_j59356448031516_2_alg».proof.Proof.Gen.Kernel
import proofs.«136887_j59356448031516_2_alg».proof.Proof.Gen.KernelIdeal
import proofs.«136887_j59356448031516_2_alg».proof.Proof.Gen.ReferenceIdeal
import proofs.«136887_j59356448031516_2_alg».proof.Proof.Gen.ReferenceIdeal.Run
import proofs.«136887_j59356448031516_2_alg».proof.Proof.Gen.ReferenceIdeal.Read
import proofs.«136887_j59356448031516_2_alg».proof.Proof.Gen.Pre_finite_inputs
import proofs.«136887_j59356448031516_2_alg».proof.Proof.KFrame
import proofs.«136887_j59356448031516_2_alg».proof.Proof.Frame
import proofs.«136887_j59356448031516_2_alg».proof.Proof.KernelValue
import proofs.«136887_j59356448031516_2_alg».proof.Proof.RefLaw
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Mmd.frame m ρ

theorem frame_ki : Cert.frame_KernelIdeal := fun m ρ _ => Cert.KernelIdeal.Mmd.frame m ρ

theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: the idealization is the program's own text read at the ideal instance. -/
theorem preserves : Cert.preserves_Kernel_KernelIdeal := trivial

/-- Both programs end at the kernel's arrangement of the (agreeing, finite) arguments. -/
theorem algebraic : Cert.algebraic_KernelIdeal_ReferenceIdeal := by
  intro m ρ m' ρ' hpre hagree
  refine ⟨fun c => (fun _ => Cert.MmdSpec.Gker (Cert.KernelIdeal.Mmd.argA m c) (Cert.KernelIdeal.Mmd.argB m c)), ?_, ?_⟩
  · exact (θ_run Cert.KernelIdeal.defs _ _).mono (fun r h c =>
      ⟨(h c Cert.KernelIdeal.main_v25 Cert.KernelIdeal.Mmd.v25_unscoped).trans (Cert.KernelIdeal.Mmd.kernel_value m c),
        (h c Cert.KernelIdeal.main_arg0 Cert.KernelIdeal.Mmd.arg0_unscoped).trans (Cert.KernelIdeal.Mmd.Vend_arg0 m (Cert.KernelIdeal.Mmd.dats m) c),
        (h c Cert.KernelIdeal.main_arg1 Cert.KernelIdeal.Mmd.arg1_unscoped).trans (Cert.KernelIdeal.Mmd.Vend_arg1 m (Cert.KernelIdeal.Mmd.dats m) c)⟩)
      (Cert.KernelIdeal.Mmd.run_main m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v62_eq, (hagree c).1, (hagree c).2]
    exact Cert.ReferenceIdeal.RefValue.result_eq_Gker _ _ (hpre c)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
